-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v227) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x11 : Shape := ⟨2, ![100000, 11]⟩
abbrev S2x400000 : Shape := ⟨2, ![2, 400000]⟩
abbrev S100000 : Shape := ⟨1, ![100000]⟩
abbrev S11x128 : Shape := ⟨2, ![11, 128]⟩
abbrev S128 : Shape := ⟨1, ![128]⟩
abbrev S3x128x128 : Shape := ⟨3, ![3, 128, 128]⟩
abbrev S3x128 : Shape := ⟨2, ![3, 128]⟩
abbrev S4x128 : Shape := ⟨2, ![4, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S100000x11 : S_.BroadcastsInDim S100000x11 (![] : Fin 0 → Fin S100000x11.rank)
  reducesTo_S100000x11_S_d0_1 : S100000x11.ReducesTo [0, 1] S_
  h_S_ : 0 < S_.numel
  bcast_S_S11x128 : S_.BroadcastsInDim S11x128 (![] : Fin 0 → Fin S11x128.rank)
  reducesTo_S11x128_S_d0_1 : S11x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S4x128 : S_.BroadcastsInDim S4x128 (![] : Fin 0 → Fin S4x128.rank)
  reducesTo_S4x128_S_d0_1 : S4x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S128 .f32) (main_arg17 : FVec F S128x1 .f32) (main_arg18 : FVec F S1 .f32) (main_v63 : IVec S_ 1) (main_v67 : IVec S_ 1) : IVec S_ 1 :=
  let main_v68 : IVec S_ 1 := andi main_v63 main_v67
  let main_v69 : FVec F S128 .f32 := Host.absf main_arg16
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg17
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg18
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg13 : FVec F S128x128 .f32) (main_arg14 : FVec F S128 .f32) (main_arg15 : FVec F S128x128 .f32) (main_arg16 : FVec F S128 .f32) (main_arg17 : FVec F S128x1 .f32) (main_arg18 : FVec F S1 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg15
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg16 main_arg17 main_arg18 main_v63 main_v67

def fn_part2 {F : FTy → Type} [FloatOps F] (main_arg9 : FVec F S4x128 .f32) (main_arg10 : FVec F S4x128 .f32) (main_arg11 : FVec F S4x128 .f32) (main_arg12 : FVec F S4x128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128 .f32 := Host.absf main_arg11
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128 .f32 := Host.absf main_arg12
  let main_cst_18 : FVec F S_ .f32 := constant S_ .f32 0x7F800000#32
  let main_v50 : FVec F S4x128 .f32 := broadcastInDim S4x128 ![] bcast_S_S4x128 main_cst_18
  fn_part3 (F := F) main_arg13 main_arg14 main_arg15 main_arg16 main_arg17 main_arg18 main_v48 main_v49 main_v50

def fn_part1 {F : FTy → Type} [FloatOps F] (main_arg6 : FVec F S3x128x128 .f32) (main_arg7 : FVec F S3x128x128 .f32) (main_arg8 : FVec F S3x128 .f32) (main_arg9 : FVec F S4x128 .f32) (main_arg10 : FVec F S4x128 .f32) (main_arg11 : FVec F S4x128 .f32) (main_arg12 : FVec F S4x128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128x128 .f32 := Host.absf main_arg7
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x11 .f32) (main_arg1 : IVec S2x400000 32) (main_arg2 : IVec S100000 32) (main_arg3 : FVec F S11x128 .f32) (main_arg4 : FVec F S11x128 .f32) (main_arg5 : FVec F S128 .f32) (main_arg6 : FVec F S3x128x128 .f32) (main_arg7 : FVec F S3x128x128 .f32) (main_arg8 : FVec F S3x128 .f32) (main_arg9 : FVec F S4x128 .f32) (main_arg10 : FVec F S4x128 .f32) (main_arg11 : FVec F S4x128 .f32) (main_arg12 : FVec F S4x128 .f32) (main_arg13 : FVec F S128x128 .f32) (main_arg14 : FVec F S128 .f32) (main_arg15 : FVec F S128x128 .f32) (main_arg16 : FVec F S128 .f32) (main_arg17 : FVec F S128x1 .f32) (main_arg18 : FVec F S1 .f32) : IVec S_ 1 :=
  let main_v0 : FVec F S100000x11 .f32 := Host.absf main_arg0
  let main_cst : FVec F S_ .f32 := constant S_ .f32 0x7F800000#32
  let main_v1 : FVec F S100000x11 .f32 := broadcastInDim S100000x11 ![] bcast_S_S100000x11 main_cst
  let main_v2 : IVec S100000x11 1 := cmpf .olt main_v0 main_v1
  let main_c : IVec S_ 1 := constantI S_ 1 1#1
  let main_v3 : IVec S_ 1 := (fun x v => Host.reduce IntOp.andi x v reducesTo_S100000x11_S_d0_1 h_S_) main_v2 main_c
  let main_v4 : FVec F S11x128 .f32 := Host.absf main_arg3
  let main_cst_0 : FVec F S_ .f32 := constant S_ .f32 0x7F800000#32
  let main_v5 : FVec F S11x128 .f32 := broadcastInDim S11x128 ![] bcast_S_S11x128 main_cst_0
  let main_v6 : IVec S11x128 1 := cmpf .olt main_v4 main_v5
  let main_c_1 : IVec S_ 1 := constantI S_ 1 1#1
  let main_v7 : IVec S_ 1 := (fun x v => Host.reduce IntOp.andi x v reducesTo_S11x128_S_d0_1 h_S_) main_v6 main_c_1
  let main_v8 : IVec S_ 1 := andi main_v3 main_v7
  let main_v9 : FVec F S11x128 .f32 := Host.absf main_arg4
  let main_cst_2 : FVec F S_ .f32 := constant S_ .f32 0x7F800000#32
  let main_v10 : FVec F S11x128 .f32 := broadcastInDim S11x128 ![] bcast_S_S11x128 main_cst_2
  let main_v11 : IVec S11x128 1 := cmpf .olt main_v9 main_v10
  let main_c_3 : IVec S_ 1 := constantI S_ 1 1#1
  let main_v12 : IVec S_ 1 := (fun x v => Host.reduce IntOp.andi x v reducesTo_S11x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x11 : Shape := ⟨2, ![100000, 11]⟩
abbrev S2x400000 : Shape := ⟨2, ![2, 400000]⟩
abbrev S100000 : Shape := ⟨1, ![100000]⟩
abbrev S11x128 : Shape := ⟨2, ![11, 128]⟩
abbrev S128 : Shape := ⟨1, ![128]⟩
abbrev S3x128x128 : Shape := ⟨3, ![3, 128, 128]⟩
abbrev S3x128 : Shape := ⟨2, ![3, 128]⟩
abbrev S4x128 : Shape := ⟨2, ![4, 128]⟩
abbrev S128x128 : Shape := ⟨2, ![128, 128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S100000x1 : Shape := ⟨2, ![100000, 1]⟩
abbrev S400000x11 : Shape := ⟨2, ![400000, 11]⟩
abbrev S1x128 : Shape := ⟨2, ![1, 128]⟩
abbrev S100000x128 : Shape := ⟨2, ![100000, 128]⟩
abbrev S4000x11 : Shape := ⟨2, ![4000, 11]⟩
abbrev S4000x128 : Shape := ⟨2, ![4000, 128]⟩
abbrev S400000x128 : Shape := ⟨2, ![400000, 128]⟩
abbrev S1x128x128 : Shape := ⟨3, ![1, 128, 128]⟩
abbrev S5000 : Shape := ⟨1, ![5000]⟩
abbrev S5000x128 : Shape := ⟨2, ![5000, 128]⟩
abbrev S5000x1 : Shape := ⟨2, ![5000, 1]⟩
abbrev S1x1 : Shape := ⟨2, ![1, 1]⟩

abbrev nBuf : Space → Nat
  | .hbm => 167
  | .vmem => 60
  | .smem => 0
  | _ => 0

abbrev hbmTy0_0 (i : Nat) : BufTy := match i % 128 with
  | 0 => ⟨S100000x11, .f32⟩
  | 1 => ⟨S2x400000, .i32⟩
  | 2 => ⟨S100000, .i32⟩
  | 3 => ⟨S11x128, .f32⟩
  | 4 => ⟨S11x128, .f32⟩
  | 5 => ⟨S128, .f32⟩
  | 6 => ⟨S3x128x128, .f32⟩
  | 7 => ⟨S3x128x128, .f32⟩
  | 8 => ⟨S3x128, .f32⟩
  | 9 => ⟨S4x128, .f32⟩
  | 10 => ⟨S4x128, .f32⟩
  | 11 => ⟨S4x128, .f32⟩
  | 12 => ⟨S4x128, .f32⟩
  | 13 => ⟨S128x128, .f32⟩
  | 14 => ⟨S128, .f32⟩
  | 15 => ⟨S128x128, .f32⟩
  | 16 => ⟨S128, .f32⟩
  | 17 => ⟨S128x1, .f32⟩
  | 18 => ⟨S1, .f32⟩
  | 19 => ⟨S1x400000, .i32⟩
  | 20 => ⟨S400000, .i32⟩
  | 21 => ⟨S1x400000, .i32⟩
  | 22 => ⟨S400000, .i32⟩
  | 23 => ⟨S_, .f32⟩
  | 24 => ⟨S400000, .f32⟩
  | 25 => ⟨S_, .f32⟩
  | 26 => ⟨S100000, .f32⟩
  | 27 => ⟨S400000x1, .i32⟩
  | 28 => ⟨S100000, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000x1, .f32⟩
  | 36 => ⟨S_, .i32⟩
  | 37 => ⟨S400000, .i32⟩
  | 38 => ⟨S400000, .i1⟩
  | 39 => ⟨S_, .i32⟩
  | 40 => ⟨S400000, .i32⟩
  | 41 => ⟨S400000, .i32⟩
  | 42 => ⟨S400000, .i32⟩
  | 43 => ⟨S400000x1, .i32⟩
  | 44 => ⟨S400000x11, .f32⟩
  | 45 => ⟨S_, .f32⟩
  | 46 => ⟨S100000x11, .f32⟩
  | 47 => ⟨S400000x1, .i32⟩
  | 48 => ⟨S100000x11, .f32⟩
  | 49 => ⟨S100000x11, .f32⟩
  | 50 => ⟨S100000x11, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S128, .f32⟩
  | 57 => ⟨S1x128, .f32⟩
  | 58 => ⟨S128, .f32⟩
  | 59 => ⟨S100000x128, .f32⟩
  | 60 => ⟨S_, .i32⟩
  | 61 => ⟨S400000, .i32⟩
  | 62 => ⟨S400000, .i1⟩
  | 63 => ⟨S_, .i32⟩
  | 64 => ⟨S400000, .i32⟩
  | 65 => ⟨S400000, .i32⟩
  | 66 => ⟨S400000, .i32⟩
  | 67 => ⟨S400000x1, .i32⟩
  | 68 => ⟨S400000x128, .f32⟩
  | 69 => ⟨S_, .f32⟩
  | 70 => ⟨S100000x128, .f32⟩
  | 71 => ⟨S400000x1, .i32⟩
  | 72 => ⟨S100000x128, .f32⟩
  | 73 => ⟨S100000x128, .f32⟩
  | 74 => ⟨S100000x128, .f32⟩
  | 75 => ⟨S1x128x128, .f32⟩
  | 76 => ⟨S128x128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S128, .f32⟩
  | 87 => ⟨S1x128, .f32⟩
  | 88 => ⟨S128, .f32⟩
  | 89 => ⟨S100000x128, .f32⟩
  | 90 => ⟨S_, .i32⟩
  | 91 => ⟨S400000, .i32⟩
  | 92 => ⟨S400000, .i1⟩
  | 93 => ⟨S_, .i32⟩
  | 94 => ⟨S400000, .i32⟩
  | 95 => ⟨S400000, .i32⟩
  | 96 => ⟨S400000, .i32⟩
  | 97 => ⟨S400000x1, .i32⟩
  | 98 => ⟨S400000x128, .f32⟩
  | 99 => ⟨S_, .f32⟩
  | 100 => ⟨S100000x128, .f32⟩
  | 101 => ⟨S400000x1, .i32⟩
  | 102 => ⟨S100000x128, .f32⟩
  | 103 => ⟨S100000x128, .f32⟩
  | 104 => ⟨S100000x128, .f32⟩
  | 105 => ⟨S1x128x128, .f32⟩
  | 106 => ⟨S128x128, .f32⟩
  | 107 => ⟨S1x128x128, .f32⟩
  | 108 => ⟨S128x128, .f32⟩
  | 109 => ⟨S1x128, .f32⟩
  | 110 => ⟨S128, .f32⟩
  | 111 => ⟨S1x128, .f32⟩
  | 112 => ⟨S128, .f32⟩
  | 113 => ⟨S1x128, .f32⟩
  | 114 => ⟨S128, .f32⟩
  | 115 => ⟨S1x128, .f32⟩
  | 116 => ⟨S128, .f32⟩
  | 117 => ⟨S1x128, .f32⟩
  | 118 => ⟨S128, .f32⟩
  | 119 => ⟨S100000x128, .f32⟩
  | 120 => ⟨S_, .i32⟩
  | 121 => ⟨S400000, .i32⟩
  | 122 => ⟨S400000, .i1⟩
  | 123 => ⟨S_, .i32⟩
  | 124 => ⟨S400000, .i32⟩
  | 125 => ⟨S400000, .i32⟩
  | 126 => ⟨S400000, .i32⟩
  | 127 => ⟨S400000x1, .i32⟩
  | _ => ⟨S100000x11, .f32⟩

abbrev hbmTy0_1 (i : Nat) : BufTy := match i % 128 with
  | 0 => ⟨S400000x128, .f32⟩
  | 1 => ⟨S_, .f32⟩
  | 2 => ⟨S100000x128, .f32⟩
  | 3 => ⟨S400000x1, .i32⟩
  | 4 => ⟨S100000x128, .f32⟩
  | 5 => ⟨S100000x128, .f32⟩
  | 6 => ⟨S100000x128, .f32⟩
  | 7 => ⟨S1x128x128, .f32⟩
  | 8 => ⟨S128x128, .f32⟩
  | 9 => ⟨S1x128x128, .f32⟩
  | 10 => ⟨S128x128, .f32⟩
  | 11 => ⟨S1x128, .f32⟩
  | 12 => ⟨S128, .f32⟩
  | 13 => ⟨S1x128, .f32⟩
  | 14 => ⟨S128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S100000x128, .f32⟩
  | 22 => ⟨S_, .f32⟩
  | 23 => ⟨S100000, .f32⟩
  | 24 => ⟨S_, .f32⟩
  | 25 => ⟨S5000, .f32⟩
  | 26 => ⟨S100000x1, .i32⟩
  | 27 => ⟨S5000, .f32⟩
  | 28 => ⟨S_, .f32⟩
  | 29 => ⟨S5000x128, .f32⟩
  | 30 => ⟨S100000x1, .i32⟩
  | 31 => ⟨S5000x128, .f32⟩
  | 32 => ⟨S_, .f32⟩
  | 33 => ⟨S5000, .f32⟩
  | 34 => ⟨S5000, .f32⟩
  | 35 => ⟨S5000x1, .f32⟩
  | 36 => ⟨S5000x128, .f32⟩
  | 37 => ⟨S5000x128, .f32⟩
  | 38 => ⟨S5000x1, .f32⟩
  | _ => ⟨S100000x11, .f32⟩

abbrev hbmTy (i : Nat) : BufTy := match i / 128 with
  | 0 => hbmTy0_0 i
  | 1 => hbmTy0_1 i
  | _ => ⟨S100000x11, .f32⟩

abbrev bufTy : (tb : Table) → Fin (tcTables nBuf tb) → BufTy
  | .hbm, ⟨i, _⟩ => hbmTy i
  | .local _ .vmem, ⟨0, _⟩ => ⟨S4000x11, .f32⟩
  | .local _ .vmem, ⟨1, _⟩ => ⟨S4000x11, .f32⟩
  | .local _ .vmem, ⟨2, _⟩ => ⟨S4000x11, .f32⟩
  | .local _ .vmem, ⟨3, _⟩ => ⟨S4000x11, .f32⟩
  | .local _ .vmem, ⟨4, _⟩ => ⟨S11x128, .f32⟩
  | .local _ .vmem, ⟨5, _⟩ => ⟨S11x128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S4000x128, .f32⟩
  | .local _ .vmem, ⟨25, _⟩ => ⟨S4000x128, .f32⟩
  | .local _ .vmem, ⟨26, _⟩ => ⟨S4000x128, .f32⟩
  | .local _ .vmem, ⟨27, _⟩ => ⟨S4000x128, .f32⟩
  | .local _ .vmem, ⟨28, _⟩ => ⟨S4000x128, .f32⟩
  | .local _ .vmem, ⟨29, _⟩ => ⟨S4000x128, .f32⟩
  | .local _ .vmem, ⟨30, _⟩ => ⟨S128x128, .f32⟩
  | .local _ .vmem, ⟨31, _⟩ => ⟨S128x128, .f32⟩
  | .local _ .vmem, ⟨32, _⟩ => ⟨S128, .f32⟩
  | .local _ .vmem, ⟨33, _⟩ => ⟨S128, .f32⟩
  | .local _ .vmem, ⟨34, _⟩ => ⟨S128, .f32⟩
  | .local _ .vmem, ⟨35, _⟩ => ⟨S128, .f32⟩
  | .local _ .vmem, ⟨36, _⟩ => ⟨S128, .f32⟩
  | .local _ .vmem, ⟨37, _⟩ => ⟨S4000x128, .f32⟩
  | .local _ .vmem, ⟨38, _⟩ => ⟨S4000x128, .f32⟩
  | .local _ .vmem, ⟨39, _⟩ => ⟨S4000x128, .f32⟩
  | .local _ .vmem, ⟨40, _⟩ => ⟨S4000x128, .f32⟩
  | .local _ .vmem, ⟨41, _⟩ => ⟨S4000x128, .f32⟩
  | .local _ .vmem, ⟨42, _⟩ => ⟨S4000x128, .f32⟩
  | .local _ .vmem, ⟨43, _⟩ => ⟨S128x128, .f32⟩
  | .local _ .vmem, ⟨44, _⟩ => ⟨S128x128, .f32⟩
  | .local _ .vmem, ⟨45, _⟩ => ⟨S128, .f32⟩
  | .local _ .vmem, ⟨46, _⟩ => ⟨S128, .f32⟩
  | .local _ .vmem, ⟨47, _⟩ => ⟨S128, .f32⟩
  | .local _ .vmem, ⟨48, _⟩ => ⟨S128, .f32⟩
  | .local _ .vmem, ⟨49, _⟩ => ⟨S128, .f32⟩
  | .local _ .vmem, ⟨50, _⟩ => ⟨S4000x128, .f32⟩
  | .local _ .vmem, ⟨51, _⟩ => ⟨S4000x128, .f32⟩
  | .local _ .vmem, ⟨52, _⟩ => ⟨S5000x128, .f32⟩
  | .local _ .vmem, ⟨53, _⟩ => ⟨S128x128, .f32⟩
  | .local _ .vmem, ⟨54, _⟩ => ⟨S128, .f32⟩
  | .local _ .vmem, ⟨55, _⟩ => ⟨S128x128, .f32⟩
  | .local _ .vmem, ⟨56, _⟩ => ⟨S128, .f32⟩
  | .local _ .vmem, ⟨57, _⟩ => ⟨S128x1, .f32⟩
  | .local _ .vmem, ⟨58, _⟩ => ⟨S1, .f32⟩
  | .local _ .vmem, ⟨59, _⟩ => ⟨S5000x1, .f32⟩
  | _, _ => ⟨S100000x11, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_5 : Ref sig .tc := ⟨.hbm, 60, rfl⟩
abbrev main_v34 : Ref sig .tc := ⟨.hbm, 61, rfl⟩
abbrev main_v35 : Ref sig .tc := ⟨.hbm, 62, rfl⟩
abbrev main_c_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_7 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_c_8 : Ref sig .tc := ⟨.hbm, 90, rfl⟩
abbrev main_v61 : Ref sig .tc := ⟨.hbm, 91, rfl⟩
abbrev main_v62 : Ref sig .tc := ⟨.hbm, 92, rfl⟩
abbrev main_c_9 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_10 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_c_11 : Ref sig .tc := ⟨.hbm, 120, rfl⟩
abbrev main_v88 : Ref sig .tc := ⟨.hbm, 121, rfl⟩
abbrev main_v89 : Ref sig .tc := ⟨.hbm, 122, rfl⟩
abbrev main_c_12 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_13 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_cst_14 : Ref sig .tc := ⟨.hbm, 150, rfl⟩
abbrev main_v115 : Ref sig .tc := ⟨.hbm, 151, rfl⟩
abbrev main_cst_15 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_cst_16 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_17 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg8_0 : Ref sig .tc := ⟨.vmem, 36, rfl⟩
abbrev cc2_stg9_0 : Ref sig .tc := ⟨.vmem, 37, rfl⟩
abbrev cc2_stg9_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg3_0 : Ref sig .tc := ⟨.vmem, 44, rfl⟩
abbrev cc3_stg4_0 : Ref sig .tc := ⟨.vmem, 45, rfl⟩
abbrev cc3_stg5_0 : Ref sig .tc := ⟨.vmem, 46, rfl⟩
abbrev cc3_stg6_0 : Ref sig .tc := ⟨.vmem, 47, rfl⟩
abbrev cc3_stg7_0 : Ref sig .tc := ⟨.vmem, 48, rfl⟩
abbrev cc3_stg8_0 : Ref sig .tc := ⟨.vmem, 49, rfl⟩
abbrev cc3_stg9_0 : Ref sig .tc := ⟨.vmem, 50, rfl⟩
abbrev cc3_stg9_1 : Ref sig .tc := ⟨.vmem, 51, rfl⟩
abbrev cc4_stg0_0 : Ref sig .tc := ⟨.vmem, 52, rfl⟩
abbrev cc4_stg1_0 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg7_0 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem8_0 : DmaSem sig := 36
abbrev cc2_sem9_0 : DmaSem sig := 37
abbrev cc2_sem9_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem3_0 : DmaSem sig := 44
abbrev cc3_sem4_0 : DmaSem sig := 45
abbrev cc3_sem5_0 : DmaSem sig := 46
abbrev cc3_sem6_0 : DmaSem sig := 47
abbrev cc3_sem7_0 : DmaSem sig := 48
abbrev cc3_sem8_0 : DmaSem sig := 49
abbrev cc3_sem9_0 : DmaSem sig := 50
abbrev cc3_sem9_1 : DmaSem sig := 51
abbrev cc4_sem0_0 : DmaSem sig := 52
abbrev cc4_sem1_0 : DmaSem sig := 53
abbrev cc4_sem2_0 : DmaSem sig := 54
abbrev cc4_sem3_0 : DmaSem sig := 55
abbrev cc4_sem4_0 : DmaSem sig := 56
abbrev cc4_sem5_0 : DmaSem sig := 57
abbrev cc4_sem6_0 : DmaSem sig := 58
abbrev cc4_sem7_0 : DmaSem sig := 59

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x11 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x11 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S11x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S11x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S4000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 2 → Memref sig .tc .vmem S4000x128 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S5000x128 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S5000x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S100000_S100000x1_0 : S100000.BroadcastsInDim S100000x1 (![0] : Fin 1 → Fin S100000x1.rank)
  bcast_S_S100000x11 : S_.BroadcastsInDim S100000x11 (![] : Fin 0 → Fin S100000x11.rank)
  bcast_S100000x1_S100000x11_0_1 : S100000x1.BroadcastsInDim S100000x11 (![0, 1] : Fin 2 → Fin S100000x11.rank)
  slices_S4x128_S1x128_0_0 : S4x128.Slices ![0, 0] S1x128
  shapeCasts_S1x128_S128 : S1x128.ShapeCasts S128
  inb_S4000x11_S4000x11_0_0 : ∀ a, (![0, 0] : Fin 2 → Nat) a + S4000x11.size a ≤ S4000x11.size a
  h_S4000x11 : 0 < S4000x11.numel
  shapeCasts_S4000x11_S4000x11 : S4000x11.ShapeCasts S4000x11
  inb_S11x128_S11x128_0_0 : ∀ a, (![0, 0] : Fin 2 → Nat) a + S11x128.size a ≤ S11x128.size a
  h_S11x128 : 0 < S11x128.numel
  bitsLt_bf16_f32 : FTy.bits .bf16 < FTy.bits .f32
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  shapeCasts_S128_S128 : S128.ShapeCasts S128
  inb_S4000x128_S4000x128_0_0 : ∀ a, (![0, 0] : Fin 2 → Nat) a + S4000x128.size a ≤ S4000x128.size a
  h_S4000x128 : 0 < S4000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  slices_S4x128_S1x128_1_0 : S4x128.Slices ![1, 0] S1x128
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S3x128x128_S1x128x128_1_0_0 : S3x128x128.Slices ![1, 0, 0] S1x128x128
  slices_S3x128_S1x128_1_0 : S3x128.Slices ![1, 0] S1x128
  slices_S4x128_S1x128_2_0 : S4x128.Slices ![2, 0] S1x128
  slices_S3x128x128_S1x128x128_2_0_0 : S3x128x128.Slices ![2, 0, 0] S1x128x128
  slices_S3x128_S1x128_2_0 : S3x128.Slices ![2, 0] S1x128
  slices_S4x128_S1x128_3_0 : S4x128.Slices ![3, 0] S1x128
  bcast_S_S5000 : S_.BroadcastsInDim S5000 (![] : Fin 0 → Fin S5000.rank)
  bcast_S_S5000x128 : S_.BroadcastsInDim S5000x128 (![] : Fin 0 → Fin S5000x128.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1_S1_0 : ∀ a, (![0] : Fin 1 → Nat) a + S1.size a ≤ S1.size a
  h_S1 : 0 < S1.numel
  shapeCasts_S1_S1x1 : S1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S400000x1_S400000_n_0_0_1_wf : ScatterDims.WF S100000 S400000x1 S400000 [] [0] [0] 1
  gather_S100000x11_S400000x1_S400000x11_1_0_n_n_0_1_111_wf : GatherDims.WF S100000x11 S400000x1 S400000x11 [1] [0] [] [0] [] 1 ![1, 11]
  scatter_S100000x11_S400000x1_S400000x11_1_0_0_1_wf : ScatterDims.WF S100000x11 S400000x1 S400000x11 [1] [0] [0] 1
  dot_S4000x11_S11x128_S4000x128_1_0_0_1_n_n_wf : DotDims.WF S4000x11 S11x128 S4000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S4000x128_S128x128_S4000x128_1_0_0_1_n_n_wf : DotDims.WF S4000x128 S128x128 S4000x128 [1] [0] [0] [1] [] []
  scatter_S5000_S100000x1_S100000_n_0_0_1_wf : ScatterDims.WF S5000 S100000x1 S100000 [] [0] [0] 1
  scatter_S5000x128_S100000x1_S100000x128_1_0_0_1_wf : ScatterDims.WF S5000x128 S100000x1 S100000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x11.size a ≤ S100000x11.size a
  hwx0_0 : ∀ i : grid0.Coords, EltTy.bits .f32 = 32 ∨ (Rect.block (s := S100000x11) S4000x11.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x11.size a ≤ S100000x11.size a
  hwx0_1 : ∀ i : grid0.Coords, EltTy.bits .f32 = 32 ∨ (Rect.block (s := S100000x11) S4000x11.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S11x128.size a ≤ S11x128.size a
  hwx0_2 : ∀ i : grid0.Coords, EltTy.bits .f32 = 32 ∨ (Rect.block (s := S11x128) S11x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S11x128.size a ≤ S11x128.size a
  hwx0_3 : ∀ i : grid0.Coords, EltTy.bits .f32 = 32 ∨ (Rect.block (s := S11x128) S11x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x128.size a ≤ S100000x128.size a
  hwx0_9 : ∀ i : grid0.Coords, EltTy.bits .f32 = 32 ∨ (Rect.block (s := S100000x128) S4000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4000x128.size a ≤ S100000x128.size a
  hwx1_9 : ∀ i : grid1.Coords, EltTy.bits .f32 = 32 ∨ (Rect.block (s := S100000x128) S4000x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128.size a ≤ S128.size a
  hwx2_6 : ∀ i : grid2.Coords, EltTy.bits .f32 = 32 ∨ (Rect.block (s := S128) S128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128.size a ≤ S128.size a
  hwx2_7 : ∀ i : grid2.Coords, EltTy.bits .f32 = 32 ∨ (Rect.block (s := S128) S128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x128.size a ≤ S100000x128.size a
  hwx2_9 : ∀ i : grid2.Coords, EltTy.bits .f32 = 32 ∨ (Rect.block (s := S100000x128) S4000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x128.size a ≤ S100000x128.size a
  hwx3_1 : ∀ i : grid3.Coords, EltTy.bits .f32 = 32 ∨ (Rect.block (s := S100000x128) S4000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128.size a ≤ S128.size a
  hwx3_4 : ∀ i : grid3.Coords, EltTy.bits .f32 = 32 ∨ (Rect.block (s := S128) S128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128.size a ≤ S128.size a
  hwx3_6 : ∀ i : grid3.Coords, EltTy.bits .f32 = 32 ∨ (Rect.block (s := S128) S128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S128.size a ≤ S128.size a
  hwx3_7 : ∀ i : grid3.Coords, EltTy.bits .f32 = 32 ∨ (Rect.block (s := S128) S128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128.size a ≤ S128.size a
  hwx3_8 : ∀ i : grid3.Coords, EltTy.bits .f32 = 32 ∨ (Rect.block (s := S128) S128.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4000x128.size a ≤ S100000x128.size a
  hwx3_9 : ∀ i : grid3.Coords, EltTy.bits .f32 = 32 ∨ (Rect.block (s := S100000x128) S4000x128.size (cc3_transform_9 i) (hinb3_9 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S5000x128.size a
  hwx4_0 : ∀ i : grid4.Coords, EltTy.bits .f32 = 32 ∨ (Rect.block (s := S5000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128.size a ≤ S128.size a
  hwx4_2 : ∀ i : grid4.Coords, EltTy.bits .f32 = 32 ∨ (Rect.block (s := S128) S128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128.size a ≤ S128.size a
  hwx4_4 : ∀ i : grid4.Coords, EltTy.bits .f32 = 32 ∨ (Rect.block (s := S128) S128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x1.size a ≤ S128x1.size a
  hwx4_5 : ∀ i : grid4.Coords, EltTy.bits .f32 = 32 ∨ (Rect.block (s := S128x1) S128x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1.size a ≤ S1.size a
  hwx4_6 : ∀ i : grid4.Coords, EltTy.bits .f32 = 32 ∨ (Rect.block (s := S1) S1.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S5000x1.size a ≤ S5000x1.size a
  hwx4_7 : ∀ i : grid4.Coords, EltTy.bits .f32 = 32 ∨ (Rect.block (s := S5000x1) S5000x1.size (cc4_transform_7 i) (hinb4_7 i)).WholeWords (EltTy.packing .f32)

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x11_S400000x1_S400000x11_1_0_n_n_0_1_111 : GatherDims S100000x11 S400000x1 S400000x11 where
  offsetDims := [1]
  collapsedSliceDims := [0]
  operandBatchingDims := []
  startIndicesBatchingDims := []
  startIndexMap := [0]
  indexVectorDim := 1
  sliceSizes := ![1, 11]
  wf := gather_S100000x11_S400000x1_S400000x11_1_0_n_n_0_1_111_wf
def scatter_S100000x11_S400000x1_S400000x11_1_0_0_1 : ScatterDims S100000x11 S400000x1 S400000x11 where
  updateWindowDims := [1]
  insertedWindowDims := [0]
  scatterDimsToOperandDims := [0]
  indexVectorDim := 1
  wf := scatter_S100000x11_S400000x1_S400000x11_1_0_0_1_wf
def dot_S4000x11_S11x128_S4000x128_1_0_0_1_n_n : DotDims S4000x11 S11x128 S4000x128 where
  lhsContracting := [1]
  rhsContracting := [0]
  lhsNonContracting := [0]
  rhsNonContracting := [1]
  lhsBatch := []
  rhsBatch := []
  wf := dot_S4000x11_S11x128_S4000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def scatter_S5000x128_S100000x1_S100000x128_1_0_0_1 : ScatterDims S5000x128 S100000x1 S100000x128 where
  updateWindowDims := [1]
  insertedWindowDims := [0]
  scatterDimsToOperandDims := [0]
  indexVectorDim := 1
  wf := scatter_S5000x128_S100000x1_S100000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v24) S4000x11.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x11.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S11x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S11x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v32) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v33) S4000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v45) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v49) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v51) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v55) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v57) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v59) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v60) S4000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v72) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v74) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v76) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v78) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v80) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v82) S128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v84) S128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v86) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v87) S4000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v99) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v87) S4000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v101) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v103) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v105) S128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v107) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v109) S128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v111) S128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v113) S128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v114) S4000x128.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v126) S5000x128.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg14) S128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg15) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg16) S128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg17) S128x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_arg18) S1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v127) S5000x1.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S100000x11 : Shape := ⟨2, ![100000, 11]⟩
abbrev S2x400000 : Shape := ⟨2, ![2, 400000]⟩
abbrev S100000 : Shape := ⟨1, ![100000]⟩
abbrev S11x128 : Shape := ⟨2, ![11, 128]⟩
abbrev S128 : Shape := ⟨1, ![128]⟩
abbrev S3x128x128 : Shape := ⟨3, ![3, 128, 128]⟩
abbrev S3x128 : Shape := ⟨2, ![3, 128]⟩
abbrev S4x128 : Shape := ⟨2, ![4, 128]⟩
abbrev S128x128 : Shape := ⟨2, ![128, 128]⟩
abbrev S128x1 : Shape := ⟨2, ![128, 1]⟩
abbrev S1 : Shape := ⟨1, ![1]⟩
abbrev S1x400000 : Shape := ⟨2, ![1, 400000]⟩
abbrev S400000 : Shape := ⟨1, ![400000]⟩
abbrev S_ : Shape := ⟨0, ![]⟩
abbrev S400000x1 : Shape := ⟨2, ![400000, 1]⟩
abbrev S100000x1 : Shape := ⟨2, ![100000, 1]⟩
abbrev S1x128 : Shape := ⟨2, ![1, 128]⟩
abbrev S400000x11 : Shape := ⟨2, ![400000, 11]⟩
abbrev S100000x128 : Shape := ⟨2, ![100000, 128]⟩
abbrev S1x128x128 : Shape := ⟨3, ![1, 128, 128]⟩
abbrev S400000x128 : Shape := ⟨2, ![400000, 128]⟩
abbrev S5000 : Shape := ⟨1, ![5000]⟩
abbrev S5000x128 : Shape := ⟨2, ![5000, 128]⟩
abbrev S5000x1 : Shape := ⟨2, ![5000, 1]⟩
abbrev S1x1 : Shape := ⟨2, ![1, 1]⟩

abbrev nBuf : Space → Nat
  | .hbm => 283
  | .vmem => 0
  | .smem => 0
  | _ => 0

abbrev hbmTy0_0 (i : Nat) : BufTy := match i % 128 with
  | 0 => ⟨S100000x11, .f32⟩
  | 1 => ⟨S2x400000, .i32⟩
  | 2 => ⟨S100000, .i32⟩
  | 3 => ⟨S11x128, .f32⟩
  | 4 => ⟨S11x128, .f32⟩
  | 5 => ⟨S128, .f32⟩
  | 6 => ⟨S3x128x128, .f32⟩
  | 7 => ⟨S3x128x128, .f32⟩
  | 8 => ⟨S3x128, .f32⟩
  | 9 => ⟨S4x128, .f32⟩
  | 10 => ⟨S4x128, .f32⟩
  | 11 => ⟨S4x128, .f32⟩
  | 12 => ⟨S4x128, .f32⟩
  | 13 => ⟨S128x128, .f32⟩
  | 14 => ⟨S128, .f32⟩
  | 15 => ⟨S128x128, .f32⟩
  | 16 => ⟨S128, .f32⟩
  | 17 => ⟨S128x1, .f32⟩
  | 18 => ⟨S1, .f32⟩
  | 19 => ⟨S1x400000, .i32⟩
  | 20 => ⟨S400000, .i32⟩
  | 21 => ⟨S1x400000, .i32⟩
  | 22 => ⟨S400000, .i32⟩
  | 23 => ⟨S_, .f32⟩
  | 24 => ⟨S400000, .f32⟩
  | 25 => ⟨S_, .f32⟩
  | 26 => ⟨S100000, .f32⟩
  | 27 => ⟨S400000x1, .i32⟩
  | 28 => ⟨S100000, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000x1, .f32⟩
  | 36 => ⟨S1x128, .f32⟩
  | 37 => ⟨S128, .f32⟩
  | 38 => ⟨S1x128, .f32⟩
  | 39 => ⟨S128, .f32⟩
  | 40 => ⟨S1x128, .f32⟩
  | 41 => ⟨S128, .f32⟩
  | 42 => ⟨S1x128, .f32⟩
  | 43 => ⟨S128, .f32⟩
  | 44 => ⟨S_, .i32⟩
  | 45 => ⟨S400000, .i32⟩
  | 46 => ⟨S400000, .i1⟩
  | 47 => ⟨S_, .i32⟩
  | 48 => ⟨S400000, .i32⟩
  | 49 => ⟨S400000, .i32⟩
  | 50 => ⟨S400000, .i32⟩
  | 51 => ⟨S400000x1, .i32⟩
  | 52 => ⟨S400000x11, .f32⟩
  | 53 => ⟨S_, .f32⟩
  | 54 => ⟨S100000x11, .f32⟩
  | 55 => ⟨S400000x1, .i32⟩
  | 56 => ⟨S100000x11, .f32⟩
  | 57 => ⟨S100000x11, .f32⟩
  | 58 => ⟨S100000x11, .f32⟩
  | 59 => ⟨S100000x128, .f32⟩
  | 60 => ⟨S1x128, .f32⟩
  | 61 => ⟨S100000x128, .f32⟩
  | 62 => ⟨S100000x128, .f32⟩
  | 63 => ⟨S100000x128, .f32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S128, .f32⟩
  | 70 => ⟨S128, .f32⟩
  | 71 => ⟨S128, .f32⟩
  | 72 => ⟨S1x128, .f32⟩
  | 73 => ⟨S100000x128, .f32⟩
  | 74 => ⟨S100000x128, .f32⟩
  | 75 => ⟨S1x128, .f32⟩
  | 76 => ⟨S100000x128, .f32⟩
  | 77 => ⟨S100000x128, .f32⟩
  | 78 => ⟨S1x128, .f32⟩
  | 79 => ⟨S100000x128, .f32⟩
  | 80 => ⟨S100000x128, .f32⟩
  | 81 => ⟨S_, .f32⟩
  | 82 => ⟨S100000x128, .f32⟩
  | 83 => ⟨S100000x128, .f32⟩
  | 84 => ⟨S1x128x128, .f32⟩
  | 85 => ⟨S128x128, .f32⟩
  | 86 => ⟨S1x128x128, .f32⟩
  | 87 => ⟨S128x128, .f32⟩
  | 88 => ⟨S1x128, .f32⟩
  | 89 => ⟨S128, .f32⟩
  | 90 => ⟨S1x128, .f32⟩
  | 91 => ⟨S128, .f32⟩
  | 92 => ⟨S1x128, .f32⟩
  | 93 => ⟨S128, .f32⟩
  | 94 => ⟨S1x128, .f32⟩
  | 95 => ⟨S128, .f32⟩
  | 96 => ⟨S1x128, .f32⟩
  | 97 => ⟨S128, .f32⟩
  | 98 => ⟨S_, .i32⟩
  | 99 => ⟨S400000, .i32⟩
  | 100 => ⟨S400000, .i1⟩
  | 101 => ⟨S_, .i32⟩
  | 102 => ⟨S400000, .i32⟩
  | 103 => ⟨S400000, .i32⟩
  | 104 => ⟨S400000, .i32⟩
  | 105 => ⟨S400000x1, .i32⟩
  | 106 => ⟨S400000x128, .f32⟩
  | 107 => ⟨S_, .f32⟩
  | 108 => ⟨S100000x128, .f32⟩
  | 109 => ⟨S400000x1, .i32⟩
  | 110 => ⟨S100000x128, .f32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S128, .f32⟩
  | 124 => ⟨S128, .f32⟩
  | 125 => ⟨S128, .f32⟩
  | 126 => ⟨S1x128, .f32⟩
  | 127 => ⟨S100000x128, .f32⟩
  | _ => ⟨S100000x11, .f32⟩

abbrev hbmTy0_1 (i : Nat) : BufTy := match i % 128 with
  | 0 => ⟨S100000x128, .f32⟩
  | 1 => ⟨S1x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S100000x128, .f32⟩
  | 11 => ⟨S1x128x128, .f32⟩
  | 12 => ⟨S128x128, .f32⟩
  | 13 => ⟨S1x128x128, .f32⟩
  | 14 => ⟨S128x128, .f32⟩
  | 15 => ⟨S1x128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S128, .f32⟩
  | 23 => ⟨S1x128, .f32⟩
  | 24 => ⟨S128, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000x128, .f32⟩
  | 34 => ⟨S_, .f32⟩
  | 35 => ⟨S100000x128, .f32⟩
  | 36 => ⟨S400000x1, .i32⟩
  | 37 => ⟨S100000x128, .f32⟩
  | 38 => ⟨S100000x128, .f32⟩
  | 39 => ⟨S100000x128, .f32⟩
  | 40 => ⟨S100000x128, .f32⟩
  | 41 => ⟨S1x128, .f32⟩
  | 42 => ⟨S100000x128, .f32⟩
  | 43 => ⟨S100000x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S128, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S100000x128, .f32⟩
  | 66 => ⟨S1x128x128, .f32⟩
  | 67 => ⟨S128x128, .f32⟩
  | 68 => ⟨S1x128x128, .f32⟩
  | 69 => ⟨S128x128, .f32⟩
  | 70 => ⟨S1x128, .f32⟩
  | 71 => ⟨S128, .f32⟩
  | 72 => ⟨S1x128, .f32⟩
  | 73 => ⟨S128, .f32⟩
  | 74 => ⟨S1x128, .f32⟩
  | 75 => ⟨S128, .f32⟩
  | 76 => ⟨S1x128, .f32⟩
  | 77 => ⟨S128, .f32⟩
  | 78 => ⟨S1x128, .f32⟩
  | 79 => ⟨S128, .f32⟩
  | 80 => ⟨S_, .i32⟩
  | 81 => ⟨S400000, .i32⟩
  | 82 => ⟨S400000, .i1⟩
  | 83 => ⟨S_, .i32⟩
  | 84 => ⟨S400000, .i32⟩
  | 85 => ⟨S400000, .i32⟩
  | 86 => ⟨S400000, .i32⟩
  | 87 => ⟨S400000x1, .i32⟩
  | 88 => ⟨S400000x128, .f32⟩
  | 89 => ⟨S_, .f32⟩
  | 90 => ⟨S100000x128, .f32⟩
  | 91 => ⟨S400000x1, .i32⟩
  | 92 => ⟨S100000x128, .f32⟩
  | 93 => ⟨S100000x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S100000x128, .f32⟩
  | 100 => ⟨S100000x128, .f32⟩
  | 101 => ⟨S1x128, .f32⟩
  | 102 => ⟨S100000x128, .f32⟩
  | 103 => ⟨S100000x128, .f32⟩
  | 104 => ⟨S_, .f32⟩
  | 105 => ⟨S128, .f32⟩
  | 106 => ⟨S128, .f32⟩
  | 107 => ⟨S128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S_, .f32⟩
  | 122 => ⟨S100000, .f32⟩
  | 123 => ⟨S_, .f32⟩
  | 124 => ⟨S5000, .f32⟩
  | 125 => ⟨S100000x1, .i32⟩
  | 126 => ⟨S5000, .f32⟩
  | 127 => ⟨S_, .f32⟩
  | _ => ⟨S100000x11, .f32⟩

abbrev hbmTy0_2 (i : Nat) : BufTy := match i % 128 with
  | 0 => ⟨S5000x128, .f32⟩
  | 1 => ⟨S100000x1, .i32⟩
  | 2 => ⟨S5000x128, .f32⟩
  | 3 => ⟨S_, .f32⟩
  | 4 => ⟨S5000, .f32⟩
  | 5 => ⟨S5000, .f32⟩
  | 6 => ⟨S5000x1, .f32⟩
  | 7 => ⟨S5000x128, .f32⟩
  | 8 => ⟨S5000x128, .f32⟩
  | 9 => ⟨S5000x128, .f32⟩
  | 10 => ⟨S1x128, .f32⟩
  | 11 => ⟨S5000x128, .f32⟩
  | 12 => ⟨S5000x128, .f32⟩
  | 13 => ⟨S_, .f32⟩
  | 14 => ⟨S5000x128, .f32⟩
  | 15 => ⟨S5000x128, .f32⟩
  | 16 => ⟨S5000x128, .f32⟩
  | 17 => ⟨S1x128, .f32⟩
  | 18 => ⟨S5000x128, .f32⟩
  | 19 => ⟨S5000x128, .f32⟩
  | 20 => ⟨S_, .f32⟩
  | 21 => ⟨S5000x128, .f32⟩
  | 22 => ⟨S5000x128, .f32⟩
  | 23 => ⟨S5000x1, .f32⟩
  | 24 => ⟨S1x1, .f32⟩
  | 25 => ⟨S5000x1, .f32⟩
  | 26 => ⟨S5000x1, .f32⟩
  | _ => ⟨S100000x11, .f32⟩

abbrev hbmTy (i : Nat) : BufTy := match i / 128 with
  | 0 => hbmTy0_0 i
  | 1 => hbmTy0_1 i
  | 2 => hbmTy0_2 i
  | _ => ⟨S100000x11, .f32⟩

abbrev bufTy : (tb : Table) → Fin (tcTables nBuf tb) → BufTy
  | .hbm, ⟨i, _⟩ => hbmTy i
  | _, _ => ⟨S100000x11, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_v22 : Ref sig .tc := ⟨.hbm, 46, rfl⟩
abbrev main_c_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_4 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_call0_cst : Ref sig .tc := ⟨.hbm, 81, rfl⟩
abbrev main_call0_v0 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_6 : Ref sig .tc := ⟨.hbm, 98, rfl⟩
abbrev main_v69 : Ref sig .tc := ⟨.hbm, 99, rfl⟩
abbrev main_v70 : Ref sig .tc := ⟨.hbm, 100, rfl⟩
abbrev main_c_7 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_8 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_9 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_call1_cst : Ref sig .tc := ⟨.hbm, 135, rfl⟩
abbrev main_call1_v0 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_c_10 : Ref sig .tc := ⟨.hbm, 153, rfl⟩
abbrev main_v118 : Ref sig .tc := ⟨.hbm, 154, rfl⟩
abbrev main_v119 : Ref sig .tc := ⟨.hbm, 155, rfl⟩
abbrev main_c_11 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_12 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_cst_13 : Ref sig .tc := ⟨.hbm, 177, rfl⟩
abbrev main_v139 : Ref sig .tc := ⟨.hbm, 178, rfl⟩
abbrev main_v140 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_call2_cst : Ref sig .tc := ⟨.hbm, 190, rfl⟩
abbrev main_call2_v0 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_v155 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_c_14 : Ref sig .tc := ⟨.hbm, 208, rfl⟩
abbrev main_v167 : Ref sig .tc := ⟨.hbm, 209, rfl⟩
abbrev main_v168 : Ref sig .tc := ⟨.hbm, 210, rfl⟩
abbrev main_c_15 : Ref sig .tc := ⟨.hbm, 211, rfl⟩
abbrev main_v169 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_cst_16 : Ref sig .tc := ⟨.hbm, 217, rfl⟩
abbrev main_v174 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_v180 : Ref sig .tc := ⟨.hbm, 224, rfl⟩
abbrev main_v181 : Ref sig .tc := ⟨.hbm, 225, rfl⟩
abbrev main_v182 : Ref sig .tc := ⟨.hbm, 226, rfl⟩
abbrev main_v183 : Ref sig .tc := ⟨.hbm, 227, rfl⟩
abbrev main_v184 : Ref sig .tc := ⟨.hbm, 228, rfl⟩
abbrev main_v185 : Ref sig .tc := ⟨.hbm, 229, rfl⟩
abbrev main_v186 : Ref sig .tc := ⟨.hbm, 230, rfl⟩
abbrev main_v187 : Ref sig .tc := ⟨.hbm, 231, rfl⟩
abbrev main_cst_17 : Ref sig .tc := ⟨.hbm, 232, rfl⟩
abbrev main_v188 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_call3_cst : Ref sig .tc := ⟨.hbm, 245, rfl⟩
abbrev main_call3_v0 : Ref sig .tc := ⟨.hbm, 246, rfl⟩
abbrev main_v200 : Ref sig .tc := ⟨.hbm, 247, rfl⟩
abbrev main_v201 : Ref sig .tc := ⟨.hbm, 248, rfl⟩
abbrev main_cst_18 : Ref sig .tc := ⟨.hbm, 249, rfl⟩
abbrev main_v202 : Ref sig .tc := ⟨.hbm, 250, rfl⟩
abbrev main_cst_19 : Ref sig .tc := ⟨.hbm, 251, rfl⟩
abbrev main_v203 : Ref sig .tc := ⟨.hbm, 252, rfl⟩
abbrev main_v204 : Ref sig .tc := ⟨.hbm, 253, rfl⟩
abbrev main_v205 : Ref sig .tc := ⟨.hbm, 254, rfl⟩
abbrev main_cst_20 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_cst_21 : Ref sig .tc := ⟨.hbm, 259, rfl⟩
abbrev main_v209 : Ref sig .tc := ⟨.hbm, 260, rfl⟩
abbrev main_v210 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_v215 : Ref sig .tc := ⟨.hbm, 266, rfl⟩
abbrev main_v216 : Ref sig .tc := ⟨.hbm, 267, rfl⟩
abbrev main_v217 : Ref sig .tc := ⟨.hbm, 268, rfl⟩
abbrev main_call4_cst : Ref sig .tc := ⟨.hbm, 269, rfl⟩
abbrev main_call4_v0 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_v222 : Ref sig .tc := ⟨.hbm, 275, rfl⟩
abbrev main_call5_cst : Ref sig .tc := ⟨.hbm, 276, rfl⟩
abbrev main_call5_v0 : Ref sig .tc := ⟨.hbm, 277, rfl⟩
abbrev main_v223 : Ref sig .tc := ⟨.hbm, 278, rfl⟩
abbrev main_v224 : Ref sig .tc := ⟨.hbm, 279, rfl⟩
abbrev main_v225 : Ref sig .tc := ⟨.hbm, 280, rfl⟩
abbrev main_v226 : Ref sig .tc := ⟨.hbm, 281, rfl⟩
abbrev main_v227 : Ref sig .tc := ⟨.hbm, 282, rfl⟩

abbrev nD : Nat := 1
abbrev τ : Topo := Topo.v7x

variable {F : FTy → Type} [FloatOps F]

class Facts₀ : Prop where
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S_S100000 : S_.BroadcastsInDim S100000 (![] : Fin 0 → Fin S100000.rank)
  bcast_S400000_S400000x1_0 : S400000.BroadcastsInDim S400000x1 (![0] : Fin 1 → Fin S400000x1.rank)
  bcast_S100000_S100000x1_0 : S100000.BroadcastsInDim S100000x1 (![0] : Fin 1 → Fin S100000x1.rank)
  slices_S4x128_S1x128_0_0 : S4x128.Slices ![0, 0] S1x128
  shapeCasts_S1x128_S128 : S1x128.ShapeCasts S128
  bcast_S_S100000x11 : S_.BroadcastsInDim S100000x11 (![] : Fin 0 → Fin S100000x11.rank)
  bcast_S100000x1_S100000x11_0_1 : S100000x1.BroadcastsInDim S100000x11 (![0, 1] : Fin 2 → Fin S100000x11.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  slices_S4x128_S1x128_1_0 : S4x128.Slices ![1, 0] S1x128
  bcast_S100000x1_S100000x128_0_1 : S100000x1.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S4x128_S1x128_2_0 : S4x128.Slices ![2, 0] S1x128
  slices_S3x128x128_S1x128x128_2_0_0 : S3x128x128.Slices ![2, 0, 0] S1x128x128
  slices_S3x128_S1x128_2_0 : S3x128.Slices ![2, 0] S1x128
  slices_S4x128_S1x128_3_0 : S4x128.Slices ![3, 0] S1x128
  bcast_S_S5000 : S_.BroadcastsInDim S5000 (![] : Fin 0 → Fin S5000.rank)
  bcast_S_S5000x128 : S_.BroadcastsInDim S5000x128 (![] : Fin 0 → Fin S5000x128.rank)
  bcast_S5000_S5000x1_0 : S5000.BroadcastsInDim S5000x1 (![0] : Fin 1 → Fin S5000x1.rank)
  bcast_S5000x1_S5000x128_0_1 : S5000x1.BroadcastsInDim S5000x128 (![0, 1] : Fin 2 → Fin S5000x128.rank)
  bcast_S1x128_S5000x128_0_1 : S1x128.BroadcastsInDim S5000x128 (![0, 1] : Fin 2 → Fin S5000x128.rank)
  bcast_S1_S1x1_1 : S1.BroadcastsInDim S1x1 (![1] : Fin 1 → Fin S1x1.rank)
  bcast_S1x1_S5000x1_0_1 : S1x1.BroadcastsInDim S5000x1 (![0, 1] : Fin 2 → Fin S5000x1.rank)
  scatter_S100000_S400000x1_S400000_n_0_0_1_wf : ScatterDims.WF S100000 S400000x1 S400000 [] [0] [0] 1
  gather_S100000x11_S400000x1_S400000x11_1_0_n_n_0_1_111_wf : GatherDims.WF S100000x11 S400000x1 S400000x11 [1] [0] [] [0] [] 1 ![1, 11]
  scatter_S100000x11_S400000x1_S400000x11_1_0_0_1_wf : ScatterDims.WF S100000x11 S400000x1 S400000x11 [1] [0] [0] 1
  dot_S100000x11_S11x128_S100000x128_1_0_0_1_n_n_wf : DotDims.WF S100000x11 S11x128 S100000x128 [1] [0] [0] [1] [] []
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S100000x128_S128x128_S100000x128_1_0_0_1_n_n_wf : DotDims.WF S100000x128 S128x128 S100000x128 [1] [0] [0] [1] [] []
  scatter_S5000_S100000x1_S100000_n_0_0_1_wf : ScatterDims.WF S5000 S100000x1 S100000 [] [0] [0] 1
  scatter_S5000x128_S100000x1_S100000x128_1_0_0_1_wf : ScatterDims.WF S5000x128 S100000x1 S100000x128 [1] [0] [0] 1
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []

variable [Facts₀]

def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x11_S400000x1_S400000x11_1_0_n_n_0_1_111 : GatherDims S100000x11 S400000x1 S400000x11 where
  offsetDims := [1]
  collapsedSliceDims := [0]
  operandBatchingDims := []
  startIndicesBatchingDims := []
  startIndexMap := [0]
  indexVectorDim := 1
  sliceSizes := ![1, 11]
  wf := gather_S100000x11_S400000x1_S400000x11_1_0_n_n_0_1_111_wf
def scatter_S100000x11_S400000x1_S400000x11_1_0_0_1 : ScatterDims S100000x11 S400000x1 S400000x11 where
  updateWindowDims := [1]
  insertedWindowDims := [0]
  scatterDimsToOperandDims := [0]
  indexVectorDim := 1
  wf := scatter_S100000x11_S400000x1_S400000x11_1_0_0_1_wf
def dot_S100000x11_S11x128_S100000x128_1_0_0_1_n_n : DotDims S100000x11 S11x128 S100000x128 where
  lhsContracting := [1]
  rhsContracting := [0]
  lhsNonContracting := [0]
  rhsNonContracting := [1]
  lhsBatch := []
  rhsBatch := []
  wf := dot_S100000x11_S11x128_S100000x128_1_0_0_1_n_n_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S5000_S100000x1_S100000_n_0_0_1 : ScatterDims S5000 S100000x1 S100000 where
  updateWindowDims := []
  insertedWindowDims := [0]
  scatterDimsToOperandDims := [0]
  indexVectorDim := 1
  wf := scatter_S5000_S100000x1_S100000_n_0_0_1_wf
def scatter_S5000x128_S100000x1_S100000x128_1_0_0_1 : ScatterDims S5000x128 S100000x1 S100000x128 where
  updateWindowDims := [1]
  insertedWindowDims := [0]
  scatterDimsToOperandDims := [0]
  indexVectorDim := 1
  wf := scatter_S5000x128_S100000x1_S100000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

class Facts : Prop extends Facts₀ where

variable [Facts]
-- ==== Proof.KernelRun.lean ====
/-
  The kernel program's run, read at its end. Every weakly fair execution of the program from a memory with zero
  counters terminates without a fault, and in every final state each core's unscoped buffers hold the contents the
  fold of the program's ten segments (five stretches of host operations, five regions) leaves at the last segment
  boundary. Reading that at the arguments gives them back as launched; reading it at the result buffer names the
  result: the last boundary's contents there.
-/
import proofs.«138073_j73581379715727_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run ends with every unscoped buffer of every core at the last boundary's contents: the launch over the
    program's segments, the last thread state read against the final state, nothing forgotten. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h => h)

/-- The same run read at the result buffer and at the arguments: the result ends at the last boundary's contents
    of its buffer, each argument as launched (no segment writes one). -/
theorem run_named : θ_run defs (onTc (τ := τ) (main (F := F))) ⟨m, fun _ => 0, ρ⟩ (fun r => ∀ c : Dev nD,
      r.2.mem ((c.tc : Thread nD τ).loc main_v127) = W10 m ρ c (Proc.devRef .tc main_v127)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
    ⟨h c _ (mem_uc main_v127 (by decide)),
      (h c _ (mem_uc main_arg0 (by decide))).trans (W10_main_arg0 m ρ c),
      (h c _ (mem_uc main_arg1 (by decide))).trans (W10_main_arg1 m ρ c),
      (h c _ (mem_uc main_arg2 (by decide))).trans (W10_main_arg2 m ρ c),
      (h c _ (mem_uc main_arg3 (by decide))).trans (W10_main_arg3 m ρ c),
      (h c _ (mem_uc main_arg4 (by decide))).trans (W10_main_arg4 m ρ c),
      (h c _ (mem_uc main_arg5 (by decide))).trans (W10_main_arg5 m ρ c),
      (h c _ (mem_uc main_arg6 (by decide))).trans (W10_main_arg6 m ρ c),
      (h c _ (mem_uc main_arg7 (by decide))).trans (W10_main_arg7 m ρ c),
      (h c _ (mem_uc main_arg8 (by decide))).trans (W10_main_arg8 m ρ c),
      (h c _ (mem_uc main_arg9 (by decide))).trans (W10_main_arg9 m ρ c),
      (h c _ (mem_uc main_arg10 (by decide))).trans (W10_main_arg10 m ρ c),
      (h c _ (mem_uc main_arg11 (by decide))).trans (W10_main_arg11 m ρ c),
      (h c _ (mem_uc main_arg12 (by decide))).trans (W10_main_arg12 m ρ c),
      (h c _ (mem_uc main_arg13 (by decide))).trans (W10_main_arg13 m ρ c),
      (h c _ (mem_uc main_arg14 (by decide))).trans (W10_main_arg14 m ρ c),
      (h c _ (mem_uc main_arg15 (by decide))).trans (W10_main_arg15 m ρ c),
      (h c _ (mem_uc main_arg16 (by decide))).trans (W10_main_arg16 m ρ c),
      (h c _ (mem_uc main_arg17 (by decide))).trans (W10_main_arg17 m ρ c),
      (h c _ (mem_uc main_arg18 (by decide))).trans (W10_main_arg18 m ρ c)⟩)
    (run_boundary m ρ)

end Cert.KernelIdeal.RunValue

end
-- ==== Proof.FoldBase.lean ====
/-
  Names for the fold through the kernel program's segments. The launch contents of the nineteen arguments; the
  reference's stages at those contents (each layer's result, the pooled rows, the result); and the bundle of facts
  that survive every later segment unchanged: the edge list's source and target rows, the inverse degrees, and the
  arguments that later host operations slice (no later segment writes any of them).
-/
import proofs.«138073_j73581379715727_1_alg».proof.Proof.Gen.KernelIdeal.Frame
import proofs.«138073_j73581379715727_1_alg».proof.Proof.RefRead
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

/-- Argument 0 as launched. -/
abbrev a0 : (⟨S100000x11, .f32⟩ : BufTy).Contents (Elt Ideal) := m ((c : Thread nD τ).loc main_arg0)
/-- Argument 1 as launched. -/
abbrev a1 : (⟨S2x400000, .i32⟩ : BufTy).Contents (Elt Ideal) := m ((c : Thread nD τ).loc main_arg1)
/-- Argument 2 as launched. -/
abbrev a2 : (⟨S100000, .i32⟩ : BufTy).Contents (Elt Ideal) := m ((c : Thread nD τ).loc main_arg2)
/-- Argument 3 as launched. -/
abbrev a3 : (⟨S11x128, .f32⟩ : BufTy).Contents (Elt Ideal) := m ((c : Thread nD τ).loc main_arg3)
/-- Argument 4 as launched. -/
abbrev a4 : (⟨S11x128, .f32⟩ : BufTy).Contents (Elt Ideal) := m ((c : Thread nD τ).loc main_arg4)
/-- Argument 5 as launched. -/
abbrev a5 : (⟨S128, .f32⟩ : BufTy).Contents (Elt Ideal) := m ((c : Thread nD τ).loc main_arg5)
/-- Argument 6 as launched. -/
abbrev a6 : (⟨S3x128x128, .f32⟩ : BufTy).Contents (Elt Ideal) := m ((c : Thread nD τ).loc main_arg6)
/-- Argument 7 as launched. -/
abbrev a7 : (⟨S3x128x128, .f32⟩ : BufTy).Contents (Elt Ideal) := m ((c : Thread nD τ).loc main_arg7)
/-- Argument 8 as launched. -/
abbrev a8 : (⟨S3x128, .f32⟩ : BufTy).Contents (Elt Ideal) := m ((c : Thread nD τ).loc main_arg8)
/-- Argument 9 as launched. -/
abbrev a9 : (⟨S4x128, .f32⟩ : BufTy).Contents (Elt Ideal) := m ((c : Thread nD τ).loc main_arg9)
/-- Argument 10 as launched. -/
abbrev a10 : (⟨S4x128, .f32⟩ : BufTy).Contents (Elt Ideal) := m ((c : Thread nD τ).loc main_arg10)
/-- Argument 11 as launched. -/
abbrev a11 : (⟨S4x128, .f32⟩ : BufTy).Contents (Elt Ideal) := m ((c : Thread nD τ).loc main_arg11)
/-- Argument 12 as launched. -/
abbrev a12 : (⟨S4x128, .f32⟩ : BufTy).Contents (Elt Ideal) := m ((c : Thread nD τ).loc main_arg12)
/-- Argument 13 as launched. -/
abbrev a13 : (⟨S128x128, .f32⟩ : BufTy).Contents (Elt Ideal) := m ((c : Thread nD τ).loc main_arg13)
/-- Argument 14 as launched. -/
abbrev a14 : (⟨S128, .f32⟩ : BufTy).Contents (Elt Ideal) := m ((c : Thread nD τ).loc main_arg14)
/-- Argument 15 as launched. -/
abbrev a15 : (⟨S128x128, .f32⟩ : BufTy).Contents (Elt Ideal) := m ((c : Thread nD τ).loc main_arg15)
/-- Argument 16 as launched. -/
abbrev a16 : (⟨S128, .f32⟩ : BufTy).Contents (Elt Ideal) := m ((c : Thread nD τ).loc main_arg16)
/-- Argument 17 as launched. -/
abbrev a17 : (⟨S128x1, .f32⟩ : BufTy).Contents (Elt Ideal) := m ((c : Thread nD τ).loc main_arg17)
/-- Argument 18 as launched. -/
abbrev a18 : (⟨S1, .f32⟩ : BufTy).Contents (Elt Ideal) := m ((c : Thread nD τ).loc main_arg18)

/-- The reference's first-layer result stage at the launch contents. -/
abbrev H1 := Cert.ReferenceIdeal.ReadP.val_main_v54 (F := Ideal) (a0 m c) (a1 m c) (a3 m c) (a4 m c) (a5 m c) (a9 m c) (a10 m c) (a11 m c) (a12 m c)
/-- The second layer's. -/
abbrev H2 := Cert.ReferenceIdeal.ReadP.val_main_v103 (F := Ideal) (a0 m c) (a1 m c) (a3 m c) (a4 m c) (a5 m c) (a6 m c) (a7 m c) (a8 m c) (a9 m c) (a10 m c) (a11 m c) (a12 m c)
/-- The third layer's. -/
abbrev H3 := Cert.ReferenceIdeal.ReadP.val_main_v152 (F := Ideal) (a0 m c) (a1 m c) (a3 m c) (a4 m c) (a5 m c) (a6 m c) (a7 m c) (a8 m c) (a9 m c) (a10 m c) (a11 m c) (a12 m c)
/-- The fourth layer's. -/
abbrev H4 := Cert.ReferenceIdeal.ReadP.val_main_v201 (F := Ideal) (a0 m c) (a1 m c) (a3 m c) (a4 m c) (a5 m c) (a6 m c) (a7 m c) (a8 m c) (a9 m c) (a10 m c) (a11 m c) (a12 m c)
/-- The pooled rows. -/
abbrev POOL := Cert.ReferenceIdeal.ReadP.val_main_v213 (F := Ideal) (a0 m c) (a1 m c) (a2 m c) (a3 m c) (a4 m c) (a5 m c) (a6 m c) (a7 m c) (a8 m c) (a9 m c) (a10 m c) (a11 m c) (a12 m c)
/-- The result. -/
abbrev OUT := Cert.ReferenceIdeal.ReadP.val_main_v227 (F := Ideal) (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)

/-- What every later segment leaves alone, at a boundary's contents `W`: the edge list's two rows and the inverse
    degrees hold the reference's stages of the edge argument, and the arguments still to be sliced are as launched. -/
structure Keep (W : Valuation τ sig (Elt Ideal)) : Prop where
  src : W (Proc.devRef .tc main_v1) = Cert.ReferenceIdeal.ReadP.val_main_v1 (F := Ideal) (a1 m c)
  tgt : W (Proc.devRef .tc main_v3) = Cert.ReferenceIdeal.ReadP.val_main_v3 (F := Ideal) (a1 m c)
  deg : W (Proc.devRef .tc main_v12) = Cert.ReferenceIdeal.ReadP.val_main_v12 (F := Ideal) (a1 m c)
  k2 : W (Proc.devRef .tc main_arg2) = a2 m c
  k6 : W (Proc.devRef .tc main_arg6) = a6 m c
  k7 : W (Proc.devRef .tc main_arg7) = a7 m c
  k8 : W (Proc.devRef .tc main_arg8) = a8 m c
  k9 : W (Proc.devRef .tc main_arg9) = a9 m c
  k10 : W (Proc.devRef .tc main_arg10) = a10 m c
  k11 : W (Proc.devRef .tc main_arg11) = a11 m c
  k12 : W (Proc.devRef .tc main_arg12) = a12 m c

/-- A buffer that no operation of a stretch writes keeps its contents through the stretch. -/
macro "skip_stretch " ops:ident : tactic => `(tactic|
  (refine StableHlo.after_of_forall_not_mem _ _ (List.forall_iff_forall_mem.mp ?_)
   simp only [$ops:ident, List.flatten_cons, List.flatten_nil, List.append_nil, List.cons_append,
     List.nil_append, List.Forall, StableHlo.nullary_writes, StableHlo.unary_writes, StableHlo.binary_writes,
     StableHlo.ternary_writes, StableHlo.quaternary_writes, StableHlo.reshape_writes, StableHlo.binaryIndexed_writes,
     Finset.mem_singleton]
   repeat' apply And.intro
   all_goals exact StableHlo.devRef_ne_of_ne (by decide)))

end Cert.KernelIdeal.Fold

end
-- ==== Proof.Spec.lean ====
/-
  The network both programs compute, as functions of whole arrays on the extended reals, index by index.

  One layer of the network (a SAGE convolution, a batch normalisation with stored statistics, a rectifier): with
  a row `a` of the neighbourhood means and the matching row `x` of the node features,

      pre  q = (∑ k, a k * Wl[k, q]) + (∑ k, x k * Wr[k, q]) + b q
      post q = max ((pre q - mean q) * rsqrt (var q + ε) * gamma q + beta q) 0

  the first layer (11 input features) returns `post`, the three later ones (128 features) add the row of node
  features back: `post q + x q`. The head is three dense maps on each pooled row, the first two followed by the
  rectifier. Every entry of a layer's result depends on ONE row of each of its two node arrays, which is what lets
  a row-tiled computation and a whole-array computation agree.
-/
import Idealize.ShloMosaic.PureOps.Ideal
import Idealize.ShloMosaic.Lib.ValueIdx

noncomputable section

namespace Cert.SageNet

open Idealize.ShloMosaic Idealize.ShloMosaic.ValueIdx

abbrev ShN11 : Shape := ⟨2, ![100000, 11]⟩
abbrev ShN128 : Shape := ⟨2, ![100000, 128]⟩
abbrev Sh11x128 : Shape := ⟨2, ![11, 128]⟩
abbrev Sh128x128 : Shape := ⟨2, ![128, 128]⟩
abbrev Sh128x1 : Shape := ⟨2, ![128, 1]⟩
abbrev Sh128 : Shape := ⟨1, ![128]⟩
abbrev Sh1 : Shape := ⟨1, ![1]⟩
abbrev ShG128 : Shape := ⟨2, ![5000, 128]⟩
abbrev ShG1 : Shape := ⟨2, ![5000, 1]⟩

/-- The variance offset of the normalisation, the binary32 number nearest to 1e-5, as both programs spell it. -/
abbrev eps : EReal := Ideal.ofBits .f32 0x3727C5AC#32

/-- Normalise with stored statistics, scale, shift, rectify: one channel. -/
def bnRelu (h mean var gamma beta : EReal) : EReal :=
  max ((h - mean) * Ideal.rsqrt (var + eps) * gamma + beta) 0

/-- One channel `q` of a layer before the residual, from a row `a` of neighbourhood means and a row `x` of features. -/
def sageRow {D : Nat} (a x : Fin D → EReal) (Wl Wr : FVec Ideal ⟨2, ![D, 128]⟩ .f32)
    (b gamma beta mean var : FVec Ideal Sh128 .f32) (q : Fin 128) : EReal :=
  bnRelu ((∑ k : Fin D, a k * Wl (ix2 k q)) + (∑ k : Fin D, x k * Wr (ix2 k q)) + b (ix1 q))
    (mean (ix1 q)) (var (ix1 q)) (gamma (ix1 q)) (beta (ix1 q))

/-- The first layer at row `r`, channel `q`. -/
def layer0At (aggr x : FVec Ideal ShN11 .f32) (Wl Wr : FVec Ideal Sh11x128 .f32)
    (b gamma beta mean var : FVec Ideal Sh128 .f32) (r : Fin 100000) (q : Fin 128) : EReal :=
  sageRow (fun k => aggr (ix2 r k)) (fun k => x (ix2 r k)) Wl Wr b gamma beta mean var q

/-- The first layer, as an array. -/
def layer0 (aggr x : FVec Ideal ShN11 .f32) (Wl Wr : FVec Ideal Sh11x128 .f32)
    (b gamma beta mean var : FVec Ideal Sh128 .f32) : FVec Ideal ShN128 .f32 :=
  fun i => layer0At aggr x Wl Wr b gamma beta mean var ⟨(i 0).val, idx2_lt0 i⟩ ⟨(i 1).val, idx2_lt1 i⟩

theorem layer0_ix2 (aggr x : FVec Ideal ShN11 .f32) (Wl Wr : FVec Ideal Sh11x128 .f32)
    (b gamma beta mean var : FVec Ideal Sh128 .f32) (r : Fin 100000) (q : Fin 128) :
    layer0 aggr x Wl Wr b gamma beta mean var (ix2 r q) = layer0At aggr x Wl Wr b gamma beta mean var r q := rfl

/-- A later layer at row `r`, channel `q`: the same, plus the node's own feature. -/
def layerRAt (aggr x : FVec Ideal ShN128 .f32) (Wl Wr : FVec Ideal Sh128x128 .f32)
    (b gamma beta mean var : FVec Ideal Sh128 .f32) (r : Fin 100000) (q : Fin 128) : EReal :=
  sageRow (fun k => aggr (ix2 r k)) (fun k => x (ix2 r k)) Wl Wr b gamma beta mean var q + x (ix2 r q)

/-- A later layer, as an array. -/
def layerR (aggr x : FVec Ideal ShN128 .f32) (Wl Wr : FVec Ideal Sh128x128 .f32)
    (b gamma beta mean var : FVec Ideal Sh128 .f32) : FVec Ideal ShN128 .f32 :=
  fun i => layerRAt aggr x Wl Wr b gamma beta mean var ⟨(i 0).val, idx2_lt0 i⟩ ⟨(i 1).val, idx2_lt1 i⟩

theorem layerR_ix2 (aggr x : FVec Ideal ShN128 .f32) (Wl Wr : FVec Ideal Sh128x128 .f32)
    (b gamma beta mean var : FVec Ideal Sh128 .f32) (r : Fin 100000) (q : Fin 128) :
    layerR aggr x Wl Wr b gamma beta mean var (ix2 r q) = layerRAt aggr x Wl Wr b gamma beta mean var r q := rfl

/-- A dense map followed by the rectifier, on one row `z`. -/
def denseRelu (z : Fin 128 → EReal) (W : FVec Ideal Sh128x128 .f32) (b : FVec Ideal Sh128 .f32) (j : Fin 128) : EReal :=
  max ((∑ k : Fin 128, z k * W (ix2 k j)) + b (ix1 j)) 0

/-- The head at pooled row `r`: two rectified dense maps and a last one onto a single channel. -/
def mlpAt (p : FVec Ideal ShG128 .f32) (W1 : FVec Ideal Sh128x128 .f32) (b1 : FVec Ideal Sh128 .f32)
    (W2 : FVec Ideal Sh128x128 .f32) (b2 : FVec Ideal Sh128 .f32) (W3 : FVec Ideal Sh128x1 .f32) (b3 : FVec Ideal Sh1 .f32)
    (r : Fin 5000) : EReal :=
  (∑ k : Fin 128, denseRelu (denseRelu (fun k => p (ix2 r k)) W1 b1) W2 b2 k * W3 (ix2 k (0 : Fin 1))) + b3 (ix1 (0 : Fin 1))

/-- The head, as an array. -/
def mlp (p : FVec Ideal ShG128 .f32) (W1 : FVec Ideal Sh128x128 .f32) (b1 : FVec Ideal Sh128 .f32)
    (W2 : FVec Ideal Sh128x128 .f32) (b2 : FVec Ideal Sh128 .f32) (W3 : FVec Ideal Sh128x1 .f32) (b3 : FVec Ideal Sh1 .f32) :
    FVec Ideal ShG1 .f32 :=
  fun i => mlpAt p W1 b1 W2 b2 W3 b3 ⟨(i 0).val, idx2_lt0 i⟩

theorem mlp_ix2 (p : FVec Ideal ShG128 .f32) (W1 : FVec Ideal Sh128x128 .f32) (b1 : FVec Ideal Sh128 .f32)
    (W2 : FVec Ideal Sh128x128 .f32) (b2 : FVec Ideal Sh128 .f32) (W3 : FVec Ideal Sh128x1 .f32) (b3 : FVec Ideal Sh1 .f32)
    (r : Fin 5000) (q : Fin 1) : mlp p W1 b1 W2 b2 W3 b3 (ix2 r q) = mlpAt p W1 b1 W2 b2 W3 b3 r := rfl

end Cert.SageNet

end
-- ==== Proof.RegionPayLaws.lean ====
/-
  Three facts about the arithmetic of one 4000-row tile, on the extended reals, at row p and channel q.

  A vector of 128 channels, viewed as one row and repeated down the 4000 rows, reads its channel q at (p, q).
  The product of a 4000×K tile with a K×128 weight into the zero accumulator is, at (p, q), the sum over the
  K input features k of tile[p, k] · weight[k, q] (K = 11 for the first layer, K = 128 for the later ones): the
  contraction index of the product has one axis of extent K, the left operand is read at (p, k) and the right
  one at (k, q).
-/
import proofs.«138073_j73581379715727_1_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Idealize.ShloMosaic
open Idealize.ShloMosaic.ValueIdx

/-- The zero offsets of a rank-2 tile, as a constant function. -/
theorem hz2 : (![0, 0] : Fin 2 → Nat) = fun _ => 0 := funext fun a => by fin_cases a <;> rfl
/-- The zero offset of a vector, as a constant function. -/
theorem hz1 : (![0] : Fin 1 → Nat) = fun _ => 0 := funext fun a => by fin_cases a; rfl

/-- A statistic or bias vector, viewed as one row and repeated down the 4000 rows of a tile, reads its channel. -/
theorem rowBcast (v : FVec Ideal S128 .f32) (h1 : S128.ShapeCasts S1x128) (h2 : S1x128.Broadcasts S4000x128)
    (p : Fin 4000) (q : Fin 128) :
    broadcastTo S4000x128 (shapeCast S1x128 v h1) h2 (ix2 p q) = v (ix1 q) := by
  rw [broadcastTo_1b_ab_apply, shapeCast_a_1a_apply]

/-! ## The product with an 11×128 weight -/

theorem mm11_lhs0 (i : S4000x128.Idx) (c : dot_S4000x11_S11x128_S4000x128_1_0_0_1_n_n.contr.Idx) :
    (dot_S4000x11_S11x128_S4000x128_1_0_0_1_n_n.lhsIdx i c 0).val = (i 0).val := by
  unfold DotDims.lhsIdx
  rw [dif_neg (show ¬(0 : Fin S4000x11.rank) ∈ dot_S4000x11_S11x128_S4000x128_1_0_0_1_n_n.lhsBatch by decide), dif_pos (show (0 : Fin S4000x11.rank) ∈ dot_S4000x11_S11x128_S4000x128_1_0_0_1_n_n.lhsNonContracting by decide)]
  rfl
theorem mm11_lhs1 (i : S4000x128.Idx) (c : dot_S4000x11_S11x128_S4000x128_1_0_0_1_n_n.contr.Idx) :
    (dot_S4000x11_S11x128_S4000x128_1_0_0_1_n_n.lhsIdx i c 1).val = (c ⟨0, by decide⟩).val :=
  dot_S4000x11_S11x128_S4000x128_1_0_0_1_n_n.lhsIdx_val_of_single rfl i c
theorem mm11_rhs0 (i : S4000x128.Idx) (c : dot_S4000x11_S11x128_S4000x128_1_0_0_1_n_n.contr.Idx) :
    (dot_S4000x11_S11x128_S4000x128_1_0_0_1_n_n.rhsIdx i c 0).val = (c ⟨0, by decide⟩).val :=
  dot_S4000x11_S11x128_S4000x128_1_0_0_1_n_n.rhsIdx_val_of_single rfl i c
theorem mm11_rhs1 (i : S4000x128.Idx) (c : dot_S4000x11_S11x128_S4000x128_1_0_0_1_n_n.contr.Idx) :
    (dot_S4000x11_S11x128_S4000x128_1_0_0_1_n_n.rhsIdx i c 1).val = (i 1).val := by
  unfold DotDims.rhsIdx
  rw [dif_neg (show ¬(1 : Fin S11x128.rank) ∈ dot_S4000x11_S11x128_S4000x128_1_0_0_1_n_n.rhsBatch by decide), dif_pos (show (1 : Fin S11x128.rank) ∈ dot_S4000x11_S11x128_S4000x128_1_0_0_1_n_n.rhsNonContracting by decide)]
  rfl

/-- The product of a 4000×11 tile with a 11×128 weight, into the zero accumulator, at row p and channel q:
    the sum over the 11 input features. -/
theorem mm11_apply (a : FVec Ideal S4000x11 .bf16) (w : FVec Ideal S11x128 .bf16) (p : Fin 4000) (q : Fin 128) :
    matmul dot_S4000x11_S11x128_S4000x128_1_0_0_1_n_n none a w (constant S4000x128 .f32 0x00000000#32) (ix2 p q)
      = ∑ k : Fin 11, a (ix2 p k) * w (ix2 k q) := by
  simp only [matmul]
  rw [Ideal.matmul_constant_zero_apply, ← Equiv.sum_comp (contrEquiv1 dot_S4000x11_S11x128_S4000x128_1_0_0_1_n_n 11 rfl rfl).symm]
  refine Finset.sum_congr rfl fun k _ => ?_
  have hk := contrEquiv1_symm_val dot_S4000x11_S11x128_S4000x128_1_0_0_1_n_n 11 rfl rfl k
  have el : dot_S4000x11_S11x128_S4000x128_1_0_0_1_n_n.lhsIdx (ix2 p q) ((contrEquiv1 dot_S4000x11_S11x128_S4000x128_1_0_0_1_n_n 11 rfl rfl).symm k) = ix2 p k := funext fun ax => Fin.ext (by
    match ax with
    | ⟨0, _⟩ => exact mm11_lhs0 _ _
    | ⟨1, _⟩ => exact (mm11_lhs1 _ _).trans hk)
  have er : dot_S4000x11_S11x128_S4000x128_1_0_0_1_n_n.rhsIdx (ix2 p q) ((contrEquiv1 dot_S4000x11_S11x128_S4000x128_1_0_0_1_n_n 11 rfl rfl).symm k) = ix2 k q := funext fun ax => Fin.ext (by
    match ax with
    | ⟨0, _⟩ => exact (mm11_rhs0 _ _).trans hk
    | ⟨1, _⟩ => exact mm11_rhs1 _ _)
  rw [el, er]

/-! ## The product with a 128×128 weight -/

theorem mm128_lhs0 (i : S4000x128.Idx) (c : dot_S4000x128_S128x128_S4000x128_1_0_0_1_n_n.contr.Idx) :
    (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem mm128_lhs1 (i : S4000x128.Idx) (c : dot_S4000x128_S128x128_S4000x128_1_0_0_1_n_n.contr.Idx) :
    (dot_S4000x128_S128x128_S4000x128_1_0_0_1_n_n.lhsIdx i c 1).val = (c ⟨0, by decide⟩).val :=
  dot_S4000x128_S128x128_S4000x128_1_0_0_1_n_n.lhsIdx_val_of_single rfl i c
theorem mm128_rhs0 (i : S4000x128.Idx) (c : dot_S4000x128_S128x128_S4000x128_1_0_0_1_n_n.contr.Idx) :
    (dot_S4000x128_S128x128_S4000x128_1_0_0_1_n_n.rhsIdx i c 0).val = (c ⟨0, by decide⟩).val :=
  dot_S4000x128_S128x128_S4000x128_1_0_0_1_n_n.rhsIdx_val_of_single rfl i c
theorem mm128_rhs1 (i : S4000x128.Idx) (c : dot_S4000x128_S128x128_S4000x128_1_0_0_1_n_n.contr.Idx) :
    (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product of a 4000×128 tile with a 128×128 weight, into the zero accumulator, at row p and channel q:
    the sum over the 128 input features. -/
theorem mm128_apply (a : FVec Ideal S4000x128 .bf16) (w : FVec Ideal S128x128 .bf16) (p : Fin 4000) (q : Fin 128) :
    matmul dot_S4000x128_S128x128_S4000x128_1_0_0_1_n_n none a w (constant S4000x128 .f32 0x00000000#32) (ix2 p q)
      = ∑ k : Fin 128, a (ix2 p k) * w (ix2 k q) := by
  simp only [matmul]
  rw [Ideal.matmul_constant_zero_apply, ← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k := funext fun ax => Fin.ext (by
    match ax with
    | ⟨0, _⟩ => exact mm128_lhs0 _ _
    | ⟨1, _⟩ => exact (mm128_lhs1 _ _).trans hk)
  have er : dot_S4000x128_S128x128_S4000x128_1_0_0_1_n_n.rhsIdx (ix2 p q) ((contrEquiv1 dot_S4000x128_S128x128_S4000x128_1_0_0_1_n_n 128 rfl rfl).symm k) = ix2 k q := funext fun ax => Fin.ext (by
    match ax with
    | ⟨0, _⟩ => exact (mm128_rhs0 _ _).trans hk
    | ⟨1, _⟩ => exact mm128_rhs1 _ _)
  rw [el, er]

end Cert.KernelIdeal.RegionValue

end
-- ==== Proof.RegionPay0.lean ====
/-
  The first layer on one tile. With a0, x0 the 4000×11 tiles of neighbourhood means and of node features, Wl, Wr the
  11×128 weights, and b, var, mean, gamma, beta the 128-channel vectors, the tile's arithmetic at row p, channel q is

      max (((∑ k, a0[p,k]·Wl[k,q] + ∑ k, x0[p,k]·Wr[k,q] + b q) − mean q) · rsqrt (var q + ε) · gamma q + beta q) 0,

  which is the layer's formula on row p of the two tiles: casts between number formats are the identity on the
  extended reals, the zero the rectifier compares with is the extended real 0, and every other step is entrywise.
  So when row p of the tiles is row r of the arrays, the tile at (p, q) is the layer at (r, q).
-/
import proofs.«138073_j73581379715727_1_alg».proof.Proof.Gen.KernelIdeal.Skeleton
import proofs.«138073_j73581379715727_1_alg».proof.Proof.Spec
import proofs.«138073_j73581379715727_1_alg».proof.Proof.RegionPayLaws

set_option maxRecDepth 16384

noncomputable section

namespace Cert.KernelIdeal.RegionValue

open Cert.KernelIdeal Cert.KernelIdeal.Gen Idealize.ShloMosaic
open Idealize.ShloMosaic.ValueIdx

/-- The first layer's tile arithmetic at row p, channel q, is the layer's formula on row p of the two node tiles. -/
theorem pay0_apply (v0 v2 : Vec Ideal S4000x11 .f32) (v3 v5 : Vec Ideal S11x128 .f32)
    (v12 v16 v21 v29 v34 : Vec Ideal S128 .f32) (p : Fin 4000) (q : Fin 128) :
    k0_pay1 (F := Ideal) v0 v2 v3 v5 v12 v16 v21 v29 v34 (ix2 p q)
      = SageNet.sageRow (fun k => v0 (ix2 p k)) (fun k => v2 (ix2 p k)) v3 v5 v12 v29 v34 v21 v16 q := by
  unfold k0_pay1
  simp only [maximumf_apply, addf_apply, mulf_apply, subf_apply, broadcast_apply, rowBcast, mm11_apply, shapeCast_self, truncf_apply]
  show max (_ * Ideal.rsqrt (v16 (ix1 q) + Ideal.ofBits .f32 0x3727C5AC#32) * _ + _) (Ideal.ofBits .f32 0x00000000#32) = _
  rw [Ideal.ofBits_zero_f32]
  rfl

/-- A tile of the first layer: if row p of the two node tiles is row r of the node arrays and the weight and statistic
    tiles are the whole arrays, the tile's arithmetic at (p, q) is the layer at (r, q). -/
theorem tile0_eq (x0 x1 : Vec Ideal S4000x11 .f32) (x2 x3 : Vec Ideal S11x128 .f32) (x4 x5 x6 x7 x8 : Vec Ideal S128 .f32)
    (aggr x : FVec Ideal SageNet.ShN11 .f32) (Wl Wr : FVec Ideal SageNet.Sh11x128 .f32)
    (b gamma beta mean var : FVec Ideal SageNet.Sh128 .f32)
    (r : Fin 100000) (p : Fin 4000) (q : Fin 128)
    (h0 : ∀ k : Fin 11, x0 (ix2 p k) = aggr (ix2 r k)) (h1 : ∀ k : Fin 11, x1 (ix2 p k) = x (ix2 r k))
    (h2 : x2 = Wl) (h3 : x3 = Wr) (h4 : x4 = b) (h5 : x5 = gamma) (h6 : x6 = beta) (h7 : x7 = mean) (h8 : x8 = var) :
    k0_pay1 (F := Ideal) x0 x1 x2 x3 x4 x8 x7 x5 x6 (ix2 p q)
      = SageNet.layer0 aggr x Wl Wr b gamma beta mean var (ix2 r q) := by
  subst h2 h3 h4 h5 h6 h7 h8
  have ha : (fun k : Fin 11 => x0 (ix2 p k)) = fun k => aggr (ix2 r k) := funext h0
  have hx : (fun k : Fin 11 => x1 (ix2 p k)) = fun k => x (ix2 r k) := funext h1
  rw [pay0_apply, SageNet.layer0_ix2, ha, hx]
  rfl

end Cert.KernelIdeal.RegionValue

end
-- ==== Proof.Region0.lean ====
/-
  The first layer's region, read as a value: 25 grid points, point `t` owning rows 4000·t … 4000·t + 3999 of the two
  node arrays and of the result, every weight and statistic vector whole at every point. Whatever the arrays hold
  when the region is entered (`V`), the result array after the region is the first layer of those arrays.

  The steps: the index maps decided over the grid; each input tile read as rows of its array; the tile a point writes
  back as block t of the layer (the tile arithmetic at (p, q) is the layer at (4000·t + p, q)); every row r lies in the
  block of point r / 4000, so the array ends holding the layer everywhere.
-/
import proofs.«138073_j73581379715727_1_alg».proof.Proof.Gen.KernelIdeal.Frame
import proofs.«138073_j73581379715727_1_alg».proof.Proof.Spec
import proofs.«138073_j73581379715727_1_alg».proof.Proof.RegionPay0
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The index maps of region 0, decided over the 25 grid points: the two node windows and the result window sit at
    block row t, column block 0; the weight and statistic windows are whole at every point. -/
theorem idx_facts0 : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ win0_4.index t (0 : Fin 1) = 0 ∧ win0_5.index t (0 : Fin 1) = 0 ∧ win0_6.index t (0 : Fin 1) = 0
    ∧ win0_7.index t (0 : Fin 1) = 0 ∧ win0_8.index t (0 : Fin 1) = 0
    ∧ (win0_9.index t (0 : Fin 2) = t.val ∧ win0_9.index t (1 : Fin 2) = 0) :=
  (by decide +kernel : ∀ t : Fin grid0.N, _)

/-- Row p of the neighbourhood-mean tile at point t is row 4000·t + p of the array. -/
theorem nodeBlk0_0 (c : Dev nD) (t : Fin cfg0.N) (p : Fin 4000) (k : Fin 11) (r : Fin 100000)
    (hr : r.val = 4000 * t.val + p.val) :
    (iblk0 (F := Ideal) V c 0 t : Vec Ideal S4000x11 .f32) (ix2 p k) = (V c main_v24 : S100000x11.Idx → EReal) (ix2 r k) := by
  obtain ⟨⟨e0, e1⟩, -⟩ := idx_facts0 t
  unfold iblk0
  rw [View.read_apply]
  show V c main_v24 _ = V c main_v24 _
  congr 1
  funext a
  apply Fin.ext
  match a with
  | ⟨0, _⟩ => show win0_0.index t (0 : Fin 2) * 4000 + 1 * p.val = r.val; rw [e0, hr]; omega
  | ⟨1, _⟩ => show win0_0.index t (1 : Fin 2) * 11 + 1 * k.val = k.val; rw [e1]; omega

/-- Row p of the feature tile at point t is row 4000·t + p of the array. -/
theorem nodeBlk0_1 (c : Dev nD) (t : Fin cfg0.N) (p : Fin 4000) (k : Fin 11) (r : Fin 100000)
    (hr : r.val = 4000 * t.val + p.val) :
    (iblk0 (F := Ideal) V c 1 t : Vec Ideal S4000x11 .f32) (ix2 p k) = (V c main_arg0 : S100000x11.Idx → EReal) (ix2 r k) := by
  obtain ⟨-, ⟨e0, e1⟩, -⟩ := idx_facts0 t
  unfold iblk0
  rw [View.read_apply]
  show V c main_arg0 _ = V c main_arg0 _
  congr 1
  funext a
  apply Fin.ext
  match a with
  | ⟨0, _⟩ => show win0_1.index t (0 : Fin 2) * 4000 + 1 * p.val = r.val; rw [e0, hr]; omega
  | ⟨1, _⟩ => show win0_1.index t (1 : Fin 2) * 11 + 1 * k.val = k.val; rw [e1]; omega

/-- The two weight tiles are the whole weight arrays at every point. -/
theorem wholeBlk0_2 (c : Dev nD) (t : Fin cfg0.N) :
    (iblk0 (F := Ideal) V c 2 t : Vec Ideal S11x128 .f32) = V c main_arg3 := by
  obtain ⟨-, -, ⟨e0, e1⟩, -⟩ := idx_facts0 t
  funext y
  unfold iblk0
  rw [View.read_apply]
  show V c main_arg3 _ = V c main_arg3 y
  congr 1
  funext a
  apply Fin.ext
  match a with
  | ⟨0, _⟩ => show win0_2.index t (0 : Fin 2) * 11 + 1 * (y 0).val = (y 0).val; rw [e0]; omega
  | ⟨1, _⟩ => show win0_2.index t (1 : Fin 2) * 128 + 1 * (y 1).val = (y 1).val; rw [e1]; omega

theorem wholeBlk0_3 (c : Dev nD) (t : Fin cfg0.N) :
    (iblk0 (F := Ideal) V c 3 t : Vec Ideal S11x128 .f32) = V c main_arg4 := by
  obtain ⟨-, -, -, ⟨e0, e1⟩, -⟩ := idx_facts0 t
  funext y
  unfold iblk0
  rw [View.read_apply]
  show V c main_arg4 _ = V c main_arg4 y
  congr 1
  funext a
  apply Fin.ext
  match a with
  | ⟨0, _⟩ => show win0_3.index t (0 : Fin 2) * 11 + 1 * (y 0).val = (y 0).val; rw [e0]; omega
  | ⟨1, _⟩ => show win0_3.index t (1 : Fin 2) * 128 + 1 * (y 1).val = (y 1).val; rw [e1]; omega

/-- The bias and the four statistic tiles are the whole vectors at every point. -/
theorem wholeBlk0_4 (c : Dev nD) (t : Fin cfg0.N) :
    (iblk0 (F := Ideal) V c 4 t : Vec Ideal S128 .f32) = V c main_arg5 := by
  obtain ⟨-, -, -, -, e0, -⟩ := idx_facts0 t
  funext y
  unfold iblk0
  rw [View.read_apply]
  show V c main_arg5 _ = V c main_arg5 y
  congr 1
  funext a
  apply Fin.ext
  match a with
  | ⟨0, _⟩ => show win0_4.index t (0 : Fin 1) * 128 + 1 * (y 0).val = (y 0).val; rw [e0]; omega

theorem wholeBlk0_5 (c : Dev nD) (t : Fin cfg0.N) :
    (iblk0 (F := Ideal) V c 5 t : Vec Ideal S128 .f32) = V c main_v26 := by
  obtain ⟨-, -, -, -, -, e0, -⟩ := idx_facts0 t
  funext y
  unfold iblk0
  rw [View.read_apply]
  show V c main_v26 _ = V c main_v26 y
  congr 1
  funext a
  apply Fin.ext
  match a with
  | ⟨0, _⟩ => show win0_5.index t (0 : Fin 1) * 128 + 1 * (y 0).val = (y 0).val; rw [e0]; omega

theorem wholeBlk0_6 (c : Dev nD) (t : Fin cfg0.N) :
    (iblk0 (F := Ideal) V c 6 t : Vec Ideal S128 .f32) = V c main_v28 := by
  obtain ⟨-, -, -, -, -, -, e0, -⟩ := idx_facts0 t
  funext y
  unfold iblk0
  rw [View.read_apply]
  show V c main_v28 _ = V c main_v28 y
  congr 1
  funext a
  apply Fin.ext
  match a with
  | ⟨0, _⟩ => show win0_6.index t (0 : Fin 1) * 128 + 1 * (y 0).val = (y 0).val; rw [e0]; omega

theorem wholeBlk0_7 (c : Dev nD) (t : Fin cfg0.N) :
    (iblk0 (F := Ideal) V c 7 t : Vec Ideal S128 .f32) = V c main_v30 := by
  obtain ⟨-, -, -, -, -, -, -, e0, -⟩ := idx_facts0 t
  funext y
  unfold iblk0
  rw [View.read_apply]
  show V c main_v30 _ = V c main_v30 y
  congr 1
  funext a
  apply Fin.ext
  match a with
  | ⟨0, _⟩ => show win0_7.index t (0 : Fin 1) * 128 + 1 * (y 0).val = (y 0).val; rw [e0]; omega

theorem wholeBlk0_8 (c : Dev nD) (t : Fin cfg0.N) :
    (iblk0 (F := Ideal) V c 8 t : Vec Ideal S128 .f32) = V c main_v32 := by
  obtain ⟨-, -, -, -, -, -, -, -, e0, -⟩ := idx_facts0 t
  funext y
  unfold iblk0
  rw [View.read_apply]
  show V c main_v32 _ = V c main_v32 y
  congr 1
  funext a
  apply Fin.ext
  match a with
  | ⟨0, _⟩ => show win0_8.index t (0 : Fin 1) * 128 + 1 * (y 0).val = (y 0).val; rw [e0]; omega

/-- What point t writes back is block t of the layer of the arrays the region found: entry (p, q) of the tile is the
    layer at (4000·t + p, q). -/
theorem flushed0_eq (c : Dev nD) (t : Fin cfg0.N) :
    (dat0 (F := Ideal) V c).flushed 9 t = ((cfg0.win 9).blk t).view.read (Elt Ideal)
      (SageNet.layer0 (V c main_v24) (V c main_arg0) (V c main_arg3) (V c main_arg4) (V c main_arg5)
        (V c main_v26) (V c main_v28) (V c main_v30) (V c main_v32)) := by
  show (cfg0.win 9).cut (grid0.coords t) ((dat0 V c).after 9 t) = _
  rw [after0_9]
  unfold out0_9
  rw [View.canon_unit_zero hz2]
  simp only [View.ld_unit_zero (S := S4000x11) hz2, View.ld_unit_zero (S := S11x128) hz2, View.ld_unit_zero (S := S128) hz1]
  funext j
  have hN : cfg0.N = 25 := N_0
  have ht : t.val < 25 := by have := t.isLt; omega
  have hj0 : (j 0).val < 4000 := (j 0).isLt
  have hj1 : (j 1).val < 128 := (j 1).isLt
  obtain ⟨-, -, -, -, -, -, -, -, -, ⟨e0, e1⟩⟩ := idx_facts0 t
  have hx : (win0 9).xinj (grid0.coords t) j = ix2 (⟨(j 0).val, hj0⟩ : Fin 4000) (⟨(j 1).val, hj1⟩ : Fin 128) :=
    funext fun a => by match a with | ⟨0, _⟩ => rfl | ⟨1, _⟩ => rfl
  have he : ((View.whole main_v33).slice ((win0 9).rect t)).emb j
      = ix2 (⟨4000 * t.val + (j 0).val, by omega⟩ : Fin 100000) (⟨(j 1).val, hj1⟩ : Fin 128) := by
    funext a
    apply Fin.ext
    match a with
    | ⟨0, _⟩ => show win0_9.index t (0 : Fin 2) * 4000 + 1 * (j 0).val = 4000 * t.val + (j 0).val; rw [e0]; omega
    | ⟨1, _⟩ => show win0_9.index t (1 : Fin 2) * 128 + 1 * (j 1).val = (j 1).val; rw [e1]; omega
  rw [View.read_apply]
  show k0_pay1 (iblk0 V c 0 t) (iblk0 V c 1 t) (iblk0 V c 2 t) (iblk0 V c 3 t) (iblk0 V c 4 t) (iblk0 V c 8 t)
        (iblk0 V c 7 t) (iblk0 V c 5 t) (iblk0 V c 6 t) ((win0 9).xinj (grid0.coords t) j)
      = SageNet.layer0 (V c main_v24) (V c main_arg0) (V c main_arg3) (V c main_arg4) (V c main_arg5)
        (V c main_v26) (V c main_v28) (V c main_v30) (V c main_v32) (((View.whole main_v33).slice ((win0 9).rect t)).emb j)
  rw [hx, he]
  exact tile0_eq (iblk0 V c 0 t) (iblk0 V c 1 t) (iblk0 V c 2 t) (iblk0 V c 3 t) (iblk0 V c 4 t) (iblk0 V c 5 t) (iblk0 V c 6 t) (iblk0 V c 7 t) (iblk0 V c 8 t)
    (V c main_v24) (V c main_arg0) (V c main_arg3) (V c main_arg4) (V c main_arg5)
    (V c main_v26) (V c main_v28) (V c main_v30) (V c main_v32)
    ⟨4000 * t.val + (j 0).val, by omega⟩ ⟨(j 0).val, hj0⟩ ⟨(j 1).val, hj1⟩
    (fun k => nodeBlk0_0 V c t ⟨(j 0).val, hj0⟩ k ⟨4000 * t.val + (j 0).val, by omega⟩ rfl)
    (fun k => nodeBlk0_1 V c t ⟨(j 0).val, hj0⟩ k ⟨4000 * t.val + (j 0).val, by omega⟩ rfl)
    (wholeBlk0_2 V c t) (wholeBlk0_3 V c t) (wholeBlk0_4 V c t) (wholeBlk0_5 V c t) (wholeBlk0_6 V c t)
    (wholeBlk0_7 V c t) (wholeBlk0_8 V c t)

/-- An index of the result array is in point t's block iff each coordinate is in the block's range on its axis. -/
theorem mem_blk0 (t : Fin cfg0.N) (i : S100000x128.Idx) :
    i ∈ ((cfg0.win 9).blk t).view.set ↔ ∀ a : Fin 2, win0_9.index t a * S4000x128.size a ≤ (i a).val
      ∧ (i a).val < win0_9.index t a * S4000x128.size a + S4000x128.size a := by
  show i ∈ ((View.whole main_v33).slice (win0_9.rect t)).set ↔ _
  rw [View.set_slice_whole, Rect.mem_set_unit]
  exact Iff.rfl

/-- Every row of the result is in some point's block, 25 · 4000 = 100000: row r is in the block of point r / 4000. -/
theorem cover0 (i : S100000x128.Idx) :
    ∃ t : Fin cfg0.N, (cfg0.win 9).flush t = true ∧ i ∈ ((cfg0.win 9).blk t).view.set := by
  have hN : cfg0.N = 25 := N_0
  have hi0 : (i 0).val < 100000 := (i 0).isLt
  have hi1 : (i 1).val < 128 := (i 1).isLt
  refine ⟨⟨(i 0).val / 4000, by omega⟩, flush0_9 _, ?_⟩
  rw [mem_blk0]
  obtain ⟨-, -, -, -, -, -, -, -, -, ⟨e0, e1⟩⟩ := idx_facts0 ⟨(i 0).val / 4000, by omega⟩
  intro a
  match a with
  | ⟨0, _⟩ =>
    show win0_9.index ⟨(i 0).val / 4000, _⟩ (0 : Fin 2) * 4000 ≤ (i 0).val
      ∧ (i 0).val < win0_9.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win0_9.index ⟨(i 0).val / 4000, _⟩ (1 : Fin 2) * 128 ≤ (i 1).val
      ∧ (i 1).val < win0_9.index ⟨(i 0).val / 4000, _⟩ (1 : Fin 2) * 128 + 128
    rw [e1]; omega

/-- After region 0 its output array is the first layer of the arrays the region found. -/
theorem final0 (c : Dev nD) :
    ((dat0 (F := Ideal) V c).arrAt 9 cfg0.N : S100000x128.Idx → EReal) =
      SageNet.layer0 (V c main_v24) (V c main_arg0) (V c main_arg3) (V c main_arg4) (V c main_arg5)
        (V c main_v26) (V c main_v28) (V c main_v30) (V c main_v32) :=
  (dat0 (F := Ideal) V c).arrAt_eq_of_cover 9 _ (fun t _ => flushed0_eq V c t) cover0

end Cert.KernelIdeal.RegionValue

end
-- ==== Proof.RefLayers.lean ====
/-
  The reference program's stages, read as the network's layers: each layer's result stage is the layer (Spec) of the
  stage holding the neighbourhood means, the previous layer's result stage and the layer's slices of the weight and
  statistic arrays; the last stage is the head of the pooled stage. The reference adds the bias BEFORE the second
  product where the layer is written with the bias last: the two agree because addition of extended reals is
  commutative and associative (no finiteness is needed).
-/
import proofs.«138073_j73581379715727_1_alg».proof.Proof.RefRead
import proofs.«138073_j73581379715727_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.ReadP Idealize.ShloMosaic Idealize.ShloMosaic.TcCoe
open Idealize.ShloMosaic.ValueIdx

variable (x0 : (⟨S100000x11, .f32⟩ : BufTy).Contents (Elt Ideal)) (x1 : (⟨S2x400000, .i32⟩ : BufTy).Contents (Elt Ideal))
  (x2 : (⟨S100000, .i32⟩ : BufTy).Contents (Elt Ideal))
  (x3 x4 : (⟨S11x128, .f32⟩ : BufTy).Contents (Elt Ideal)) (x5 : (⟨S128, .f32⟩ : BufTy).Contents (Elt Ideal))
  (x6 x7 : (⟨S3x128x128, .f32⟩ : BufTy).Contents (Elt Ideal)) (x8 : (⟨S3x128, .f32⟩ : BufTy).Contents (Elt Ideal))
  (x9 x10 x11 x12 : (⟨S4x128, .f32⟩ : BufTy).Contents (Elt Ideal))
  (x13 : (⟨S128x128, .f32⟩ : BufTy).Contents (Elt Ideal)) (x14 : (⟨S128, .f32⟩ : BufTy).Contents (Elt Ideal))
  (x15 : (⟨S128x128, .f32⟩ : BufTy).Contents (Elt Ideal)) (x16 : (⟨S128, .f32⟩ : BufTy).Contents (Elt Ideal))
  (x17 : (⟨S128x1, .f32⟩ : BufTy).Contents (Elt Ideal)) (x18 : (⟨S1, .f32⟩ : BufTy).Contents (Elt Ideal))

/-! ## The algebraic step

The reference adds the bias to the first product and then adds the second product; the layer is written with the
bias last. Addition of extended reals is commutative and associative, so the two pre-activations agree, and the
normalisation and the rectifier are then applied to equal arguments. -/

/-- The reference's order of the three summands, normalised and rectified, is the layer's channel. -/
theorem bn_bias_first (A X b mean var gamma beta : EReal) :
    max ((A + b + X - mean) * Ideal.rsqrt (var + SageNet.eps) * gamma + beta) 0 =
      SageNet.bnRelu (A + X + b) mean var gamma beta := by
  unfold SageNet.bnRelu
  rw [add_right_comm A b X]

/-! ## The first layer (11 input features)

The two broadcasts that spread a channel vector over the rows read, at row `r` and channel `q`, the vector at `q`;
the two products read row `r` of their left operand and column `q` of their right one. -/

theorem chan_v35 (r : Fin 100000) (q : Fin 128) : idx_main_v34 (idx_main_v35 (ix2 r q)) = ix1 q :=
  funext fun a => Fin.ext (by match a with | ⟨0, _⟩ => rfl)
theorem chan_v40 (r : Fin 100000) (q : Fin 128) : idx_main_v39 (idx_main_v40 (ix2 r q)) = ix1 q :=
  funext fun a => Fin.ext (by match a with | ⟨0, _⟩ => rfl)
theorem chan_v46 (r : Fin 100000) (q : Fin 128) : idx_main_v45 (idx_main_v46 (ix2 r q)) = ix1 q :=
  funext fun a => Fin.ext (by match a with | ⟨0, _⟩ => rfl)
theorem chan_v49 (r : Fin 100000) (q : Fin 128) : idx_main_v48 (idx_main_v49 (ix2 r q)) = ix1 q :=
  funext fun a => Fin.ext (by match a with | ⟨0, _⟩ => rfl)
theorem chan_v52 (r : Fin 100000) (q : Fin 128) : idx_main_v51 (idx_main_v52 (ix2 r q)) = ix1 q :=
  funext fun a => Fin.ext (by match a with | ⟨0, _⟩ => rfl)
theorem lrow_v33 (r : Fin 100000) (q : Fin 128) (k : Fin 11) : lidx_main_v33 (ix2 r q) k = ix2 r k :=
  funext fun a => Fin.ext (by match a with | ⟨0, _⟩ => rfl | ⟨1, _⟩ => rfl)
theorem rcol_v33 (r : Fin 100000) (q : Fin 128) (k : Fin 11) : ridx_main_v33 (ix2 r q) k = ix2 k q :=
  funext fun a => Fin.ext (by match a with | ⟨0, _⟩ => rfl | ⟨1, _⟩ => rfl)
theorem lrow_v37 (r : Fin 100000) (q : Fin 128) (k : Fin 11) : lidx_main_v37 (ix2 r q) k = ix2 r k :=
  funext fun a => Fin.ext (by match a with | ⟨0, _⟩ => rfl | ⟨1, _⟩ => rfl)
theorem rcol_v37 (r : Fin 100000) (q : Fin 128) (k : Fin 11) : ridx_main_v37 (ix2 r q) k = ix2 k q :=
  funext fun a => Fin.ext (by match a with | ⟨0, _⟩ => rfl | ⟨1, _⟩ => rfl)

/-- The first layer's result stage is the first layer of the mean stage and the node features. -/
theorem h1_eq :
    val_main_v54 (F := Ideal) x0 x1 x3 x4 x5 x9 x10 x11 x12 =
      SageNet.layer0 (val_main_v32 (F := Ideal) x0 x1) x0 x3 x4 x5
        (val_main_v14 (F := Ideal) x9) (val_main_v16 (F := Ideal) x10) (val_main_v18 (F := Ideal) x11) (val_main_v20 (F := Ideal) x12) := by
  funext i
  obtain ⟨r, q, rfl⟩ : ∃ (r : Fin 100000) (q : Fin 128), i = ix2 r q := ⟨i 0, i 1, eq_ix2 i⟩
  rw [SageNet.layer0_ix2]
  rw [val_main_v54_apply, val_main_v53_apply, val_main_v50_apply, val_main_v47_apply, val_main_v41_apply,
    val_main_v38_apply, val_main_v36_apply, val_main_v33_apply, val_main_v35_apply, val_main_v34_apply,
    val_main_v37_apply, val_main_v40_apply, val_main_v39_apply, val_main_v46_apply, val_main_v45_apply,
    val_main_v44_apply, val_main_v43_apply, val_main_v42_apply, val_main_cst_5_apply, val_main_v49_apply,
    val_main_v48_apply, val_main_v52_apply, val_main_v51_apply, val_main_call0_v0_apply, val_main_call0_cst_apply]
  simp only [chan_v35, chan_v40, chan_v46, chan_v49, chan_v52, lrow_v33, rcol_v33, lrow_v37, rcol_v37,
    Ideal.mulf_def, Ideal.addf_def, Ideal.subf_def, Ideal.maximumf_def, Ideal.hostUnary_rsqrt_def, Ideal.ofBits_def,
    Ideal.ofBits_zero_f32]
  exact bn_bias_first _ _ _ _ _ _ _

/-! ## The second layer (128 features; the node's own feature is added back after the rectifier) -/

theorem chan_v83 (r : Fin 100000) (q : Fin 128) : idx_main_v82 (idx_main_v83 (ix2 r q)) = ix1 q :=
  funext fun a => Fin.ext (by match a with | ⟨0, _⟩ => rfl)
theorem chan_v88 (r : Fin 100000) (q : Fin 128) : idx_main_v87 (idx_main_v88 (ix2 r q)) = ix1 q :=
  funext fun a => Fin.ext (by match a with | ⟨0, _⟩ => rfl)
theorem chan_v94 (r : Fin 100000) (q : Fin 128) : idx_main_v93 (idx_main_v94 (ix2 r q)) = ix1 q :=
  funext fun a => Fin.ext (by match a with | ⟨0, _⟩ => rfl)
theorem chan_v97 (r : Fin 100000) (q : Fin 128) : idx_main_v96 (idx_main_v97 (ix2 r q)) = ix1 q :=
  funext fun a => Fin.ext (by match a with | ⟨0, _⟩ => rfl)
theorem chan_v100 (r : Fin 100000) (q : Fin 128) : idx_main_v99 (idx_main_v100 (ix2 r q)) = ix1 q :=
  funext fun a => Fin.ext (by match a with | ⟨0, _⟩ => rfl)
theorem lrow_v81 (r : Fin 100000) (q : Fin 128) (k : Fin 128) : lidx_main_v81 (ix2 r q) k = ix2 r k :=
  funext fun a => Fin.ext (by match a with | ⟨0, _⟩ => rfl | ⟨1, _⟩ => rfl)
theorem rcol_v81 (r : Fin 100000) (q : Fin 128) (k : Fin 128) : ridx_main_v81 (ix2 r q) k = ix2 k q :=
  funext fun a => Fin.ext (by match a with | ⟨0, _⟩ => rfl | ⟨1, _⟩ => rfl)
theorem lrow_v85 (r : Fin 100000) (q : Fin 128) (k : Fin 128) : lidx_main_v85 (ix2 r q) k = ix2 r k :=
  funext fun a => Fin.ext (by match a with | ⟨0, _⟩ => rfl | ⟨1, _⟩ => rfl)
theorem rcol_v85 (r : Fin 100000) (q : Fin 128) (k : Fin 128) : ridx_main_v85 (ix2 r q) k = ix2 k q :=
  funext fun a => Fin.ext (by match a with | ⟨0, _⟩ => rfl | ⟨1, _⟩ => rfl)

/-- The second layer's result stage. -/
theorem h2_eq :
    val_main_v103 (F := Ideal) x0 x1 x3 x4 x5 x6 x7 x8 x9 x10 x11 x12 =
      SageNet.layerR (val_main_v80 (F := Ideal) x0 x1 x3 x4 x5 x9 x10 x11 x12) (val_main_v54 (F := Ideal) x0 x1 x3 x4 x5 x9 x10 x11 x12)
        (val_main_v56 (F := Ideal) x6) (val_main_v58 (F := Ideal) x7) (val_main_v60 (F := Ideal) x8)
        (val_main_v62 (F := Ideal) x9) (val_main_v64 (F := Ideal) x10) (val_main_v66 (F := Ideal) x11) (val_main_v68 (F := Ideal) x12) := by
  funext i
  obtain ⟨r, q, rfl⟩ : ∃ (r : Fin 100000) (q : Fin 128), i = ix2 r q := ⟨i 0, i 1, eq_ix2 i⟩
  rw [SageNet.layerR_ix2]
  rw [val_main_v103_apply, val_main_v102_apply, val_main_v101_apply, val_main_v98_apply, val_main_v95_apply,
    val_main_v89_apply, val_main_v86_apply, val_main_v84_apply, val_main_v81_apply, val_main_v83_apply,
    val_main_v82_apply, val_main_v85_apply, val_main_v88_apply, val_main_v87_apply, val_main_v94_apply,
    val_main_v93_apply, val_main_v92_apply, val_main_v91_apply, val_main_v90_apply, val_main_cst_9_apply,
    val_main_v97_apply, val_main_v96_apply, val_main_v100_apply, val_main_v99_apply, val_main_call1_v0_apply,
    val_main_call1_cst_apply]
  simp only [chan_v83, chan_v88, chan_v94, chan_v97, chan_v100, lrow_v81, rcol_v81, lrow_v85, rcol_v85,
    Ideal.mulf_def, Ideal.addf_def, Ideal.subf_def, Ideal.maximumf_def, Ideal.hostUnary_rsqrt_def, Ideal.ofBits_def,
    Ideal.ofBits_zero_f32]
  unfold SageNet.layerRAt SageNet.sageRow
  rw [bn_bias_first]

/-! ## The third layer -/

theorem chan_v132 (r : Fin 100000) (q : Fin 128) : idx_main_v131 (idx_main_v132 (ix2 r q)) = ix1 q :=
  funext fun a => Fin.ext (by match a with | ⟨0, _⟩ => rfl)
theorem chan_v137 (r : Fin 100000) (q : Fin 128) : idx_main_v136 (idx_main_v137 (ix2 r q)) = ix1 q :=
  funext fun a => Fin.ext (by match a with | ⟨0, _⟩ => rfl)
theorem chan_v143 (r : Fin 100000) (q : Fin 128) : idx_main_v142 (idx_main_v143 (ix2 r q)) = ix1 q :=
  funext fun a => Fin.ext (by match a with | ⟨0, _⟩ => rfl)
theorem chan_v146 (r : Fin 100000) (q : Fin 128) : idx_main_v145 (idx_main_v146 (ix2 r q)) = ix1 q :=
  funext fun a => Fin.ext (by match a with | ⟨0, _⟩ => rfl)
theorem chan_v149 (r : Fin 100000) (q : Fin 128) : idx_main_v148 (idx_main_v149 (ix2 r q)) = ix1 q :=
  funext fun a => Fin.ext (by match a with | ⟨0, _⟩ => rfl)
theorem lrow_v130 (r : Fin 100000) (q : Fin 128) (k : Fin 128) : lidx_main_v130 (ix2 r q) k = ix2 r k :=
  funext fun a => Fin.ext (by match a with | ⟨0, _⟩ => rfl | ⟨1, _⟩ => rfl)
theorem rcol_v130 (r : Fin 100000) (q : Fin 128) (k : Fin 128) : ridx_main_v130 (ix2 r q) k = ix2 k q :=
  funext fun a => Fin.ext (by match a with | ⟨0, _⟩ => rfl | ⟨1, _⟩ => rfl)
theorem lrow_v134 (r : Fin 100000) (q : Fin 128) (k : Fin 128) : lidx_main_v134 (ix2 r q) k = ix2 r k :=
  funext fun a => Fin.ext (by match a with | ⟨0, _⟩ => rfl | ⟨1, _⟩ => rfl)
theorem rcol_v134 (r : Fin 100000) (q : Fin 128) (k : Fin 128) : ridx_main_v134 (ix2 r q) k = ix2 k q :=
  funext fun a => Fin.ext (by match a with | ⟨0, _⟩ => rfl | ⟨1, _⟩ => rfl)

/-- The third layer's result stage. -/
theorem h3_eq :
    val_main_v152 (F := Ideal) x0 x1 x3 x4 x5 x6 x7 x8 x9 x10 x11 x12 =
      SageNet.layerR (val_main_v129 (F := Ideal) x0 x1 x3 x4 x5 x6 x7 x8 x9 x10 x11 x12) (val_main_v103 (F := Ideal) x0 x1 x3 x4 x5 x6 x7 x8 x9 x10 x11 x12)
        (val_main_v105 (F := Ideal) x6) (val_main_v107 (F := Ideal) x7) (val_main_v109 (F := Ideal) x8)
        (val_main_v111 (F := Ideal) x9) (val_main_v113 (F := Ideal) x10) (val_main_v115 (F := Ideal) x11) (val_main_v117 (F := Ideal) x12) := by
  funext i
  obtain ⟨r, q, rfl⟩ : ∃ (r : Fin 100000) (q : Fin 128), i = ix2 r q := ⟨i 0, i 1, eq_ix2 i⟩
  rw [SageNet.layerR_ix2]
  rw [val_main_v152_apply, val_main_v151_apply, val_main_v150_apply, val_main_v147_apply, val_main_v144_apply,
    val_main_v138_apply, val_main_v135_apply, val_main_v133_apply, val_main_v130_apply, val_main_v132_apply,
    val_main_v131_apply, val_main_v134_apply, val_main_v137_apply, val_main_v136_apply, val_main_v143_apply,
    val_main_v142_apply, val_main_v141_apply, val_main_v140_apply, val_main_v139_apply, val_main_cst_13_apply,
    val_main_v146_apply, val_main_v145_apply, val_main_v149_apply, val_main_v148_apply, val_main_call2_v0_apply,
    val_main_call2_cst_apply]
  simp only [chan_v132, chan_v137, chan_v143, chan_v146, chan_v149, lrow_v130, rcol_v130, lrow_v134, rcol_v134,
    Ideal.mulf_def, Ideal.addf_def, Ideal.subf_def, Ideal.maximumf_def, Ideal.hostUnary_rsqrt_def, Ideal.ofBits_def,
    Ideal.ofBits_zero_f32]
  unfold SageNet.layerRAt SageNet.sageRow
  rw [bn_bias_first]

/-! ## The fourth layer -/

theorem chan_v181 (r : Fin 100000) (q : Fin 128) : idx_main_v180 (idx_main_v181 (ix2 r q)) = ix1 q :=
  funext fun a => Fin.ext (by match a with | ⟨0, _⟩ => rfl)
theorem chan_v186 (r : Fin 100000) (q : Fin 128) : idx_main_v185 (idx_main_v186 (ix2 r q)) = ix1 q :=
  funext fun a => Fin.ext (by match a with | ⟨0, _⟩ => rfl)
theorem chan_v192 (r : Fin 100000) (q : Fin 128) : idx_main_v191 (idx_main_v192 (ix2 r q)) = ix1 q :=
  funext fun a => Fin.ext (by match a with | ⟨0, _⟩ => rfl)
theorem chan_v195 (r : Fin 100000) (q : Fin 128) : idx_main_v194 (idx_main_v195 (ix2 r q)) = ix1 q :=
  funext fun a => Fin.ext (by match a with | ⟨0, _⟩ => rfl)
theorem chan_v198 (r : Fin 100000) (q : Fin 128) : idx_main_v197 (idx_main_v198 (ix2 r q)) = ix1 q :=
  funext fun a => Fin.ext (by match a with | ⟨0, _⟩ => rfl)
theorem lrow_v179 (r : Fin 100000) (q : Fin 128) (k : Fin 128) : lidx_main_v179 (ix2 r q) k = ix2 r k :=
  funext fun a => Fin.ext (by match a with | ⟨0, _⟩ => rfl | ⟨1, _⟩ => rfl)
theorem rcol_v179 (r : Fin 100000) (q : Fin 128) (k : Fin 128) : ridx_main_v179 (ix2 r q) k = ix2 k q :=
  funext fun a => Fin.ext (by match a with | ⟨0, _⟩ => rfl | ⟨1, _⟩ => rfl)
theorem lrow_v183 (r : Fin 100000) (q : Fin 128) (k : Fin 128) : lidx_main_v183 (ix2 r q) k = ix2 r k :=
  funext fun a => Fin.ext (by match a with | ⟨0, _⟩ => rfl | ⟨1, _⟩ => rfl)
theorem rcol_v183 (r : Fin 100000) (q : Fin 128) (k : Fin 128) : ridx_main_v183 (ix2 r q) k = ix2 k q :=
  funext fun a => Fin.ext (by match a with | ⟨0, _⟩ => rfl | ⟨1, _⟩ => rfl)

/-- The fourth layer's result stage. -/
theorem h4_eq :
    val_main_v201 (F := Ideal) x0 x1 x3 x4 x5 x6 x7 x8 x9 x10 x11 x12 =
      SageNet.layerR (val_main_v178 (F := Ideal) x0 x1 x3 x4 x5 x6 x7 x8 x9 x10 x11 x12) (val_main_v152 (F := Ideal) x0 x1 x3 x4 x5 x6 x7 x8 x9 x10 x11 x12)
        (val_main_v154 (F := Ideal) x6) (val_main_v156 (F := Ideal) x7) (val_main_v158 (F := Ideal) x8)
        (val_main_v160 (F := Ideal) x9) (val_main_v162 (F := Ideal) x10) (val_main_v164 (F := Ideal) x11) (val_main_v166 (F := Ideal) x12) := by
  funext i
  obtain ⟨r, q, rfl⟩ : ∃ (r : Fin 100000) (q : Fin 128), i = ix2 r q := ⟨i 0, i 1, eq_ix2 i⟩
  rw [SageNet.layerR_ix2]
  rw [val_main_v201_apply, val_main_v200_apply, val_main_v199_apply, val_main_v196_apply, val_main_v193_apply,
    val_main_v187_apply, val_main_v184_apply, val_main_v182_apply, val_main_v179_apply, val_main_v181_apply,
    val_main_v180_apply, val_main_v183_apply, val_main_v186_apply, val_main_v185_apply, val_main_v192_apply,
    val_main_v191_apply, val_main_v190_apply, val_main_v189_apply, val_main_v188_apply, val_main_cst_17_apply,
    val_main_v195_apply, val_main_v194_apply, val_main_v198_apply, val_main_v197_apply, val_main_call3_v0_apply,
    val_main_call3_cst_apply]
  simp only [chan_v181, chan_v186, chan_v192, chan_v195, chan_v198, lrow_v179, rcol_v179, lrow_v183, rcol_v183,
    Ideal.mulf_def, Ideal.addf_def, Ideal.subf_def, Ideal.maximumf_def, Ideal.hostUnary_rsqrt_def, Ideal.ofBits_def,
    Ideal.ofBits_zero_f32]
  unfold SageNet.layerRAt SageNet.sageRow
  rw [bn_bias_first]

/-! ## The head

Three dense maps on each pooled row; each of the first two is followed by the rectifier. They are read one after
the other: the first rectified stage at row `r` is the dense map of the pooled row, the second is the dense map of
the first, and the result is the last product plus its bias. -/

theorem chan_v216 (r : Fin 5000) (j : Fin 128) : idx_main_v215 (idx_main_v216 (ix2 r j)) = ix1 j :=
  funext fun a => Fin.ext (by match a with | ⟨0, _⟩ => rfl)
theorem chan_v221 (r : Fin 5000) (j : Fin 128) : idx_main_v220 (idx_main_v221 (ix2 r j)) = ix1 j :=
  funext fun a => Fin.ext (by match a with | ⟨0, _⟩ => rfl)
theorem chan_v226 (r : Fin 5000) (q : Fin 1) : idx_main_v225 (idx_main_v226 (ix2 r q)) = ix1 (0 : Fin 1) :=
  funext fun a => Fin.ext (by match a with | ⟨0, _⟩ => rfl)
theorem lrow_v214 (r : Fin 5000) (j : Fin 128) (k : Fin 128) : lidx_main_v214 (ix2 r j) k = ix2 r k :=
  funext fun a => Fin.ext (by match a with | ⟨0, _⟩ => rfl | ⟨1, _⟩ => rfl)
theorem rcol_v214 (r : Fin 5000) (j : Fin 128) (k : Fin 128) : ridx_main_v214 (ix2 r j) k = ix2 k j :=
  funext fun a => Fin.ext (by match a with | ⟨0, _⟩ => rfl | ⟨1, _⟩ => rfl)
theorem lrow_v219 (r : Fin 5000) (j : Fin 128) (k : Fin 128) : lidx_main_v219 (ix2 r j) k = ix2 r k :=
  funext fun a => Fin.ext (by match a with | ⟨0, _⟩ => rfl | ⟨1, _⟩ => rfl)
theorem rcol_v219 (r : Fin 5000) (j : Fin 128) (k : Fin 128) : ridx_main_v219 (ix2 r j) k = ix2 k j :=
  funext fun a => Fin.ext (by match a with | ⟨0, _⟩ => rfl | ⟨1, _⟩ => rfl)
theorem lrow_v224 (r : Fin 5000) (q : Fin 1) (k : Fin 128) : lidx_main_v224 (ix2 r q) k = ix2 r k :=
  funext fun a => Fin.ext (by match a with | ⟨0, _⟩ => rfl | ⟨1, _⟩ => rfl)
theorem rcol_v224 (r : Fin 5000) (k : Fin 128) : ridx_main_v224 (ix2 r (0 : Fin 1)) k = ix2 k (0 : Fin 1) :=
  funext fun a => Fin.ext (by match a with | ⟨0, _⟩ => rfl | ⟨1, _⟩ => rfl)

/-- The first rectified stage of the head, at pooled row `r` and channel `j`. -/
theorem head1_at (r : Fin 5000) (j : Fin 128) :
    val_main_v218 (F := Ideal) x0 x1 x2 x3 x4 x5 x6 x7 x8 x9 x10 x11 x12 x13 x14 (ix2 r j) =
      SageNet.denseRelu (fun k => val_main_v213 (F := Ideal) x0 x1 x2 x3 x4 x5 x6 x7 x8 x9 x10 x11 x12 (ix2 r k)) x13 x14 j := by
  rw [val_main_v218_apply, val_main_v217_apply, val_main_v214_apply, val_main_v216_apply, val_main_v215_apply,
    val_main_call4_v0_apply, val_main_call4_cst_apply]
  simp only [chan_v216, lrow_v214, rcol_v214, Ideal.addf_def, Ideal.maximumf_def, Ideal.ofBits_def, Ideal.ofBits_zero_f32]
  rfl

/-- The second rectified stage of the head, at pooled row `r` and channel `j`. -/
theorem head2_at (r : Fin 5000) (j : Fin 128) :
    val_main_v223 (F := Ideal) x0 x1 x2 x3 x4 x5 x6 x7 x8 x9 x10 x11 x12 x13 x14 x15 x16 (ix2 r j) =
      SageNet.denseRelu (SageNet.denseRelu
        (fun k => val_main_v213 (F := Ideal) x0 x1 x2 x3 x4 x5 x6 x7 x8 x9 x10 x11 x12 (ix2 r k)) x13 x14) x15 x16 j := by
  rw [val_main_v223_apply, val_main_v222_apply, val_main_v219_apply, val_main_v221_apply, val_main_v220_apply,
    val_main_call5_v0_apply, val_main_call5_cst_apply]
  simp only [chan_v221, lrow_v219, rcol_v219, head1_at, Ideal.addf_def, Ideal.maximumf_def, Ideal.ofBits_def,
    Ideal.ofBits_zero_f32]
  rfl

/-- The result stage is the head of the pooled stage. -/
theorem out_eq :
    val_main_v227 (F := Ideal) x0 x1 x2 x3 x4 x5 x6 x7 x8 x9 x10 x11 x12 x13 x14 x15 x16 x17 x18 =
      SageNet.mlp (val_main_v213 (F := Ideal) x0 x1 x2 x3 x4 x5 x6 x7 x8 x9 x10 x11 x12) x13 x14 x15 x16 x17 x18 := by
  funext i
  obtain ⟨r, q, rfl⟩ : ∃ (r : Fin 5000) (q : Fin 1), i = ix2 r q := ⟨i 0, i 1, eq_ix2 i⟩
  obtain rfl : q = 0 := Subsingleton.elim q 0
  rw [SageNet.mlp_ix2]
  rw [val_main_v227_apply, val_main_v224_apply, val_main_v226_apply, val_main_v225_apply]
  simp only [chan_v226, lrow_v224, rcol_v224, head2_at, Ideal.addf_def]
  rfl

end Cert.ReferenceIdeal.RefValue

end
-- ==== Proof.FoldStep0.lean ====
/-
  The first stretch of host operations and the first layer's region. From the launch contents the first stretch
  computes the edge list's rows, the inverse degrees and the neighbourhood means of the input features exactly as
  the reference's first stages do, and slices the first row of each statistic array; the region then leaves the
  first layer of those arrays in its result array, which is the reference's first-layer stage.
-/
import proofs.«138073_j73581379715727_1_alg».proof.Proof.FoldBase
import proofs.«138073_j73581379715727_1_alg».proof.Proof.Region0
import proofs.«138073_j73581379715727_1_alg».proof.Proof.RefLayers

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

set_option maxHeartbeats 4000000 in
/-- After the first stretch the surviving buffers hold the reference's stages of the arguments. -/
theorem keep1 : Keep m c (W1 m ρ c) where
  src := by show StableHlo.after hostOps0 (W0 m ρ c) (Proc.devRef .tc main_v1) = _; after_results_simp; rfl
  tgt := by show StableHlo.after hostOps0 (W0 m ρ c) (Proc.devRef .tc main_v3) = _; after_results_simp; rfl
  deg := by show StableHlo.after hostOps0 (W0 m ρ c) (Proc.devRef .tc main_v12) = _; after_results_simp; rfl
  k2 := by show W1 m ρ c (Proc.devRef .tc main_arg2) = W0 m ρ c (Proc.devRef .tc main_arg2); skip_stretch hostOps0
  k6 := by show W1 m ρ c (Proc.devRef .tc main_arg6) = W0 m ρ c (Proc.devRef .tc main_arg6); skip_stretch hostOps0
  k7 := by show W1 m ρ c (Proc.devRef .tc main_arg7) = W0 m ρ c (Proc.devRef .tc main_arg7); skip_stretch hostOps0
  k8 := by show W1 m ρ c (Proc.devRef .tc main_arg8) = W0 m ρ c (Proc.devRef .tc main_arg8); skip_stretch hostOps0
  k9 := by show W1 m ρ c (Proc.devRef .tc main_arg9) = W0 m ρ c (Proc.devRef .tc main_arg9); skip_stretch hostOps0
  k10 := by show W1 m ρ c (Proc.devRef .tc main_arg10) = W0 m ρ c (Proc.devRef .tc main_arg10); skip_stretch hostOps0
  k11 := by show W1 m ρ c (Proc.devRef .tc main_arg11) = W0 m ρ c (Proc.devRef .tc main_arg11); skip_stretch hostOps0
  k12 := by show W1 m ρ c (Proc.devRef .tc main_arg12) = W0 m ρ c (Proc.devRef .tc main_arg12); skip_stretch hostOps0

/-- The first region leaves every surviving buffer alone: none is one of its arrays. -/
theorem keep2 : Keep m c (W2 m ρ c) where
  src := (W2_of_ne m ρ c main_v1 (by decide)).trans (keep1 m ρ c).src
  tgt := (W2_of_ne m ρ c main_v3 (by decide)).trans (keep1 m ρ c).tgt
  deg := (W2_of_ne m ρ c main_v12 (by decide)).trans (keep1 m ρ c).deg
  k2 := (W2_of_ne m ρ c main_arg2 (by decide)).trans (keep1 m ρ c).k2
  k6 := (W2_of_ne m ρ c main_arg6 (by decide)).trans (keep1 m ρ c).k6
  k7 := (W2_of_ne m ρ c main_arg7 (by decide)).trans (keep1 m ρ c).k7
  k8 := (W2_of_ne m ρ c main_arg8 (by decide)).trans (keep1 m ρ c).k8
  k9 := (W2_of_ne m ρ c main_arg9 (by decide)).trans (keep1 m ρ c).k9
  k10 := (W2_of_ne m ρ c main_arg10 (by decide)).trans (keep1 m ρ c).k10
  k11 := (W2_of_ne m ρ c main_arg11 (by decide)).trans (keep1 m ρ c).k11
  k12 := (W2_of_ne m ρ c main_arg12 (by decide)).trans (keep1 m ρ c).k12

set_option maxHeartbeats 4000000 in
/-- After the first region its result array holds the reference's first-layer stage. -/
theorem out2 : W2 m ρ c (Proc.devRef .tc main_v33) = H1 m c := by
  have e0 : V1 m ρ c main_v24 = Cert.ReferenceIdeal.ReadP.val_main_v32 (F := Ideal) (a0 m c) (a1 m c) := by show StableHlo.after hostOps0 (W0 m ρ c) (Proc.devRef .tc main_v24) = _; after_results_simp; rfl
  have e1 : V1 m ρ c main_arg0 = a0 m c := by show W1 m ρ c (Proc.devRef .tc main_arg0) = W0 m ρ c (Proc.devRef .tc main_arg0); skip_stretch hostOps0
  have e2 : V1 m ρ c main_arg3 = a3 m c := by show W1 m ρ c (Proc.devRef .tc main_arg3) = W0 m ρ c (Proc.devRef .tc main_arg3); skip_stretch hostOps0
  have e3 : V1 m ρ c main_arg4 = a4 m c := by show W1 m ρ c (Proc.devRef .tc main_arg4) = W0 m ρ c (Proc.devRef .tc main_arg4); skip_stretch hostOps0
  have e4 : V1 m ρ c main_arg5 = a5 m c := by show W1 m ρ c (Proc.devRef .tc main_arg5) = W0 m ρ c (Proc.devRef .tc main_arg5); skip_stretch hostOps0
  have e5 : V1 m ρ c main_v26 = Cert.ReferenceIdeal.ReadP.val_main_v14 (F := Ideal) (a9 m c) := by show StableHlo.after hostOps0 (W0 m ρ c) (Proc.devRef .tc main_v26) = _; after_results_simp; rfl
  have e6 : V1 m ρ c main_v28 = Cert.ReferenceIdeal.ReadP.val_main_v16 (F := Ideal) (a10 m c) := by show StableHlo.after hostOps0 (W0 m ρ c) (Proc.devRef .tc main_v28) = _; after_results_simp; rfl
  have e7 : V1 m ρ c main_v30 = Cert.ReferenceIdeal.ReadP.val_main_v18 (F := Ideal) (a11 m c) := by show StableHlo.after hostOps0 (W0 m ρ c) (Proc.devRef .tc main_v30) = _; after_results_simp; rfl
  have e8 : V1 m ρ c main_v32 = Cert.ReferenceIdeal.ReadP.val_main_v20 (F := Ideal) (a12 m c) := by show StableHlo.after hostOps0 (W0 m ρ c) (Proc.devRef .tc main_v32) = _; after_results_simp; rfl
  refine (W2_arr m ρ c 9).trans ?_
  rw [RegionValue.final0 (V1 m ρ) c, e0, e1, e2, e3, e4, e5, e6, e7, e8]
  exact (Cert.ReferenceIdeal.RefValue.h1_eq (a0 m c) (a1 m c) (a3 m c) (a4 m c) (a5 m c) (a9 m c) (a10 m c) (a11 m c) (a12 m c)).symm

end Cert.KernelIdeal.Fold

end
-- ==== Proof.RegionPay1.lean ====
/-
  Layer 1 on one tile. With a0, x0 the 4000×128 tiles of neighbourhood means and of node features, Wl, Wr the
  128×128 weights, and b, var, mean, gamma, beta the 128-channel vectors, the tile's arithmetic at row p, channel q is

      max (((∑ k, a0[p,k]·Wl[k,q] + ∑ k, x0[p,k]·Wr[k,q] + b q) − mean q) · rsqrt (var q + ε) · gamma q + beta q) 0 + x0[p,q],

  the layer's formula on row p of the two tiles plus the node's own feature: casts between number formats are the
  identity on the extended reals, the zero the rectifier compares with is the extended real 0, and every other step is
  entrywise. So when row p of the tiles is row r of the arrays, the tile at (p, q) is the layer at (r, q).
-/
import proofs.«138073_j73581379715727_1_alg».proof.Proof.Gen.KernelIdeal.Skeleton
import proofs.«138073_j73581379715727_1_alg».proof.Proof.Spec
import proofs.«138073_j73581379715727_1_alg».proof.Proof.RegionPayLaws

set_option maxRecDepth 16384

noncomputable section

namespace Cert.KernelIdeal.RegionValue

open Cert.KernelIdeal Cert.KernelIdeal.Gen Idealize.ShloMosaic
open Idealize.ShloMosaic.ValueIdx

/-- The tile arithmetic of layer 1 at row p, channel q: the layer's formula on row p of the two node tiles, plus the
    node's own feature. -/
theorem pay1_apply (x0 x1 : Vec Ideal S4000x128 .f32) (x2 x3 : Vec Ideal S128x128 .f32)
    (v15 v20 v25 v33 v38 : Vec Ideal S128 .f32) (p : Fin 4000) (q : Fin 128) :
    k1_pay1 (F := Ideal) (k1_pay2 x1) (k1_pay3 x0 x1 x2 x3 v15 v20 v25 v33 v38) (ix2 p q)
      = SageNet.sageRow (fun k => x0 (ix2 p k)) (fun k => x1 (ix2 p k)) x2 x3 v15 v33 v38 v25 v20 q + x1 (ix2 p q) := by
  unfold k1_pay1 k1_pay3 k1_pay2
  simp only [maximumf_apply, addf_apply, mulf_apply, subf_apply, broadcast_apply, rowBcast, mm128_apply, shapeCast_self, truncf_apply]
  show max (_ * Ideal.rsqrt (v20 (ix1 q) + Ideal.ofBits .f32 0x3727C5AC#32) * _ + _) (Ideal.ofBits .f32 0x00000000#32) + _ = _
  rw [Ideal.ofBits_zero_f32]
  rfl

/-- A tile of layer 1: if row p of the two node tiles is row r of the node arrays and the weight and statistic tiles are
    the whole arrays, the tile's arithmetic at (p, q) is the layer at (r, q). -/
theorem tile1_eq (x0 x1 : Vec Ideal S4000x128 .f32) (x2 x3 : Vec Ideal S128x128 .f32) (x4 x5 x6 x7 x8 : Vec Ideal S128 .f32)
    (aggr x : FVec Ideal SageNet.ShN128 .f32) (Wl Wr : FVec Ideal SageNet.Sh128x128 .f32)
    (b gamma beta mean var : FVec Ideal SageNet.Sh128 .f32)
    (r : Fin 100000) (p : Fin 4000) (q : Fin 128)
    (h0 : ∀ k : Fin 128, x0 (ix2 p k) = aggr (ix2 r k)) (h1 : ∀ k : Fin 128, x1 (ix2 p k) = x (ix2 r k))
    (h2 : x2 = Wl) (h3 : x3 = Wr) (h4 : x4 = b) (h5 : x5 = gamma) (h6 : x6 = beta) (h7 : x7 = mean) (h8 : x8 = var) :
    k1_pay1 (F := Ideal) (k1_pay2 x1) (k1_pay3 x0 x1 x2 x3 x4 x8 x7 x5 x6) (ix2 p q)
      = SageNet.layerR aggr x Wl Wr b gamma beta mean var (ix2 r q) := by
  subst h2 h3 h4 h5 h6 h7 h8
  have ha : (fun k : Fin 128 => x0 (ix2 p k)) = fun k => aggr (ix2 r k) := funext h0
  have hx : (fun k : Fin 128 => x1 (ix2 p k)) = fun k => x (ix2 r k) := funext h1
  rw [pay1_apply, SageNet.layerR_ix2, ha, hx, h1 q]
  rfl

end Cert.KernelIdeal.RegionValue

end
-- ==== Proof.RegionBlk1.lean ====
/-
  Layer 1's region, read as a value: 25 grid points, point `t` owning rows 4000·t … 4000·t + 3999 of the two node
  arrays and of the result, every weight and statistic vector whole at every point.

  The steps: the index maps decided over the grid; each input tile read as rows of its array; the tile a point writes
  back as block t of the layer (the tile arithmetic at (p, q) is the layer at (4000·t + p, q)); every row r lies in the
  block of point r / 4000, so the array ends holding the layer everywhere.
-/
import proofs.«138073_j73581379715727_1_alg».proof.Proof.Gen.KernelIdeal.Frame
import proofs.«138073_j73581379715727_1_alg».proof.Proof.Spec
import proofs.«138073_j73581379715727_1_alg».proof.Proof.RegionPay1
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The index maps of region 1, decided over the 25 grid points: the two node windows and the result window sit at
    block row t, column block 0; the weight and statistic windows are whole at every point. -/
theorem idx_facts1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ win1_4.index t (0 : Fin 1) = 0 ∧ win1_5.index t (0 : Fin 1) = 0 ∧ win1_6.index t (0 : Fin 1) = 0
    ∧ win1_7.index t (0 : Fin 1) = 0 ∧ win1_8.index t (0 : Fin 1) = 0
    ∧ (win1_9.index t (0 : Fin 2) = t.val ∧ win1_9.index t (1 : Fin 2) = 0) :=
  (by decide +kernel : ∀ t : Fin grid1.N, _)

/-- Row p of the neighbourhood-mean tile at point t is row 4000·t + p of the array. -/
theorem nodeBlk1_0 (c : Dev nD) (t : Fin cfg1.N) (p : Fin 4000) (k : Fin 128) (r : Fin 100000)
    (hr : r.val = 4000 * t.val + p.val) :
    (iblk1 (F := Ideal) V c 0 t : Vec Ideal S4000x128 .f32) (ix2 p k) = (V c main_v45 : S100000x128.Idx → EReal) (ix2 r k) := by
  obtain ⟨⟨e0, e1⟩, -⟩ := idx_facts1 t
  unfold iblk1
  rw [View.read_apply]
  show V c main_v45 _ = V c main_v45 _
  congr 1
  funext a
  apply Fin.ext
  match a with
  | ⟨0, _⟩ => show win1_0.index t (0 : Fin 2) * 4000 + 1 * p.val = r.val; rw [e0, hr]; omega
  | ⟨1, _⟩ => show win1_0.index t (1 : Fin 2) * 128 + 1 * k.val = k.val; rw [e1]; omega

/-- Row p of the feature tile at point t is row 4000·t + p of the array. -/
theorem nodeBlk1_1 (c : Dev nD) (t : Fin cfg1.N) (p : Fin 4000) (k : Fin 128) (r : Fin 100000)
    (hr : r.val = 4000 * t.val + p.val) :
    (iblk1 (F := Ideal) V c 1 t : Vec Ideal S4000x128 .f32) (ix2 p k) = (V c main_v33 : S100000x128.Idx → EReal) (ix2 r k) := by
  obtain ⟨-, ⟨e0, e1⟩, -⟩ := idx_facts1 t
  unfold iblk1
  rw [View.read_apply]
  show V c main_v33 _ = V c main_v33 _
  congr 1
  funext a
  apply Fin.ext
  match a with
  | ⟨0, _⟩ => show win1_1.index t (0 : Fin 2) * 4000 + 1 * p.val = r.val; rw [e0, hr]; omega
  | ⟨1, _⟩ => show win1_1.index t (1 : Fin 2) * 128 + 1 * k.val = k.val; rw [e1]; omega

/-- The two weight tiles are the whole weight arrays at every point. -/
theorem wholeBlk1_2 (c : Dev nD) (t : Fin cfg1.N) :
    (iblk1 (F := Ideal) V c 2 t : Vec Ideal S128x128 .f32) = V c main_v47 := by
  obtain ⟨-, -, ⟨e0, e1⟩, -⟩ := idx_facts1 t
  funext y
  unfold iblk1
  rw [View.read_apply]
  show V c main_v47 _ = V c main_v47 y
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

theorem wholeBlk1_3 (c : Dev nD) (t : Fin cfg1.N) :
    (iblk1 (F := Ideal) V c 3 t : Vec Ideal S128x128 .f32) = V c main_v49 := by
  obtain ⟨-, -, -, ⟨e0, e1⟩, -⟩ := idx_facts1 t
  funext y
  unfold iblk1
  rw [View.read_apply]
  show V c main_v49 _ = V c main_v49 y
  congr 1
  funext a
  apply Fin.ext
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

/-- The bias and the four statistic tiles are the whole vectors at every point. -/
theorem wholeBlk1_4 (c : Dev nD) (t : Fin cfg1.N) :
    (iblk1 (F := Ideal) V c 4 t : Vec Ideal S128 .f32) = V c main_v51 := by
  obtain ⟨-, -, -, -, e0, -⟩ := idx_facts1 t
  funext y
  unfold iblk1
  rw [View.read_apply]
  show V c main_v51 _ = V c main_v51 y
  congr 1
  funext a
  apply Fin.ext
  match a with
  | ⟨0, _⟩ => show win1_4.index t (0 : Fin 1) * 128 + 1 * (y 0).val = (y 0).val; rw [e0]; omega

theorem wholeBlk1_5 (c : Dev nD) (t : Fin cfg1.N) :
    (iblk1 (F := Ideal) V c 5 t : Vec Ideal S128 .f32) = V c main_v53 := by
  obtain ⟨-, -, -, -, -, e0, -⟩ := idx_facts1 t
  funext y
  unfold iblk1
  rw [View.read_apply]
  show V c main_v53 _ = V c main_v53 y
  congr 1
  funext a
  apply Fin.ext
  match a with
  | ⟨0, _⟩ => show win1_5.index t (0 : Fin 1) * 128 + 1 * (y 0).val = (y 0).val; rw [e0]; omega

theorem wholeBlk1_6 (c : Dev nD) (t : Fin cfg1.N) :
    (iblk1 (F := Ideal) V c 6 t : Vec Ideal S128 .f32) = V c main_v55 := by
  obtain ⟨-, -, -, -, -, -, e0, -⟩ := idx_facts1 t
  funext y
  unfold iblk1
  rw [View.read_apply]
  show V c main_v55 _ = V c main_v55 y
  congr 1
  funext a
  apply Fin.ext
  match a with
  | ⟨0, _⟩ => show win1_6.index t (0 : Fin 1) * 128 + 1 * (y 0).val = (y 0).val; rw [e0]; omega

theorem wholeBlk1_7 (c : Dev nD) (t : Fin cfg1.N) :
    (iblk1 (F := Ideal) V c 7 t : Vec Ideal S128 .f32) = V c main_v57 := by
  obtain ⟨-, -, -, -, -, -, -, e0, -⟩ := idx_facts1 t
  funext y
  unfold iblk1
  rw [View.read_apply]
  show V c main_v57 _ = V c main_v57 y
  congr 1
  funext a
  apply Fin.ext
  match a with
  | ⟨0, _⟩ => show win1_7.index t (0 : Fin 1) * 128 + 1 * (y 0).val = (y 0).val; rw [e0]; omega

theorem wholeBlk1_8 (c : Dev nD) (t : Fin cfg1.N) :
    (iblk1 (F := Ideal) V c 8 t : Vec Ideal S128 .f32) = V c main_v59 := by
  obtain ⟨-, -, -, -, -, -, -, -, e0, -⟩ := idx_facts1 t
  funext y
  unfold iblk1
  rw [View.read_apply]
  show V c main_v59 _ = V c main_v59 y
  congr 1
  funext a
  apply Fin.ext
  match a with
  | ⟨0, _⟩ => show win1_8.index t (0 : Fin 1) * 128 + 1 * (y 0).val = (y 0).val; rw [e0]; omega

/-- What point t writes back is block t of the layer of the arrays the region found: entry (p, q) of the tile is the
    layer at (4000·t + p, q). -/
theorem flushed1_eq (c : Dev nD) (t : Fin cfg1.N) :
    (dat1 (F := Ideal) V c).flushed 9 t = ((cfg1.win 9).blk t).view.read (Elt Ideal)
      (SageNet.layerR (V c main_v45) (V c main_v33) (V c main_v47) (V c main_v49) (V c main_v51)
        (V c main_v53) (V c main_v55) (V c main_v57) (V c main_v59)) := by
  show (cfg1.win 9).cut (grid1.coords t) ((dat1 V c).after 9 t) = _
  rw [after1_9]
  unfold out1_9
  rw [View.canon_unit_zero hz2]
  simp only [View.ld_unit_zero (S := S4000x128) hz2, View.ld_unit_zero (S := S128x128) hz2, View.ld_unit_zero (S := S128) hz1]
  funext j
  have hN : cfg1.N = 25 := N_1
  have ht : t.val < 25 := by have := t.isLt; omega
  have hj0 : (j 0).val < 4000 := (j 0).isLt
  have hj1 : (j 1).val < 128 := (j 1).isLt
  obtain ⟨-, -, -, -, -, -, -, -, -, ⟨e0, e1⟩⟩ := idx_facts1 t
  have hx : (win1 9).xinj (grid1.coords t) j = ix2 (⟨(j 0).val, hj0⟩ : Fin 4000) (⟨(j 1).val, hj1⟩ : Fin 128) :=
    funext fun a => by match a with | ⟨0, _⟩ => rfl | ⟨1, _⟩ => rfl
  have he : ((View.whole main_v60).slice ((win1 9).rect t)).emb j
      = ix2 (⟨4000 * t.val + (j 0).val, by omega⟩ : Fin 100000) (⟨(j 1).val, hj1⟩ : Fin 128) := by
    funext a
    apply Fin.ext
    match a with
    | ⟨0, _⟩ => show win1_9.index t (0 : Fin 2) * 4000 + 1 * (j 0).val = 4000 * t.val + (j 0).val; rw [e0]; omega
    | ⟨1, _⟩ => show win1_9.index t (1 : Fin 2) * 128 + 1 * (j 1).val = (j 1).val; rw [e1]; omega
  rw [View.read_apply]
  show k1_pay1 (k1_pay2 (iblk1 V c 1 t)) (k1_pay3 (iblk1 V c 0 t) (iblk1 V c 1 t) (iblk1 V c 2 t) (iblk1 V c 3 t) (iblk1 V c 4 t) (iblk1 V c 8 t)
        (iblk1 V c 7 t) (iblk1 V c 5 t) (iblk1 V c 6 t)) ((win1 9).xinj (grid1.coords t) j)
      = SageNet.layerR (V c main_v45) (V c main_v33) (V c main_v47) (V c main_v49) (V c main_v51)
        (V c main_v53) (V c main_v55) (V c main_v57) (V c main_v59) (((View.whole main_v60).slice ((win1 9).rect t)).emb j)
  rw [hx, he]
  exact tile1_eq (iblk1 V c 0 t) (iblk1 V c 1 t) (iblk1 V c 2 t) (iblk1 V c 3 t) (iblk1 V c 4 t) (iblk1 V c 5 t) (iblk1 V c 6 t) (iblk1 V c 7 t) (iblk1 V c 8 t)
    (V c main_v45) (V c main_v33) (V c main_v47) (V c main_v49) (V c main_v51)
    (V c main_v53) (V c main_v55) (V c main_v57) (V c main_v59)
    ⟨4000 * t.val + (j 0).val, by omega⟩ ⟨(j 0).val, hj0⟩ ⟨(j 1).val, hj1⟩
    (fun k => nodeBlk1_0 V c t ⟨(j 0).val, hj0⟩ k ⟨4000 * t.val + (j 0).val, by omega⟩ rfl)
    (fun k => nodeBlk1_1 V c t ⟨(j 0).val, hj0⟩ k ⟨4000 * t.val + (j 0).val, by omega⟩ rfl)
    (wholeBlk1_2 V c t) (wholeBlk1_3 V c t) (wholeBlk1_4 V c t) (wholeBlk1_5 V c t) (wholeBlk1_6 V c t)
    (wholeBlk1_7 V c t) (wholeBlk1_8 V c t)

/-- An index of the result array is in point t's block iff each coordinate is in the block's range on its axis. -/
theorem mem_blk1 (t : Fin cfg1.N) (i : S100000x128.Idx) :
    i ∈ ((cfg1.win 9).blk t).view.set ↔ ∀ a : Fin 2, win1_9.index t a * S4000x128.size a ≤ (i a).val
      ∧ (i a).val < win1_9.index t a * S4000x128.size a + S4000x128.size a := by
  show i ∈ ((View.whole main_v60).slice (win1_9.rect t)).set ↔ _
  rw [View.set_slice_whole, Rect.mem_set_unit]
  exact Iff.rfl

/-- Every row of the result is in some point's block, 25 · 4000 = 100000: row r is in the block of point r / 4000. -/
theorem cover1 (i : S100000x128.Idx) :
    ∃ t : Fin cfg1.N, (cfg1.win 9).flush t = true ∧ i ∈ ((cfg1.win 9).blk t).view.set := by
  have hN : cfg1.N = 25 := N_1
  have hi0 : (i 0).val < 100000 := (i 0).isLt
  have hi1 : (i 1).val < 128 := (i 1).isLt
  refine ⟨⟨(i 0).val / 4000, by omega⟩, flush1_9 _, ?_⟩
  rw [mem_blk1]
  obtain ⟨-, -, -, -, -, -, -, -, -, ⟨e0, e1⟩⟩ := idx_facts1 ⟨(i 0).val / 4000, by omega⟩
  intro a
  match a with
  | ⟨0, _⟩ =>
    show win1_9.index ⟨(i 0).val / 4000, _⟩ (0 : Fin 2) * 4000 ≤ (i 0).val
      ∧ (i 0).val < win1_9.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win1_9.index ⟨(i 0).val / 4000, _⟩ (1 : Fin 2) * 128 ≤ (i 1).val
      ∧ (i 1).val < win1_9.index ⟨(i 0).val / 4000, _⟩ (1 : Fin 2) * 128 + 128
    rw [e1]; omega

/-- After region 1 its output array is the layer of the arrays the region found. -/
theorem layer1_final (c : Dev nD) :
    ((dat1 (F := Ideal) V c).arrAt 9 cfg1.N : S100000x128.Idx → EReal) =
      SageNet.layerR (V c main_v45) (V c main_v33) (V c main_v47) (V c main_v49) (V c main_v51)
        (V c main_v53) (V c main_v55) (V c main_v57) (V c main_v59) :=
  (dat1 (F := Ideal) V c).arrAt_eq_of_cover 9 _ (fun t _ => flushed1_eq V c t) cover1

end Cert.KernelIdeal.RegionValue

end
-- ==== Proof.RegionPay2.lean ====
/-
  Layer 2 on one tile. With a0, x0 the 4000×128 tiles of neighbourhood means and of node features, Wl, Wr the
  128×128 weights, and b, var, mean, gamma, beta the 128-channel vectors, the tile's arithmetic at row p, channel q is

      max (((∑ k, a0[p,k]·Wl[k,q] + ∑ k, x0[p,k]·Wr[k,q] + b q) − mean q) · rsqrt (var q + ε) · gamma q + beta q) 0 + x0[p,q],

  the layer's formula on row p of the two tiles plus the node's own feature: casts between number formats are the
  identity on the extended reals, the zero the rectifier compares with is the extended real 0, and every other step is
  entrywise. So when row p of the tiles is row r of the arrays, the tile at (p, q) is the layer at (r, q).
-/
import proofs.«138073_j73581379715727_1_alg».proof.Proof.Gen.KernelIdeal.Skeleton
import proofs.«138073_j73581379715727_1_alg».proof.Proof.Spec
import proofs.«138073_j73581379715727_1_alg».proof.Proof.RegionPayLaws

set_option maxRecDepth 16384

noncomputable section

namespace Cert.KernelIdeal.RegionValue

open Cert.KernelIdeal Cert.KernelIdeal.Gen Idealize.ShloMosaic
open Idealize.ShloMosaic.ValueIdx

/-- The tile arithmetic of layer 2 at row p, channel q: the layer's formula on row p of the two node tiles, plus the
    node's own feature. -/
theorem pay2_apply (x0 x1 : Vec Ideal S4000x128 .f32) (x2 x3 : Vec Ideal S128x128 .f32)
    (v15 v20 v25 v33 v38 : Vec Ideal S128 .f32) (p : Fin 4000) (q : Fin 128) :
    k2_pay1 (F := Ideal) (k2_pay2 x1) (k2_pay3 x0 x1 x2 x3 v15 v20 v25 v33 v38) (ix2 p q)
      = SageNet.sageRow (fun k => x0 (ix2 p k)) (fun k => x1 (ix2 p k)) x2 x3 v15 v33 v38 v25 v20 q + x1 (ix2 p q) := by
  unfold k2_pay1 k2_pay3 k2_pay2
  simp only [maximumf_apply, addf_apply, mulf_apply, subf_apply, broadcast_apply, rowBcast, mm128_apply, shapeCast_self, truncf_apply]
  show max (_ * Ideal.rsqrt (v20 (ix1 q) + Ideal.ofBits .f32 0x3727C5AC#32) * _ + _) (Ideal.ofBits .f32 0x00000000#32) + _ = _
  rw [Ideal.ofBits_zero_f32]
  rfl

/-- A tile of layer 2: if row p of the two node tiles is row r of the node arrays and the weight and statistic tiles are
    the whole arrays, the tile's arithmetic at (p, q) is the layer at (r, q). -/
theorem tile2_eq (x0 x1 : Vec Ideal S4000x128 .f32) (x2 x3 : Vec Ideal S128x128 .f32) (x4 x5 x6 x7 x8 : Vec Ideal S128 .f32)
    (aggr x : FVec Ideal SageNet.ShN128 .f32) (Wl Wr : FVec Ideal SageNet.Sh128x128 .f32)
    (b gamma beta mean var : FVec Ideal SageNet.Sh128 .f32)
    (r : Fin 100000) (p : Fin 4000) (q : Fin 128)
    (h0 : ∀ k : Fin 128, x0 (ix2 p k) = aggr (ix2 r k)) (h1 : ∀ k : Fin 128, x1 (ix2 p k) = x (ix2 r k))
    (h2 : x2 = Wl) (h3 : x3 = Wr) (h4 : x4 = b) (h5 : x5 = gamma) (h6 : x6 = beta) (h7 : x7 = mean) (h8 : x8 = var) :
    k2_pay1 (F := Ideal) (k2_pay2 x1) (k2_pay3 x0 x1 x2 x3 x4 x8 x7 x5 x6) (ix2 p q)
      = SageNet.layerR aggr x Wl Wr b gamma beta mean var (ix2 r q) := by
  subst h2 h3 h4 h5 h6 h7 h8
  have ha : (fun k : Fin 128 => x0 (ix2 p k)) = fun k => aggr (ix2 r k) := funext h0
  have hx : (fun k : Fin 128 => x1 (ix2 p k)) = fun k => x (ix2 r k) := funext h1
  rw [pay2_apply, SageNet.layerR_ix2, ha, hx, h1 q]
  rfl

end Cert.KernelIdeal.RegionValue

end
-- ==== Proof.RegionBlk2.lean ====
/-
  Layer 2's region, read as a value: 25 grid points, point `t` owning rows 4000·t … 4000·t + 3999 of the two node
  arrays and of the result, every weight and statistic vector whole at every point.

  The steps: the index maps decided over the grid; each input tile read as rows of its array; the tile a point writes
  back as block t of the layer (the tile arithmetic at (p, q) is the layer at (4000·t + p, q)); every row r lies in the
  block of point r / 4000, so the array ends holding the layer everywhere.
-/
import proofs.«138073_j73581379715727_1_alg».proof.Proof.Gen.KernelIdeal.Frame
import proofs.«138073_j73581379715727_1_alg».proof.Proof.Spec
import proofs.«138073_j73581379715727_1_alg».proof.Proof.RegionPay2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The index maps of region 2, decided over the 25 grid points: the two node windows and the result window sit at
    block row t, column block 0; the weight and statistic windows are whole at every point. -/
theorem idx_facts2 : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ win2_4.index t (0 : Fin 1) = 0 ∧ win2_5.index t (0 : Fin 1) = 0 ∧ win2_6.index t (0 : Fin 1) = 0
    ∧ win2_7.index t (0 : Fin 1) = 0 ∧ win2_8.index t (0 : Fin 1) = 0
    ∧ (win2_9.index t (0 : Fin 2) = t.val ∧ win2_9.index t (1 : Fin 2) = 0) :=
  (by decide +kernel : ∀ t : Fin grid2.N, _)

/-- Row p of the neighbourhood-mean tile at point t is row 4000·t + p of the array. -/
theorem nodeBlk2_0 (c : Dev nD) (t : Fin cfg2.N) (p : Fin 4000) (k : Fin 128) (r : Fin 100000)
    (hr : r.val = 4000 * t.val + p.val) :
    (iblk2 (F := Ideal) V c 0 t : Vec Ideal S4000x128 .f32) (ix2 p k) = (V c main_v72 : S100000x128.Idx → EReal) (ix2 r k) := by
  obtain ⟨⟨e0, e1⟩, -⟩ := idx_facts2 t
  unfold iblk2
  rw [View.read_apply]
  show V c main_v72 _ = V c main_v72 _
  congr 1
  funext a
  apply Fin.ext
  match a with
  | ⟨0, _⟩ => show win2_0.index t (0 : Fin 2) * 4000 + 1 * p.val = r.val; rw [e0, hr]; omega
  | ⟨1, _⟩ => show win2_0.index t (1 : Fin 2) * 128 + 1 * k.val = k.val; rw [e1]; omega

/-- Row p of the feature tile at point t is row 4000·t + p of the array. -/
theorem nodeBlk2_1 (c : Dev nD) (t : Fin cfg2.N) (p : Fin 4000) (k : Fin 128) (r : Fin 100000)
    (hr : r.val = 4000 * t.val + p.val) :
    (iblk2 (F := Ideal) V c 1 t : Vec Ideal S4000x128 .f32) (ix2 p k) = (V c main_v60 : S100000x128.Idx → EReal) (ix2 r k) := by
  obtain ⟨-, ⟨e0, e1⟩, -⟩ := idx_facts2 t
  unfold iblk2
  rw [View.read_apply]
  show V c main_v60 _ = V c main_v60 _
  congr 1
  funext a
  apply Fin.ext
  match a with
  | ⟨0, _⟩ => show win2_1.index t (0 : Fin 2) * 4000 + 1 * p.val = r.val; rw [e0, hr]; omega
  | ⟨1, _⟩ => show win2_1.index t (1 : Fin 2) * 128 + 1 * k.val = k.val; rw [e1]; omega

/-- The two weight tiles are the whole weight arrays at every point. -/
theorem wholeBlk2_2 (c : Dev nD) (t : Fin cfg2.N) :
    (iblk2 (F := Ideal) V c 2 t : Vec Ideal S128x128 .f32) = V c main_v74 := by
  obtain ⟨-, -, ⟨e0, e1⟩, -⟩ := idx_facts2 t
  funext y
  unfold iblk2
  rw [View.read_apply]
  show V c main_v74 _ = V c main_v74 y
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 128 + 1 * (y 1).val = (y 1).val; rw [e1]; omega

theorem wholeBlk2_3 (c : Dev nD) (t : Fin cfg2.N) :
    (iblk2 (F := Ideal) V c 3 t : Vec Ideal S128x128 .f32) = V c main_v76 := by
  obtain ⟨-, -, -, ⟨e0, e1⟩, -⟩ := idx_facts2 t
  funext y
  unfold iblk2
  rw [View.read_apply]
  show V c main_v76 _ = V c main_v76 y
  congr 1
  funext a
  apply Fin.ext
  match a with
  | ⟨0, _⟩ => show win2_3.index t (0 : Fin 2) * 128 + 1 * (y 0).val = (y 0).val; rw [e0]; omega
  | ⟨1, _⟩ => show win2_3.index t (1 : Fin 2) * 128 + 1 * (y 1).val = (y 1).val; rw [e1]; omega

/-- The bias and the four statistic tiles are the whole vectors at every point. -/
theorem wholeBlk2_4 (c : Dev nD) (t : Fin cfg2.N) :
    (iblk2 (F := Ideal) V c 4 t : Vec Ideal S128 .f32) = V c main_v78 := by
  obtain ⟨-, -, -, -, e0, -⟩ := idx_facts2 t
  funext y
  unfold iblk2
  rw [View.read_apply]
  show V c main_v78 _ = V c main_v78 y
  congr 1
  funext a
  apply Fin.ext
  match a with
  | ⟨0, _⟩ => show win2_4.index t (0 : Fin 1) * 128 + 1 * (y 0).val = (y 0).val; rw [e0]; omega

theorem wholeBlk2_5 (c : Dev nD) (t : Fin cfg2.N) :
    (iblk2 (F := Ideal) V c 5 t : Vec Ideal S128 .f32) = V c main_v80 := by
  obtain ⟨-, -, -, -, -, e0, -⟩ := idx_facts2 t
  funext y
  unfold iblk2
  rw [View.read_apply]
  show V c main_v80 _ = V c main_v80 y
  congr 1
  funext a
  apply Fin.ext
  match a with
  | ⟨0, _⟩ => show win2_5.index t (0 : Fin 1) * 128 + 1 * (y 0).val = (y 0).val; rw [e0]; omega

theorem wholeBlk2_6 (c : Dev nD) (t : Fin cfg2.N) :
    (iblk2 (F := Ideal) V c 6 t : Vec Ideal S128 .f32) = V c main_v82 := by
  obtain ⟨-, -, -, -, -, -, e0, -⟩ := idx_facts2 t
  funext y
  unfold iblk2
  rw [View.read_apply]
  show V c main_v82 _ = V c main_v82 y
  congr 1
  funext a
  apply Fin.ext
  match a with
  | ⟨0, _⟩ => show win2_6.index t (0 : Fin 1) * 128 + 1 * (y 0).val = (y 0).val; rw [e0]; omega

theorem wholeBlk2_7 (c : Dev nD) (t : Fin cfg2.N) :
    (iblk2 (F := Ideal) V c 7 t : Vec Ideal S128 .f32) = V c main_v84 := by
  obtain ⟨-, -, -, -, -, -, -, e0, -⟩ := idx_facts2 t
  funext y
  unfold iblk2
  rw [View.read_apply]
  show V c main_v84 _ = V c main_v84 y
  congr 1
  funext a
  apply Fin.ext
  match a with
  | ⟨0, _⟩ => show win2_7.index t (0 : Fin 1) * 128 + 1 * (y 0).val = (y 0).val; rw [e0]; omega

theorem wholeBlk2_8 (c : Dev nD) (t : Fin cfg2.N) :
    (iblk2 (F := Ideal) V c 8 t : Vec Ideal S128 .f32) = V c main_v86 := by
  obtain ⟨-, -, -, -, -, -, -, -, e0, -⟩ := idx_facts2 t
  funext y
  unfold iblk2
  rw [View.read_apply]
  show V c main_v86 _ = V c main_v86 y
  congr 1
  funext a
  apply Fin.ext
  match a with
  | ⟨0, _⟩ => show win2_8.index t (0 : Fin 1) * 128 + 1 * (y 0).val = (y 0).val; rw [e0]; omega

/-- What point t writes back is block t of the layer of the arrays the region found: entry (p, q) of the tile is the
    layer at (4000·t + p, q). -/
theorem flushed2_eq (c : Dev nD) (t : Fin cfg2.N) :
    (dat2 (F := Ideal) V c).flushed 9 t = ((cfg2.win 9).blk t).view.read (Elt Ideal)
      (SageNet.layerR (V c main_v72) (V c main_v60) (V c main_v74) (V c main_v76) (V c main_v78)
        (V c main_v80) (V c main_v82) (V c main_v84) (V c main_v86)) := by
  show (cfg2.win 9).cut (grid2.coords t) ((dat2 V c).after 9 t) = _
  rw [after2_9]
  unfold out2_9
  rw [View.canon_unit_zero hz2]
  simp only [View.ld_unit_zero (S := S4000x128) hz2, View.ld_unit_zero (S := S128x128) hz2, View.ld_unit_zero (S := S128) hz1]
  funext j
  have hN : cfg2.N = 25 := N_2
  have ht : t.val < 25 := by have := t.isLt; omega
  have hj0 : (j 0).val < 4000 := (j 0).isLt
  have hj1 : (j 1).val < 128 := (j 1).isLt
  obtain ⟨-, -, -, -, -, -, -, -, -, ⟨e0, e1⟩⟩ := idx_facts2 t
  have hx : (win2 9).xinj (grid2.coords t) j = ix2 (⟨(j 0).val, hj0⟩ : Fin 4000) (⟨(j 1).val, hj1⟩ : Fin 128) :=
    funext fun a => by match a with | ⟨0, _⟩ => rfl | ⟨1, _⟩ => rfl
  have he : ((View.whole main_v87).slice ((win2 9).rect t)).emb j
      = ix2 (⟨4000 * t.val + (j 0).val, by omega⟩ : Fin 100000) (⟨(j 1).val, hj1⟩ : Fin 128) := by
    funext a
    apply Fin.ext
    match a with
    | ⟨0, _⟩ => show win2_9.index t (0 : Fin 2) * 4000 + 1 * (j 0).val = 4000 * t.val + (j 0).val; rw [e0]; omega
    | ⟨1, _⟩ => show win2_9.index t (1 : Fin 2) * 128 + 1 * (j 1).val = (j 1).val; rw [e1]; omega
  rw [View.read_apply]
  show k2_pay1 (k2_pay2 (iblk2 V c 1 t)) (k2_pay3 (iblk2 V c 0 t) (iblk2 V c 1 t) (iblk2 V c 2 t) (iblk2 V c 3 t) (iblk2 V c 4 t) (iblk2 V c 8 t)
        (iblk2 V c 7 t) (iblk2 V c 5 t) (iblk2 V c 6 t)) ((win2 9).xinj (grid2.coords t) j)
      = SageNet.layerR (V c main_v72) (V c main_v60) (V c main_v74) (V c main_v76) (V c main_v78)
        (V c main_v80) (V c main_v82) (V c main_v84) (V c main_v86) (((View.whole main_v87).slice ((win2 9).rect t)).emb j)
  rw [hx, he]
  exact tile2_eq (iblk2 V c 0 t) (iblk2 V c 1 t) (iblk2 V c 2 t) (iblk2 V c 3 t) (iblk2 V c 4 t) (iblk2 V c 5 t) (iblk2 V c 6 t) (iblk2 V c 7 t) (iblk2 V c 8 t)
    (V c main_v72) (V c main_v60) (V c main_v74) (V c main_v76) (V c main_v78)
    (V c main_v80) (V c main_v82) (V c main_v84) (V c main_v86)
    ⟨4000 * t.val + (j 0).val, by omega⟩ ⟨(j 0).val, hj0⟩ ⟨(j 1).val, hj1⟩
    (fun k => nodeBlk2_0 V c t ⟨(j 0).val, hj0⟩ k ⟨4000 * t.val + (j 0).val, by omega⟩ rfl)
    (fun k => nodeBlk2_1 V c t ⟨(j 0).val, hj0⟩ k ⟨4000 * t.val + (j 0).val, by omega⟩ rfl)
    (wholeBlk2_2 V c t) (wholeBlk2_3 V c t) (wholeBlk2_4 V c t) (wholeBlk2_5 V c t) (wholeBlk2_6 V c t)
    (wholeBlk2_7 V c t) (wholeBlk2_8 V c t)

/-- An index of the result array is in point t's block iff each coordinate is in the block's range on its axis. -/
theorem mem_blk2 (t : Fin cfg2.N) (i : S100000x128.Idx) :
    i ∈ ((cfg2.win 9).blk t).view.set ↔ ∀ a : Fin 2, win2_9.index t a * S4000x128.size a ≤ (i a).val
      ∧ (i a).val < win2_9.index t a * S4000x128.size a + S4000x128.size a := by
  show i ∈ ((View.whole main_v87).slice (win2_9.rect t)).set ↔ _
  rw [View.set_slice_whole, Rect.mem_set_unit]
  exact Iff.rfl

/-- Every row of the result is in some point's block, 25 · 4000 = 100000: row r is in the block of point r / 4000. -/
theorem cover2 (i : S100000x128.Idx) :
    ∃ t : Fin cfg2.N, (cfg2.win 9).flush t = true ∧ i ∈ ((cfg2.win 9).blk t).view.set := by
  have hN : cfg2.N = 25 := N_2
  have hi0 : (i 0).val < 100000 := (i 0).isLt
  have hi1 : (i 1).val < 128 := (i 1).isLt
  refine ⟨⟨(i 0).val / 4000, by omega⟩, flush2_9 _, ?_⟩
  rw [mem_blk2]
  obtain ⟨-, -, -, -, -, -, -, -, -, ⟨e0, e1⟩⟩ := idx_facts2 ⟨(i 0).val / 4000, by omega⟩
  intro a
  match a with
  | ⟨0, _⟩ =>
    show win2_9.index ⟨(i 0).val / 4000, _⟩ (0 : Fin 2) * 4000 ≤ (i 0).val
      ∧ (i 0).val < win2_9.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win2_9.index ⟨(i 0).val / 4000, _⟩ (1 : Fin 2) * 128 ≤ (i 1).val
      ∧ (i 1).val < win2_9.index ⟨(i 0).val / 4000, _⟩ (1 : Fin 2) * 128 + 128
    rw [e1]; omega

/-- After region 2 its output array is the layer of the arrays the region found. -/
theorem layer2_final (c : Dev nD) :
    ((dat2 (F := Ideal) V c).arrAt 9 cfg2.N : S100000x128.Idx → EReal) =
      SageNet.layerR (V c main_v72) (V c main_v60) (V c main_v74) (V c main_v76) (V c main_v78)
        (V c main_v80) (V c main_v82) (V c main_v84) (V c main_v86) :=
  (dat2 (F := Ideal) V c).arrAt_eq_of_cover 9 _ (fun t _ => flushed2_eq V c t) cover2

end Cert.KernelIdeal.RegionValue

end
-- ==== Proof.RegionPay3.lean ====
/-
  Layer 3 on one tile. With a0, x0 the 4000×128 tiles of neighbourhood means and of node features, Wl, Wr the
  128×128 weights, and b, var, mean, gamma, beta the 128-channel vectors, the tile's arithmetic at row p, channel q is

      max (((∑ k, a0[p,k]·Wl[k,q] + ∑ k, x0[p,k]·Wr[k,q] + b q) − mean q) · rsqrt (var q + ε) · gamma q + beta q) 0 + x0[p,q],

  the layer's formula on row p of the two tiles plus the node's own feature: casts between number formats are the
  identity on the extended reals, the zero the rectifier compares with is the extended real 0, and every other step is
  entrywise. So when row p of the tiles is row r of the arrays, the tile at (p, q) is the layer at (r, q).
-/
import proofs.«138073_j73581379715727_1_alg».proof.Proof.Gen.KernelIdeal.Skeleton
import proofs.«138073_j73581379715727_1_alg».proof.Proof.Spec
import proofs.«138073_j73581379715727_1_alg».proof.Proof.RegionPayLaws

set_option maxRecDepth 16384

noncomputable section

namespace Cert.KernelIdeal.RegionValue

open Cert.KernelIdeal Cert.KernelIdeal.Gen Idealize.ShloMosaic
open Idealize.ShloMosaic.ValueIdx

/-- The tile arithmetic of layer 3 at row p, channel q: the layer's formula on row p of the two node tiles, plus the
    node's own feature. -/
theorem pay3_apply (x0 x1 : Vec Ideal S4000x128 .f32) (x2 x3 : Vec Ideal S128x128 .f32)
    (v15 v20 v25 v33 v38 : Vec Ideal S128 .f32) (p : Fin 4000) (q : Fin 128) :
    k3_pay1 (F := Ideal) (k3_pay2 x1) (k3_pay3 x0 x1 x2 x3 v15 v20 v25 v33 v38) (ix2 p q)
      = SageNet.sageRow (fun k => x0 (ix2 p k)) (fun k => x1 (ix2 p k)) x2 x3 v15 v33 v38 v25 v20 q + x1 (ix2 p q) := by
  unfold k3_pay1 k3_pay3 k3_pay2
  simp only [maximumf_apply, addf_apply, mulf_apply, subf_apply, broadcast_apply, rowBcast, mm128_apply, shapeCast_self, truncf_apply]
  show max (_ * Ideal.rsqrt (v20 (ix1 q) + Ideal.ofBits .f32 0x3727C5AC#32) * _ + _) (Ideal.ofBits .f32 0x00000000#32) + _ = _
  rw [Ideal.ofBits_zero_f32]
  rfl

/-- A tile of layer 3: if row p of the two node tiles is row r of the node arrays and the weight and statistic tiles are
    the whole arrays, the tile's arithmetic at (p, q) is the layer at (r, q). -/
theorem tile3_eq (x0 x1 : Vec Ideal S4000x128 .f32) (x2 x3 : Vec Ideal S128x128 .f32) (x4 x5 x6 x7 x8 : Vec Ideal S128 .f32)
    (aggr x : FVec Ideal SageNet.ShN128 .f32) (Wl Wr : FVec Ideal SageNet.Sh128x128 .f32)
    (b gamma beta mean var : FVec Ideal SageNet.Sh128 .f32)
    (r : Fin 100000) (p : Fin 4000) (q : Fin 128)
    (h0 : ∀ k : Fin 128, x0 (ix2 p k) = aggr (ix2 r k)) (h1 : ∀ k : Fin 128, x1 (ix2 p k) = x (ix2 r k))
    (h2 : x2 = Wl) (h3 : x3 = Wr) (h4 : x4 = b) (h5 : x5 = gamma) (h6 : x6 = beta) (h7 : x7 = mean) (h8 : x8 = var) :
    k3_pay1 (F := Ideal) (k3_pay2 x1) (k3_pay3 x0 x1 x2 x3 x4 x8 x7 x5 x6) (ix2 p q)
      = SageNet.layerR aggr x Wl Wr b gamma beta mean var (ix2 r q) := by
  subst h2 h3 h4 h5 h6 h7 h8
  have ha : (fun k : Fin 128 => x0 (ix2 p k)) = fun k => aggr (ix2 r k) := funext h0
  have hx : (fun k : Fin 128 => x1 (ix2 p k)) = fun k => x (ix2 r k) := funext h1
  rw [pay3_apply, SageNet.layerR_ix2, ha, hx, h1 q]
  rfl

end Cert.KernelIdeal.RegionValue

end
-- ==== Proof.RegionBlk3.lean ====
/-
  Layer 3's region, read as a value: 25 grid points, point `t` owning rows 4000·t … 4000·t + 3999 of the two node
  arrays and of the result, every weight and statistic vector whole at every point.

  The steps: the index maps decided over the grid; each input tile read as rows of its array; the tile a point writes
  back as block t of the layer (the tile arithmetic at (p, q) is the layer at (4000·t + p, q)); every row r lies in the
  block of point r / 4000, so the array ends holding the layer everywhere.
-/
import proofs.«138073_j73581379715727_1_alg».proof.Proof.Gen.KernelIdeal.Frame
import proofs.«138073_j73581379715727_1_alg».proof.Proof.Spec
import proofs.«138073_j73581379715727_1_alg».proof.Proof.RegionPay3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The index maps of region 3, decided over the 25 grid points: the two node windows and the result window sit at
    block row t, column block 0; the weight and statistic windows are whole at every point. -/
theorem idx_facts3 : ∀ t : Fin cfg3.N,
    (win3_0.index t (0 : Fin 2) = t.val ∧ win3_0.index t (1 : Fin 2) = 0)
    ∧ (win3_1.index t (0 : Fin 2) = t.val ∧ win3_1.index t (1 : Fin 2) = 0)
    ∧ (win3_2.index t (0 : Fin 2) = 0 ∧ win3_2.index t (1 : Fin 2) = 0)
    ∧ (win3_3.index t (0 : Fin 2) = 0 ∧ win3_3.index t (1 : Fin 2) = 0)
    ∧ win3_4.index t (0 : Fin 1) = 0 ∧ win3_5.index t (0 : Fin 1) = 0 ∧ win3_6.index t (0 : Fin 1) = 0
    ∧ win3_7.index t (0 : Fin 1) = 0 ∧ win3_8.index t (0 : Fin 1) = 0
    ∧ (win3_9.index t (0 : Fin 2) = t.val ∧ win3_9.index t (1 : Fin 2) = 0) :=
  (by decide +kernel : ∀ t : Fin grid3.N, _)

/-- Row p of the neighbourhood-mean tile at point t is row 4000·t + p of the array. -/
theorem nodeBlk3_0 (c : Dev nD) (t : Fin cfg3.N) (p : Fin 4000) (k : Fin 128) (r : Fin 100000)
    (hr : r.val = 4000 * t.val + p.val) :
    (iblk3 (F := Ideal) V c 0 t : Vec Ideal S4000x128 .f32) (ix2 p k) = (V c main_v99 : S100000x128.Idx → EReal) (ix2 r k) := by
  obtain ⟨⟨e0, e1⟩, -⟩ := idx_facts3 t
  unfold iblk3
  rw [View.read_apply]
  show V c main_v99 _ = V c main_v99 _
  congr 1
  funext a
  apply Fin.ext
  match a with
  | ⟨0, _⟩ => show win3_0.index t (0 : Fin 2) * 4000 + 1 * p.val = r.val; rw [e0, hr]; omega
  | ⟨1, _⟩ => show win3_0.index t (1 : Fin 2) * 128 + 1 * k.val = k.val; rw [e1]; omega

/-- Row p of the feature tile at point t is row 4000·t + p of the array. -/
theorem nodeBlk3_1 (c : Dev nD) (t : Fin cfg3.N) (p : Fin 4000) (k : Fin 128) (r : Fin 100000)
    (hr : r.val = 4000 * t.val + p.val) :
    (iblk3 (F := Ideal) V c 1 t : Vec Ideal S4000x128 .f32) (ix2 p k) = (V c main_v87 : S100000x128.Idx → EReal) (ix2 r k) := by
  obtain ⟨-, ⟨e0, e1⟩, -⟩ := idx_facts3 t
  unfold iblk3
  rw [View.read_apply]
  show V c main_v87 _ = V c main_v87 _
  congr 1
  funext a
  apply Fin.ext
  match a with
  | ⟨0, _⟩ => show win3_1.index t (0 : Fin 2) * 4000 + 1 * p.val = r.val; rw [e0, hr]; omega
  | ⟨1, _⟩ => show win3_1.index t (1 : Fin 2) * 128 + 1 * k.val = k.val; rw [e1]; omega

/-- The two weight tiles are the whole weight arrays at every point. -/
theorem wholeBlk3_2 (c : Dev nD) (t : Fin cfg3.N) :
    (iblk3 (F := Ideal) V c 2 t : Vec Ideal S128x128 .f32) = V c main_v101 := by
  obtain ⟨-, -, ⟨e0, e1⟩, -⟩ := idx_facts3 t
  funext y
  unfold iblk3
  rw [View.read_apply]
  show V c main_v101 _ = V c main_v101 y
  congr 1
  funext a
  apply Fin.ext
  match a with
  | ⟨0, _⟩ => show win3_2.index t (0 : Fin 2) * 128 + 1 * (y 0).val = (y 0).val; rw [e0]; omega
  | ⟨1, _⟩ => show win3_2.index t (1 : Fin 2) * 128 + 1 * (y 1).val = (y 1).val; rw [e1]; omega

theorem wholeBlk3_3 (c : Dev nD) (t : Fin cfg3.N) :
    (iblk3 (F := Ideal) V c 3 t : Vec Ideal S128x128 .f32) = V c main_v103 := by
  obtain ⟨-, -, -, ⟨e0, e1⟩, -⟩ := idx_facts3 t
  funext y
  unfold iblk3
  rw [View.read_apply]
  show V c main_v103 _ = V c main_v103 y
  congr 1
  funext a
  apply Fin.ext
  match a with
  | ⟨0, _⟩ => show win3_3.index t (0 : Fin 2) * 128 + 1 * (y 0).val = (y 0).val; rw [e0]; omega
  | ⟨1, _⟩ => show win3_3.index t (1 : Fin 2) * 128 + 1 * (y 1).val = (y 1).val; rw [e1]; omega

/-- The bias and the four statistic tiles are the whole vectors at every point. -/
theorem wholeBlk3_4 (c : Dev nD) (t : Fin cfg3.N) :
    (iblk3 (F := Ideal) V c 4 t : Vec Ideal S128 .f32) = V c main_v105 := by
  obtain ⟨-, -, -, -, e0, -⟩ := idx_facts3 t
  funext y
  unfold iblk3
  rw [View.read_apply]
  show V c main_v105 _ = V c main_v105 y
  congr 1
  funext a
  apply Fin.ext
  match a with
  | ⟨0, _⟩ => show win3_4.index t (0 : Fin 1) * 128 + 1 * (y 0).val = (y 0).val; rw [e0]; omega

theorem wholeBlk3_5 (c : Dev nD) (t : Fin cfg3.N) :
    (iblk3 (F := Ideal) V c 5 t : Vec Ideal S128 .f32) = V c main_v107 := by
  obtain ⟨-, -, -, -, -, e0, -⟩ := idx_facts3 t
  funext y
  unfold iblk3
  rw [View.read_apply]
  show V c main_v107 _ = V c main_v107 y
  congr 1
  funext a
  apply Fin.ext
  match a with
  | ⟨0, _⟩ => show win3_5.index t (0 : Fin 1) * 128 + 1 * (y 0).val = (y 0).val; rw [e0]; omega

theorem wholeBlk3_6 (c : Dev nD) (t : Fin cfg3.N) :
    (iblk3 (F := Ideal) V c 6 t : Vec Ideal S128 .f32) = V c main_v109 := by
  obtain ⟨-, -, -, -, -, -, e0, -⟩ := idx_facts3 t
  funext y
  unfold iblk3
  rw [View.read_apply]
  show V c main_v109 _ = V c main_v109 y
  congr 1
  funext a
  apply Fin.ext
  match a with
  | ⟨0, _⟩ => show win3_6.index t (0 : Fin 1) * 128 + 1 * (y 0).val = (y 0).val; rw [e0]; omega

theorem wholeBlk3_7 (c : Dev nD) (t : Fin cfg3.N) :
    (iblk3 (F := Ideal) V c 7 t : Vec Ideal S128 .f32) = V c main_v111 := by
  obtain ⟨-, -, -, -, -, -, -, e0, -⟩ := idx_facts3 t
  funext y
  unfold iblk3
  rw [View.read_apply]
  show V c main_v111 _ = V c main_v111 y
  congr 1
  funext a
  apply Fin.ext
  match a with
  | ⟨0, _⟩ => show win3_7.index t (0 : Fin 1) * 128 + 1 * (y 0).val = (y 0).val; rw [e0]; omega

theorem wholeBlk3_8 (c : Dev nD) (t : Fin cfg3.N) :
    (iblk3 (F := Ideal) V c 8 t : Vec Ideal S128 .f32) = V c main_v113 := by
  obtain ⟨-, -, -, -, -, -, -, -, e0, -⟩ := idx_facts3 t
  funext y
  unfold iblk3
  rw [View.read_apply]
  show V c main_v113 _ = V c main_v113 y
  congr 1
  funext a
  apply Fin.ext
  match a with
  | ⟨0, _⟩ => show win3_8.index t (0 : Fin 1) * 128 + 1 * (y 0).val = (y 0).val; rw [e0]; omega

/-- What point t writes back is block t of the layer of the arrays the region found: entry (p, q) of the tile is the
    layer at (4000·t + p, q). -/
theorem flushed3_eq (c : Dev nD) (t : Fin cfg3.N) :
    (dat3 (F := Ideal) V c).flushed 9 t = ((cfg3.win 9).blk t).view.read (Elt Ideal)
      (SageNet.layerR (V c main_v99) (V c main_v87) (V c main_v101) (V c main_v103) (V c main_v105)
        (V c main_v107) (V c main_v109) (V c main_v111) (V c main_v113)) := by
  show (cfg3.win 9).cut (grid3.coords t) ((dat3 V c).after 9 t) = _
  rw [after3_9]
  unfold out3_9
  rw [View.canon_unit_zero hz2]
  simp only [View.ld_unit_zero (S := S4000x128) hz2, View.ld_unit_zero (S := S128x128) hz2, View.ld_unit_zero (S := S128) hz1]
  funext j
  have hN : cfg3.N = 25 := N_3
  have ht : t.val < 25 := by have := t.isLt; omega
  have hj0 : (j 0).val < 4000 := (j 0).isLt
  have hj1 : (j 1).val < 128 := (j 1).isLt
  obtain ⟨-, -, -, -, -, -, -, -, -, ⟨e0, e1⟩⟩ := idx_facts3 t
  have hx : (win3 9).xinj (grid3.coords t) j = ix2 (⟨(j 0).val, hj0⟩ : Fin 4000) (⟨(j 1).val, hj1⟩ : Fin 128) :=
    funext fun a => by match a with | ⟨0, _⟩ => rfl | ⟨1, _⟩ => rfl
  have he : ((View.whole main_v114).slice ((win3 9).rect t)).emb j
      = ix2 (⟨4000 * t.val + (j 0).val, by omega⟩ : Fin 100000) (⟨(j 1).val, hj1⟩ : Fin 128) := by
    funext a
    apply Fin.ext
    match a with
    | ⟨0, _⟩ => show win3_9.index t (0 : Fin 2) * 4000 + 1 * (j 0).val = 4000 * t.val + (j 0).val; rw [e0]; omega
    | ⟨1, _⟩ => show win3_9.index t (1 : Fin 2) * 128 + 1 * (j 1).val = (j 1).val; rw [e1]; omega
  rw [View.read_apply]
  show k3_pay1 (k3_pay2 (iblk3 V c 1 t)) (k3_pay3 (iblk3 V c 0 t) (iblk3 V c 1 t) (iblk3 V c 2 t) (iblk3 V c 3 t) (iblk3 V c 4 t) (iblk3 V c 8 t)
        (iblk3 V c 7 t) (iblk3 V c 5 t) (iblk3 V c 6 t)) ((win3 9).xinj (grid3.coords t) j)
      = SageNet.layerR (V c main_v99) (V c main_v87) (V c main_v101) (V c main_v103) (V c main_v105)
        (V c main_v107) (V c main_v109) (V c main_v111) (V c main_v113) (((View.whole main_v114).slice ((win3 9).rect t)).emb j)
  rw [hx, he]
  exact tile3_eq (iblk3 V c 0 t) (iblk3 V c 1 t) (iblk3 V c 2 t) (iblk3 V c 3 t) (iblk3 V c 4 t) (iblk3 V c 5 t) (iblk3 V c 6 t) (iblk3 V c 7 t) (iblk3 V c 8 t)
    (V c main_v99) (V c main_v87) (V c main_v101) (V c main_v103) (V c main_v105)
    (V c main_v107) (V c main_v109) (V c main_v111) (V c main_v113)
    ⟨4000 * t.val + (j 0).val, by omega⟩ ⟨(j 0).val, hj0⟩ ⟨(j 1).val, hj1⟩
    (fun k => nodeBlk3_0 V c t ⟨(j 0).val, hj0⟩ k ⟨4000 * t.val + (j 0).val, by omega⟩ rfl)
    (fun k => nodeBlk3_1 V c t ⟨(j 0).val, hj0⟩ k ⟨4000 * t.val + (j 0).val, by omega⟩ rfl)
    (wholeBlk3_2 V c t) (wholeBlk3_3 V c t) (wholeBlk3_4 V c t) (wholeBlk3_5 V c t) (wholeBlk3_6 V c t)
    (wholeBlk3_7 V c t) (wholeBlk3_8 V c t)

/-- An index of the result array is in point t's block iff each coordinate is in the block's range on its axis. -/
theorem mem_blk3 (t : Fin cfg3.N) (i : S100000x128.Idx) :
    i ∈ ((cfg3.win 9).blk t).view.set ↔ ∀ a : Fin 2, win3_9.index t a * S4000x128.size a ≤ (i a).val
      ∧ (i a).val < win3_9.index t a * S4000x128.size a + S4000x128.size a := by
  show i ∈ ((View.whole main_v114).slice (win3_9.rect t)).set ↔ _
  rw [View.set_slice_whole, Rect.mem_set_unit]
  exact Iff.rfl

/-- Every row of the result is in some point's block, 25 · 4000 = 100000: row r is in the block of point r / 4000. -/
theorem cover3 (i : S100000x128.Idx) :
    ∃ t : Fin cfg3.N, (cfg3.win 9).flush t = true ∧ i ∈ ((cfg3.win 9).blk t).view.set := by
  have hN : cfg3.N = 25 := N_3
  have hi0 : (i 0).val < 100000 := (i 0).isLt
  have hi1 : (i 1).val < 128 := (i 1).isLt
  refine ⟨⟨(i 0).val / 4000, by omega⟩, flush3_9 _, ?_⟩
  rw [mem_blk3]
  obtain ⟨-, -, -, -, -, -, -, -, -, ⟨e0, e1⟩⟩ := idx_facts3 ⟨(i 0).val / 4000, by omega⟩
  intro a
  match a with
  | ⟨0, _⟩ =>
    show win3_9.index ⟨(i 0).val / 4000, _⟩ (0 : Fin 2) * 4000 ≤ (i 0).val
      ∧ (i 0).val < win3_9.index ⟨(i 0).val / 4000, _⟩ (0 : Fin 2) * 4000 + 4000
    rw [e0]; show (i 0).val / 4000 * 4000 ≤ (i 0).val ∧ (i 0).val < (i 0).val / 4000 * 4000 + 4000; omega
  | ⟨1, _⟩ =>
    show win3_9.index ⟨(i 0).val / 4000, _⟩ (1 : Fin 2) * 128 ≤ (i 1).val
      ∧ (i 1).val < win3_9.index ⟨(i 0).val / 4000, _⟩ (1 : Fin 2) * 128 + 128
    rw [e1]; omega

/-- After region 3 its output array is the layer of the arrays the region found. -/
theorem layer3_final (c : Dev nD) :
    ((dat3 (F := Ideal) V c).arrAt 9 cfg3.N : S100000x128.Idx → EReal) =
      SageNet.layerR (V c main_v99) (V c main_v87) (V c main_v101) (V c main_v103) (V c main_v105)
        (V c main_v107) (V c main_v109) (V c main_v111) (V c main_v113) :=
  (dat3 (F := Ideal) V c).arrAt_eq_of_cover 9 _ (fun t _ => flushed3_eq V c t) cover3

end Cert.KernelIdeal.RegionValue

end
-- ==== Proof.RegionR.lean ====
/-
  The three later layers' regions, read as values: the same tiling as the first layer's (25 points of 4000 rows),
  with 128 input features and the node's own feature row added back after the rectifier. Whatever the arrays hold
  when a region is entered (`V`), its result array afterwards is that layer of those arrays. Each region is read in a
  module of its own; here the three results stand side by side.
-/
import proofs.«138073_j73581379715727_1_alg».proof.Proof.Gen.KernelIdeal.Frame
import proofs.«138073_j73581379715727_1_alg».proof.Proof.Spec
import proofs.«138073_j73581379715727_1_alg».proof.Proof.RegionBlk1
import proofs.«138073_j73581379715727_1_alg».proof.Proof.RegionBlk2
import proofs.«138073_j73581379715727_1_alg».proof.Proof.RegionBlk3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- After region 1 its output array is the layer of the arrays the region found. -/
theorem final1 (c : Dev nD) :
    ((dat1 (F := Ideal) V c).arrAt 9 cfg1.N : S100000x128.Idx → EReal) =
      SageNet.layerR (V c main_v45) (V c main_v33) (V c main_v47) (V c main_v49) (V c main_v51)
        (V c main_v53) (V c main_v55) (V c main_v57) (V c main_v59) :=
  layer1_final V c

/-- After region 2 its output array is the layer of the arrays the region found. -/
theorem final2 (c : Dev nD) :
    ((dat2 (F := Ideal) V c).arrAt 9 cfg2.N : S100000x128.Idx → EReal) =
      SageNet.layerR (V c main_v72) (V c main_v60) (V c main_v74) (V c main_v76) (V c main_v78)
        (V c main_v80) (V c main_v82) (V c main_v84) (V c main_v86) :=
  layer2_final V c

/-- After region 3 its output array is the layer of the arrays the region found. -/
theorem final3 (c : Dev nD) :
    ((dat3 (F := Ideal) V c).arrAt 9 cfg3.N : S100000x128.Idx → EReal) =
      SageNet.layerR (V c main_v99) (V c main_v87) (V c main_v101) (V c main_v103) (V c main_v105)
        (V c main_v107) (V c main_v109) (V c main_v111) (V c main_v113) :=
  layer3_final V c

end Cert.KernelIdeal.RegionValue

end
-- ==== Proof.FoldStep1.lean ====
/-
  Layer 2: the stretch of host operations before its region, and the region. If at the previous region's exit the
  previous layer's result array holds the reference's stage of that layer and the surviving buffers are intact, then
  the stretch computes the neighbourhood means of that array and the layer's slices of the weight and statistic
  arrays exactly as the reference's stages do (the same gather, scatter-add and scaling by the inverse degrees, read
  off the same edge rows), the region leaves the layer of those arrays in its result array, and that is the
  reference's stage of this layer; the surviving buffers stay intact, no operation of the stretch and no array of
  the region being one of them.
-/
import proofs.«138073_j73581379715727_1_alg».proof.Proof.FoldBase
import proofs.«138073_j73581379715727_1_alg».proof.Proof.RegionR
import proofs.«138073_j73581379715727_1_alg».proof.Proof.RefLayers

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The surviving buffers, through the stretch and the region. -/
theorem keep4 (hK : Keep m c (W2 m ρ c)) : Keep m c (W4 m ρ c) where
  src := (W4_of_ne m ρ c main_v1 (by decide)).trans ((show W3 m ρ c (Proc.devRef .tc main_v1) = W2 m ρ c (Proc.devRef .tc main_v1) by skip_stretch hostOps1).trans hK.src)
  tgt := (W4_of_ne m ρ c main_v3 (by decide)).trans ((show W3 m ρ c (Proc.devRef .tc main_v3) = W2 m ρ c (Proc.devRef .tc main_v3) by skip_stretch hostOps1).trans hK.tgt)
  deg := (W4_of_ne m ρ c main_v12 (by decide)).trans ((show W3 m ρ c (Proc.devRef .tc main_v12) = W2 m ρ c (Proc.devRef .tc main_v12) by skip_stretch hostOps1).trans hK.deg)
  k2 := (W4_of_ne m ρ c main_arg2 (by decide)).trans ((show W3 m ρ c (Proc.devRef .tc main_arg2) = W2 m ρ c (Proc.devRef .tc main_arg2) by skip_stretch hostOps1).trans hK.k2)
  k6 := (W4_of_ne m ρ c main_arg6 (by decide)).trans ((show W3 m ρ c (Proc.devRef .tc main_arg6) = W2 m ρ c (Proc.devRef .tc main_arg6) by skip_stretch hostOps1).trans hK.k6)
  k7 := (W4_of_ne m ρ c main_arg7 (by decide)).trans ((show W3 m ρ c (Proc.devRef .tc main_arg7) = W2 m ρ c (Proc.devRef .tc main_arg7) by skip_stretch hostOps1).trans hK.k7)
  k8 := (W4_of_ne m ρ c main_arg8 (by decide)).trans ((show W3 m ρ c (Proc.devRef .tc main_arg8) = W2 m ρ c (Proc.devRef .tc main_arg8) by skip_stretch hostOps1).trans hK.k8)
  k9 := (W4_of_ne m ρ c main_arg9 (by decide)).trans ((show W3 m ρ c (Proc.devRef .tc main_arg9) = W2 m ρ c (Proc.devRef .tc main_arg9) by skip_stretch hostOps1).trans hK.k9)
  k10 := (W4_of_ne m ρ c main_arg10 (by decide)).trans ((show W3 m ρ c (Proc.devRef .tc main_arg10) = W2 m ρ c (Proc.devRef .tc main_arg10) by skip_stretch hostOps1).trans hK.k10)
  k11 := (W4_of_ne m ρ c main_arg11 (by decide)).trans ((show W3 m ρ c (Proc.devRef .tc main_arg11) = W2 m ρ c (Proc.devRef .tc main_arg11) by skip_stretch hostOps1).trans hK.k11)
  k12 := (W4_of_ne m ρ c main_arg12 (by decide)).trans ((show W3 m ρ c (Proc.devRef .tc main_arg12) = W2 m ρ c (Proc.devRef .tc main_arg12) by skip_stretch hostOps1).trans hK.k12)

set_option maxHeartbeats 4000000 in
/-- The region's result array holds the reference's stage of this layer. -/
theorem out4 (hK : Keep m c (W2 m ρ c)) (hH : W2 m ρ c (Proc.devRef .tc main_v33) = H1 m c) :
    W4 m ρ c (Proc.devRef .tc main_v60) = H2 m c := by
  have e0 : V3 m ρ c main_v45 = Cert.ReferenceIdeal.ReadP.val_main_v80 (F := Ideal) (a0 m c) (a1 m c) (a3 m c) (a4 m c) (a5 m c) (a9 m c) (a10 m c) (a11 m c) (a12 m c) := by
    show StableHlo.after hostOps1 (W2 m ρ c) (Proc.devRef .tc main_v45) = _
    after_results_simp
    rw [hH, hK.src, hK.tgt, hK.deg]
    rfl
  have e1 : V3 m ρ c main_v33 = H1 m c :=
    (show W3 m ρ c (Proc.devRef .tc main_v33) = W2 m ρ c (Proc.devRef .tc main_v33) by skip_stretch hostOps1).trans hH
  have e2 : V3 m ρ c main_v47 = Cert.ReferenceIdeal.ReadP.val_main_v56 (F := Ideal) (a6 m c) := by
    show StableHlo.after hostOps1 (W2 m ρ c) (Proc.devRef .tc main_v47) = _; after_results_simp; rw [hK.k6]; rfl
  have e3 : V3 m ρ c main_v49 = Cert.ReferenceIdeal.ReadP.val_main_v58 (F := Ideal) (a7 m c) := by
    show StableHlo.after hostOps1 (W2 m ρ c) (Proc.devRef .tc main_v49) = _; after_results_simp; rw [hK.k7]; rfl
  have e4 : V3 m ρ c main_v51 = Cert.ReferenceIdeal.ReadP.val_main_v60 (F := Ideal) (a8 m c) := by
    show StableHlo.after hostOps1 (W2 m ρ c) (Proc.devRef .tc main_v51) = _; after_results_simp; rw [hK.k8]; rfl
  have e5 : V3 m ρ c main_v53 = Cert.ReferenceIdeal.ReadP.val_main_v62 (F := Ideal) (a9 m c) := by
    show StableHlo.after hostOps1 (W2 m ρ c) (Proc.devRef .tc main_v53) = _; after_results_simp; rw [hK.k9]; rfl
  have e6 : V3 m ρ c main_v55 = Cert.ReferenceIdeal.ReadP.val_main_v64 (F := Ideal) (a10 m c) := by
    show StableHlo.after hostOps1 (W2 m ρ c) (Proc.devRef .tc main_v55) = _; after_results_simp; rw [hK.k10]; rfl
  have e7 : V3 m ρ c main_v57 = Cert.ReferenceIdeal.ReadP.val_main_v66 (F := Ideal) (a11 m c) := by
    show StableHlo.after hostOps1 (W2 m ρ c) (Proc.devRef .tc main_v57) = _; after_results_simp; rw [hK.k11]; rfl
  have e8 : V3 m ρ c main_v59 = Cert.ReferenceIdeal.ReadP.val_main_v68 (F := Ideal) (a12 m c) := by
    show StableHlo.after hostOps1 (W2 m ρ c) (Proc.devRef .tc main_v59) = _; after_results_simp; rw [hK.k12]; rfl
  refine (W4_arr m ρ c 9).trans ?_
  rw [RegionValue.final1 (V3 m ρ) c, e0, e1, e2, e3, e4, e5, e6, e7, e8]
  exact (Cert.ReferenceIdeal.RefValue.h2_eq (a0 m c) (a1 m c) (a3 m c) (a4 m c) (a5 m c) (a6 m c) (a7 m c) (a8 m c) (a9 m c) (a10 m c) (a11 m c) (a12 m c)).symm

end Cert.KernelIdeal.Fold

end
-- ==== Proof.FoldStep2.lean ====
/-
  Layer 3: the stretch of host operations before its region, and the region. If at the previous region's exit the
  previous layer's result array holds the reference's stage of that layer and the surviving buffers are intact, then
  the stretch computes the neighbourhood means of that array and the layer's slices of the weight and statistic
  arrays exactly as the reference's stages do (the same gather, scatter-add and scaling by the inverse degrees, read
  off the same edge rows), the region leaves the layer of those arrays in its result array, and that is the
  reference's stage of this layer; the surviving buffers stay intact, no operation of the stretch and no array of
  the region being one of them.
-/
import proofs.«138073_j73581379715727_1_alg».proof.Proof.FoldBase
import proofs.«138073_j73581379715727_1_alg».proof.Proof.RegionR
import proofs.«138073_j73581379715727_1_alg».proof.Proof.RefLayers

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The surviving buffers, through the stretch and the region. -/
theorem keep6 (hK : Keep m c (W4 m ρ c)) : Keep m c (W6 m ρ c) where
  src := (W6_of_ne m ρ c main_v1 (by decide)).trans ((show W5 m ρ c (Proc.devRef .tc main_v1) = W4 m ρ c (Proc.devRef .tc main_v1) by skip_stretch hostOps2).trans hK.src)
  tgt := (W6_of_ne m ρ c main_v3 (by decide)).trans ((show W5 m ρ c (Proc.devRef .tc main_v3) = W4 m ρ c (Proc.devRef .tc main_v3) by skip_stretch hostOps2).trans hK.tgt)
  deg := (W6_of_ne m ρ c main_v12 (by decide)).trans ((show W5 m ρ c (Proc.devRef .tc main_v12) = W4 m ρ c (Proc.devRef .tc main_v12) by skip_stretch hostOps2).trans hK.deg)
  k2 := (W6_of_ne m ρ c main_arg2 (by decide)).trans ((show W5 m ρ c (Proc.devRef .tc main_arg2) = W4 m ρ c (Proc.devRef .tc main_arg2) by skip_stretch hostOps2).trans hK.k2)
  k6 := (W6_of_ne m ρ c main_arg6 (by decide)).trans ((show W5 m ρ c (Proc.devRef .tc main_arg6) = W4 m ρ c (Proc.devRef .tc main_arg6) by skip_stretch hostOps2).trans hK.k6)
  k7 := (W6_of_ne m ρ c main_arg7 (by decide)).trans ((show W5 m ρ c (Proc.devRef .tc main_arg7) = W4 m ρ c (Proc.devRef .tc main_arg7) by skip_stretch hostOps2).trans hK.k7)
  k8 := (W6_of_ne m ρ c main_arg8 (by decide)).trans ((show W5 m ρ c (Proc.devRef .tc main_arg8) = W4 m ρ c (Proc.devRef .tc main_arg8) by skip_stretch hostOps2).trans hK.k8)
  k9 := (W6_of_ne m ρ c main_arg9 (by decide)).trans ((show W5 m ρ c (Proc.devRef .tc main_arg9) = W4 m ρ c (Proc.devRef .tc main_arg9) by skip_stretch hostOps2).trans hK.k9)
  k10 := (W6_of_ne m ρ c main_arg10 (by decide)).trans ((show W5 m ρ c (Proc.devRef .tc main_arg10) = W4 m ρ c (Proc.devRef .tc main_arg10) by skip_stretch hostOps2).trans hK.k10)
  k11 := (W6_of_ne m ρ c main_arg11 (by decide)).trans ((show W5 m ρ c (Proc.devRef .tc main_arg11) = W4 m ρ c (Proc.devRef .tc main_arg11) by skip_stretch hostOps2).trans hK.k11)
  k12 := (W6_of_ne m ρ c main_arg12 (by decide)).trans ((show W5 m ρ c (Proc.devRef .tc main_arg12) = W4 m ρ c (Proc.devRef .tc main_arg12) by skip_stretch hostOps2).trans hK.k12)

set_option maxHeartbeats 4000000 in
/-- The region's result array holds the reference's stage of this layer. -/
theorem out6 (hK : Keep m c (W4 m ρ c)) (hH : W4 m ρ c (Proc.devRef .tc main_v60) = H2 m c) :
    W6 m ρ c (Proc.devRef .tc main_v87) = H3 m c := by
  have e0 : V5 m ρ c main_v72 = Cert.ReferenceIdeal.ReadP.val_main_v129 (F := Ideal) (a0 m c) (a1 m c) (a3 m c) (a4 m c) (a5 m c) (a6 m c) (a7 m c) (a8 m c) (a9 m c) (a10 m c) (a11 m c) (a12 m c) := by
    show StableHlo.after hostOps2 (W4 m ρ c) (Proc.devRef .tc main_v72) = _
    after_results_simp
    rw [hH, hK.src, hK.tgt, hK.deg]
    rfl
  have e1 : V5 m ρ c main_v60 = H2 m c :=
    (show W5 m ρ c (Proc.devRef .tc main_v60) = W4 m ρ c (Proc.devRef .tc main_v60) by skip_stretch hostOps2).trans hH
  have e2 : V5 m ρ c main_v74 = Cert.ReferenceIdeal.ReadP.val_main_v105 (F := Ideal) (a6 m c) := by
    show StableHlo.after hostOps2 (W4 m ρ c) (Proc.devRef .tc main_v74) = _; after_results_simp; rw [hK.k6]; rfl
  have e3 : V5 m ρ c main_v76 = Cert.ReferenceIdeal.ReadP.val_main_v107 (F := Ideal) (a7 m c) := by
    show StableHlo.after hostOps2 (W4 m ρ c) (Proc.devRef .tc main_v76) = _; after_results_simp; rw [hK.k7]; rfl
  have e4 : V5 m ρ c main_v78 = Cert.ReferenceIdeal.ReadP.val_main_v109 (F := Ideal) (a8 m c) := by
    show StableHlo.after hostOps2 (W4 m ρ c) (Proc.devRef .tc main_v78) = _; after_results_simp; rw [hK.k8]; rfl
  have e5 : V5 m ρ c main_v80 = Cert.ReferenceIdeal.ReadP.val_main_v111 (F := Ideal) (a9 m c) := by
    show StableHlo.after hostOps2 (W4 m ρ c) (Proc.devRef .tc main_v80) = _; after_results_simp; rw [hK.k9]; rfl
  have e6 : V5 m ρ c main_v82 = Cert.ReferenceIdeal.ReadP.val_main_v113 (F := Ideal) (a10 m c) := by
    show StableHlo.after hostOps2 (W4 m ρ c) (Proc.devRef .tc main_v82) = _; after_results_simp; rw [hK.k10]; rfl
  have e7 : V5 m ρ c main_v84 = Cert.ReferenceIdeal.ReadP.val_main_v115 (F := Ideal) (a11 m c) := by
    show StableHlo.after hostOps2 (W4 m ρ c) (Proc.devRef .tc main_v84) = _; after_results_simp; rw [hK.k11]; rfl
  have e8 : V5 m ρ c main_v86 = Cert.ReferenceIdeal.ReadP.val_main_v117 (F := Ideal) (a12 m c) := by
    show StableHlo.after hostOps2 (W4 m ρ c) (Proc.devRef .tc main_v86) = _; after_results_simp; rw [hK.k12]; rfl
  refine (W6_arr m ρ c 9).trans ?_
  rw [RegionValue.final2 (V5 m ρ) c, e0, e1, e2, e3, e4, e5, e6, e7, e8]
  exact (Cert.ReferenceIdeal.RefValue.h3_eq (a0 m c) (a1 m c) (a3 m c) (a4 m c) (a5 m c) (a6 m c) (a7 m c) (a8 m c) (a9 m c) (a10 m c) (a11 m c) (a12 m c)).symm

end Cert.KernelIdeal.Fold

end
-- ==== Proof.FoldStep3.lean ====
/-
  Layer 4: the stretch of host operations before its region, and the region. If at the previous region's exit the
  previous layer's result array holds the reference's stage of that layer and the surviving buffers are intact, then
  the stretch computes the neighbourhood means of that array and the layer's slices of the weight and statistic
  arrays exactly as the reference's stages do (the same gather, scatter-add and scaling by the inverse degrees, read
  off the same edge rows), the region leaves the layer of those arrays in its result array, and that is the
  reference's stage of this layer; the surviving buffers stay intact, no operation of the stretch and no array of
  the region being one of them.
-/
import proofs.«138073_j73581379715727_1_alg».proof.Proof.FoldBase
import proofs.«138073_j73581379715727_1_alg».proof.Proof.RegionR
import proofs.«138073_j73581379715727_1_alg».proof.Proof.RefLayers

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The surviving buffers, through the stretch and the region. -/
theorem keep8 (hK : Keep m c (W6 m ρ c)) : Keep m c (W8 m ρ c) where
  src := (W8_of_ne m ρ c main_v1 (by decide)).trans ((show W7 m ρ c (Proc.devRef .tc main_v1) = W6 m ρ c (Proc.devRef .tc main_v1) by skip_stretch hostOps3).trans hK.src)
  tgt := (W8_of_ne m ρ c main_v3 (by decide)).trans ((show W7 m ρ c (Proc.devRef .tc main_v3) = W6 m ρ c (Proc.devRef .tc main_v3) by skip_stretch hostOps3).trans hK.tgt)
  deg := (W8_of_ne m ρ c main_v12 (by decide)).trans ((show W7 m ρ c (Proc.devRef .tc main_v12) = W6 m ρ c (Proc.devRef .tc main_v12) by skip_stretch hostOps3).trans hK.deg)
  k2 := (W8_of_ne m ρ c main_arg2 (by decide)).trans ((show W7 m ρ c (Proc.devRef .tc main_arg2) = W6 m ρ c (Proc.devRef .tc main_arg2) by skip_stretch hostOps3).trans hK.k2)
  k6 := (W8_of_ne m ρ c main_arg6 (by decide)).trans ((show W7 m ρ c (Proc.devRef .tc main_arg6) = W6 m ρ c (Proc.devRef .tc main_arg6) by skip_stretch hostOps3).trans hK.k6)
  k7 := (W8_of_ne m ρ c main_arg7 (by decide)).trans ((show W7 m ρ c (Proc.devRef .tc main_arg7) = W6 m ρ c (Proc.devRef .tc main_arg7) by skip_stretch hostOps3).trans hK.k7)
  k8 := (W8_of_ne m ρ c main_arg8 (by decide)).trans ((show W7 m ρ c (Proc.devRef .tc main_arg8) = W6 m ρ c (Proc.devRef .tc main_arg8) by skip_stretch hostOps3).trans hK.k8)
  k9 := (W8_of_ne m ρ c main_arg9 (by decide)).trans ((show W7 m ρ c (Proc.devRef .tc main_arg9) = W6 m ρ c (Proc.devRef .tc main_arg9) by skip_stretch hostOps3).trans hK.k9)
  k10 := (W8_of_ne m ρ c main_arg10 (by decide)).trans ((show W7 m ρ c (Proc.devRef .tc main_arg10) = W6 m ρ c (Proc.devRef .tc main_arg10) by skip_stretch hostOps3).trans hK.k10)
  k11 := (W8_of_ne m ρ c main_arg11 (by decide)).trans ((show W7 m ρ c (Proc.devRef .tc main_arg11) = W6 m ρ c (Proc.devRef .tc main_arg11) by skip_stretch hostOps3).trans hK.k11)
  k12 := (W8_of_ne m ρ c main_arg12 (by decide)).trans ((show W7 m ρ c (Proc.devRef .tc main_arg12) = W6 m ρ c (Proc.devRef .tc main_arg12) by skip_stretch hostOps3).trans hK.k12)

set_option maxHeartbeats 4000000 in
/-- The region's result array holds the reference's stage of this layer. -/
theorem out8 (hK : Keep m c (W6 m ρ c)) (hH : W6 m ρ c (Proc.devRef .tc main_v87) = H3 m c) :
    W8 m ρ c (Proc.devRef .tc main_v114) = H4 m c := by
  have e0 : V7 m ρ c main_v99 = Cert.ReferenceIdeal.ReadP.val_main_v178 (F := Ideal) (a0 m c) (a1 m c) (a3 m c) (a4 m c) (a5 m c) (a6 m c) (a7 m c) (a8 m c) (a9 m c) (a10 m c) (a11 m c) (a12 m c) := by
    show StableHlo.after hostOps3 (W6 m ρ c) (Proc.devRef .tc main_v99) = _
    after_results_simp
    rw [hH, hK.src, hK.tgt, hK.deg]
    rfl
  have e1 : V7 m ρ c main_v87 = H3 m c :=
    (show W7 m ρ c (Proc.devRef .tc main_v87) = W6 m ρ c (Proc.devRef .tc main_v87) by skip_stretch hostOps3).trans hH
  have e2 : V7 m ρ c main_v101 = Cert.ReferenceIdeal.ReadP.val_main_v154 (F := Ideal) (a6 m c) := by
    show StableHlo.after hostOps3 (W6 m ρ c) (Proc.devRef .tc main_v101) = _; after_results_simp; rw [hK.k6]; rfl
  have e3 : V7 m ρ c main_v103 = Cert.ReferenceIdeal.ReadP.val_main_v156 (F := Ideal) (a7 m c) := by
    show StableHlo.after hostOps3 (W6 m ρ c) (Proc.devRef .tc main_v103) = _; after_results_simp; rw [hK.k7]; rfl
  have e4 : V7 m ρ c main_v105 = Cert.ReferenceIdeal.ReadP.val_main_v158 (F := Ideal) (a8 m c) := by
    show StableHlo.after hostOps3 (W6 m ρ c) (Proc.devRef .tc main_v105) = _; after_results_simp; rw [hK.k8]; rfl
  have e5 : V7 m ρ c main_v107 = Cert.ReferenceIdeal.ReadP.val_main_v160 (F := Ideal) (a9 m c) := by
    show StableHlo.after hostOps3 (W6 m ρ c) (Proc.devRef .tc main_v107) = _; after_results_simp; rw [hK.k9]; rfl
  have e6 : V7 m ρ c main_v109 = Cert.ReferenceIdeal.ReadP.val_main_v162 (F := Ideal) (a10 m c) := by
    show StableHlo.after hostOps3 (W6 m ρ c) (Proc.devRef .tc main_v109) = _; after_results_simp; rw [hK.k10]; rfl
  have e7 : V7 m ρ c main_v111 = Cert.ReferenceIdeal.ReadP.val_main_v164 (F := Ideal) (a11 m c) := by
    show StableHlo.after hostOps3 (W6 m ρ c) (Proc.devRef .tc main_v111) = _; after_results_simp; rw [hK.k11]; rfl
  have e8 : V7 m ρ c main_v113 = Cert.ReferenceIdeal.ReadP.val_main_v166 (F := Ideal) (a12 m c) := by
    show StableHlo.after hostOps3 (W6 m ρ c) (Proc.devRef .tc main_v113) = _; after_results_simp; rw [hK.k12]; rfl
  refine (W8_arr m ρ c 9).trans ?_
  rw [RegionValue.final3 (V7 m ρ) c, e0, e1, e2, e3, e4, e5, e6, e7, e8]
  exact (Cert.ReferenceIdeal.RefValue.h4_eq (a0 m c) (a1 m c) (a3 m c) (a4 m c) (a5 m c) (a6 m c) (a7 m c) (a8 m c) (a9 m c) (a10 m c) (a11 m c) (a12 m c)).symm

end Cert.KernelIdeal.Fold

end
-- ==== Proof.HeadPay.lean ====
/-
  The head's arithmetic at one pooled row. A product of a [5000,128] array with a [128,n] matrix, accumulated from
  zero, is at entry (r, j) the sum over k of left (r, k) * right (k, j); adding the bias row and taking the maximum
  with zero gives one rectified dense map of row r. The head is two such maps followed by a product with a
  [128,1] matrix and its one bias entry, so its entry (r, 0) depends on row r of the pooled array only.
-/
import proofs.«138073_j73581379715727_1_alg».proof.Proof.Gen.KernelIdeal.Skeleton
import proofs.«138073_j73581379715727_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HeadPay

open Cert.KernelIdeal Cert.KernelIdeal.Gen Idealize.ShloMosaic
open Idealize.ShloMosaic.ValueIdx

/-- The left operand's index of a one-axis contraction keeps the result's row … -/
theorem sq_lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the right operand's keeps the result's column. -/
theorem sq_rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] by [128,128] product accumulated from zero, at entry (r, j): the sum over the one contracted axis. -/
theorem matmul_sq_apply {φ₁ φ₂ : FTy} (l : FVec Ideal S5000x128 φ₁) (w : FVec Ideal S128x128 φ₂) (r : Fin 5000) (j : Fin 128) :
    matmul dot_S5000x128_S128x128_S5000x128_1_0_0_1_n_n none l w (constant S5000x128 .f32 0x00000000#32) (ix2 r j)
      = ∑ k : Fin 128, l (ix2 r k) * w (ix2 k j) := by
  show FloatOps.matmul dot_S5000x128_S128x128_S5000x128_1_0_0_1_n_n none l w (constant S5000x128 .f32 0x00000000#32) (ix2 r j) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j) ((contrEquiv1 dot_S5000x128_S128x128_S5000x128_1_0_0_1_n_n 128 rfl rfl).symm k) = ix2 r k :=
    funext fun a => Fin.ext (by
      match a with
      | ⟨0, _⟩ => exact sq_lhs_0 _ _
      | ⟨1, _⟩ => exact (dot_S5000x128_S128x128_S5000x128_1_0_0_1_n_n.lhsIdx_val_of_single rfl _ _).trans hk)
  have er : dot_S5000x128_S128x128_S5000x128_1_0_0_1_n_n.rhsIdx (ix2 r j) ((contrEquiv1 dot_S5000x128_S128x128_S5000x128_1_0_0_1_n_n 128 rfl rfl).symm k) = ix2 k j :=
    funext fun a => Fin.ext (by
      match a with
      | ⟨0, _⟩ => exact (dot_S5000x128_S128x128_S5000x128_1_0_0_1_n_n.rhsIdx_val_of_single rfl _ _).trans hk
      | ⟨1, _⟩ => exact sq_rhs_1 _ _)
  rw [el, er]

/-- The [5000,128] by [128,1] product: its left operand's index keeps the result's row … -/
theorem col_lhs_0 (i : S5000x1.Idx) (q : dot_S5000x128_S128x1_S5000x1_1_0_0_1_n_n.contr.Idx) :
    (dot_S5000x128_S128x1_S5000x1_1_0_0_1_n_n.lhsIdx i q 0).val = (i 0).val := by
  unfold DotDims.lhsIdx
  rw [dif_neg (show ¬(0 : Fin S5000x128.rank) ∈ dot_S5000x128_S128x1_S5000x1_1_0_0_1_n_n.lhsBatch by decide), dif_pos (show (0 : Fin S5000x128.rank) ∈ dot_S5000x128_S128x1_S5000x1_1_0_0_1_n_n.lhsNonContracting by decide)]
  rfl
/-- … and its right operand's the result's (one) column. -/
theorem col_rhs_1 (i : S5000x1.Idx) (q : dot_S5000x128_S128x1_S5000x1_1_0_0_1_n_n.contr.Idx) :
    (dot_S5000x128_S128x1_S5000x1_1_0_0_1_n_n.rhsIdx i q 1).val = (i 1).val := by
  unfold DotDims.rhsIdx
  rw [dif_neg (show ¬(1 : Fin S128x1.rank) ∈ dot_S5000x128_S128x1_S5000x1_1_0_0_1_n_n.rhsBatch by decide), dif_pos (show (1 : Fin S128x1.rank) ∈ dot_S5000x128_S128x1_S5000x1_1_0_0_1_n_n.rhsNonContracting by decide)]
  rfl

/-- A [5000,128] by [128,1] product accumulated from zero, at entry (r, q): the sum over the one contracted axis. -/
theorem matmul_col_apply {φ₁ φ₂ : FTy} (l : FVec Ideal S5000x128 φ₁) (w : FVec Ideal S128x1 φ₂) (r : Fin 5000) (q : Fin 1) :
    matmul dot_S5000x128_S128x1_S5000x1_1_0_0_1_n_n none l w (constant S5000x1 .f32 0x00000000#32) (ix2 r q)
      = ∑ k : Fin 128, l (ix2 r k) * w (ix2 k q) := by
  show FloatOps.matmul dot_S5000x128_S128x1_S5000x1_1_0_0_1_n_n none l w (constant S5000x1 .f32 0x00000000#32) (ix2 r q) = _
  rw [Ideal.matmul_constant_zero_apply, ← Equiv.sum_comp (contrEquiv1 dot_S5000x128_S128x1_S5000x1_1_0_0_1_n_n 128 rfl rfl).symm]
  refine Finset.sum_congr rfl fun k _ => ?_
  have hk := contrEquiv1_symm_val dot_S5000x128_S128x1_S5000x1_1_0_0_1_n_n 128 rfl rfl k
  have el : dot_S5000x128_S128x1_S5000x1_1_0_0_1_n_n.lhsIdx (ix2 r q) ((contrEquiv1 dot_S5000x128_S128x1_S5000x1_1_0_0_1_n_n 128 rfl rfl).symm k) = ix2 r k :=
    funext fun a => Fin.ext (by
      match a with
      | ⟨0, _⟩ => exact col_lhs_0 _ _
      | ⟨1, _⟩ => exact (dot_S5000x128_S128x1_S5000x1_1_0_0_1_n_n.lhsIdx_val_of_single rfl _ _).trans hk)
  have er : dot_S5000x128_S128x1_S5000x1_1_0_0_1_n_n.rhsIdx (ix2 r q) ((contrEquiv1 dot_S5000x128_S128x1_S5000x1_1_0_0_1_n_n 128 rfl rfl).symm k) = ix2 k q :=
    funext fun a => Fin.ext (by
      match a with
      | ⟨0, _⟩ => exact (dot_S5000x128_S128x1_S5000x1_1_0_0_1_n_n.rhsIdx_val_of_single rfl _ _).trans hk
      | ⟨1, _⟩ => exact col_rhs_1 _ _)
  rw [el, er]

/-- One rectified dense map as the body spells it — the product of ANY left operand with the weights (cast to the
    product's input format, the identity on extended reals) accumulated from zero, the bias row broadcast over the
    rows and added, the maximum with a zero splat — at entry (r, j) is the dense map of the left operand's row r. -/
theorem dense_apply (z : FVec Ideal S5000x128 .bf16) (W : Vec Ideal S128x128 .f32) (b : Vec Ideal S128 .f32)
    (hlt : FTy.bits .bf16 < FTy.bits .f32) (hc : S128.ShapeCasts S1x128) (hb : S1x128.Broadcasts S5000x128)
    (r : Fin 5000) (j : Fin 128) :
    maximumf (addf (matmul dot_S5000x128_S128x128_S5000x128_1_0_0_1_n_n none z (truncf .bf16 W hlt) (constant S5000x128 .f32 0x00000000#32))
          (broadcastTo S5000x128 (shapeCast S1x128 b hc) hb))
        (broadcast S5000x128 (Scalar.ofBits (F := Ideal) .f32 0x00000000#32)) (ix2 r j)
      = SageNet.denseRelu (fun k => z (ix2 r k)) W b j := by
  rw [maximumf_apply, addf_apply, broadcast_apply, matmul_sq_apply, broadcastTo_1b_ab_apply, shapeCast_a_1a_apply]
  show max (_ + _) (Ideal.ofBits .f32 0x00000000#32) = _
  rw [Ideal.ofBits_zero_f32]
  rfl

/-- THE HEAD'S PAYLOAD AT A ROW: entry (r, 0) of what the body stores is the head at pooled row r — two rectified
    dense maps of the row and the last product with its bias entry. -/
theorem head_pay_apply (v0 : Vec Ideal S5000x128 .f32) (v3 : Vec Ideal S128x128 .f32) (v6 : Vec Ideal S128 .f32)
    (v13 : Vec Ideal S128x128 .f32) (v16 : Vec Ideal S128 .f32) (v23 : Vec Ideal S128x1 .f32) (v26 : Vec Ideal S1 .f32)
    (r : Fin 5000) :
    k4_pay1 v0 v3 v6 v13 v16 v23 v26 (ix2 r (0 : Fin 1)) = SageNet.mlpAt v0 v3 v6 v13 v16 v23 v26 r := by
  unfold k4_pay1
  rw [addf_apply, matmul_col_apply, broadcastTo_1b_ab_apply, shapeCast_a_1a_apply]
  simp only [truncf_apply, dense_apply, shapeCast_self]
  rfl

end Cert.KernelIdeal.HeadPay

end
-- ==== Proof.Region4.lean ====
/-
  The head's region, read as a value: one grid point whose blocks are the whole arrays. Whatever the arrays hold when
  the region is entered (`V`), its result array afterwards is the head of the pooled rows it found.

  Every window's index map is constant zero, so each input block is its whole array and the output block is the whole
  result array; the body's one store writes the payload, which entry by entry is the head of row r of the pooled
  array (the payload module); the single block covers the result array, so the array ends holding the head.
-/
import proofs.«138073_j73581379715727_1_alg».proof.Proof.Gen.KernelIdeal.Frame
import proofs.«138073_j73581379715727_1_alg».proof.Proof.Spec
import proofs.«138073_j73581379715727_1_alg».proof.Proof.HeadPay
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (V : (c : Dev nD) → (b : Ref sig .tc) → Buf (Elt Ideal) ((c : Thread nD τ).loc b))

/-- The zero offsets of a rank-2 access. -/
theorem zero_off4_2 : (![0, 0] : Fin 2 → Nat) = fun _ => 0 := funext fun a => by fin_cases a <;> rfl
/-- The zero offset of a rank-1 access. -/
theorem zero_off4_1 : (![0] : Fin 1 → Nat) = fun _ => 0 := funext fun a => by fin_cases a <;> rfl

/-- The index maps of the region's eight windows are constant zero: at the one grid point every block starts at the
    origin of its array. -/
theorem idx_facts4 : ∀ t : Fin cfg4.N,
    win4_0.index t (0 : Fin 2) = 0 ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = 0 ∧ win4_3.index t (1 : Fin 2) = 0
    ∧ win4_4.index t (0 : Fin 1) = 0
    ∧ win4_5.index t (0 : Fin 2) = 0 ∧ win4_5.index t (1 : Fin 2) = 0
    ∧ win4_6.index t (0 : Fin 1) = 0
    ∧ win4_7.index t (0 : Fin 2) = 0 ∧ win4_7.index t (1 : Fin 2) = 0 :=
  (by decide +kernel : ∀ t : Fin grid4.N, _)

/-- The pooled rows' block is the whole array. -/
theorem iblk4_0_eq (c : Dev nD) (t : Fin cfg4.N) : (iblk4 V c 0 t : S5000x128.Idx → EReal) = V c main_v126 := by
  obtain ⟨e0, e1, -⟩ := idx_facts4 t
  unfold iblk4
  funext x
  rw [View.read_apply]
  show V c main_v126 (((cfg4.win 0).blk t).view.emb x) = V c main_v126 x
  refine congrArg _ (funext fun a => Fin.ext ?_)
  match a with
  | ⟨0, _⟩ => show win4_0.index t (0 : Fin 2) * 5000 + 1 * (x 0).val = (x 0).val; omega
  | ⟨1, _⟩ => show win4_0.index t (1 : Fin 2) * 128 + 1 * (x 1).val = (x 1).val; omega

/-- The first weight matrix's block is the whole array. -/
theorem iblk4_1_eq (c : Dev nD) (t : Fin cfg4.N) : (iblk4 V c 1 t : S128x128.Idx → EReal) = V c main_arg13 := by
  obtain ⟨-, -, e0, e1, -⟩ := idx_facts4 t
  unfold iblk4
  funext x
  rw [View.read_apply]
  show V c main_arg13 (((cfg4.win 1).blk t).view.emb x) = V c main_arg13 x
  refine congrArg _ (funext fun a => Fin.ext ?_)
  match a with
  | ⟨0, _⟩ => show win4_1.index t (0 : Fin 2) * 128 + 1 * (x 0).val = (x 0).val; omega
  | ⟨1, _⟩ => show win4_1.index t (1 : Fin 2) * 128 + 1 * (x 1).val = (x 1).val; omega

/-- The first bias row's block is the whole array. -/
theorem iblk4_2_eq (c : Dev nD) (t : Fin cfg4.N) : (iblk4 V c 2 t : S128.Idx → EReal) = V c main_arg14 := by
  obtain ⟨-, -, -, -, e0, -⟩ := idx_facts4 t
  unfold iblk4
  funext x
  rw [View.read_apply]
  show V c main_arg14 (((cfg4.win 2).blk t).view.emb x) = V c main_arg14 x
  refine congrArg _ (funext fun a => Fin.ext ?_)
  match a with
  | ⟨0, _⟩ => show win4_2.index t (0 : Fin 1) * 128 + 1 * (x 0).val = (x 0).val; omega

/-- The second weight matrix's block is the whole array. -/
theorem iblk4_3_eq (c : Dev nD) (t : Fin cfg4.N) : (iblk4 V c 3 t : S128x128.Idx → EReal) = V c main_arg15 := by
  obtain ⟨-, -, -, -, -, e0, e1, -⟩ := idx_facts4 t
  unfold iblk4
  funext x
  rw [View.read_apply]
  show V c main_arg15 (((cfg4.win 3).blk t).view.emb x) = V c main_arg15 x
  refine congrArg _ (funext fun a => Fin.ext ?_)
  match a with
  | ⟨0, _⟩ => show win4_3.index t (0 : Fin 2) * 128 + 1 * (x 0).val = (x 0).val; omega
  | ⟨1, _⟩ => show win4_3.index t (1 : Fin 2) * 128 + 1 * (x 1).val = (x 1).val; omega

/-- The second bias row's block is the whole array. -/
theorem iblk4_4_eq (c : Dev nD) (t : Fin cfg4.N) : (iblk4 V c 4 t : S128.Idx → EReal) = V c main_arg16 := by
  obtain ⟨-, -, -, -, -, -, -, e0, -⟩ := idx_facts4 t
  unfold iblk4
  funext x
  rw [View.read_apply]
  show V c main_arg16 (((cfg4.win 4).blk t).view.emb x) = V c main_arg16 x
  refine congrArg _ (funext fun a => Fin.ext ?_)
  match a with
  | ⟨0, _⟩ => show win4_4.index t (0 : Fin 1) * 128 + 1 * (x 0).val = (x 0).val; omega

/-- The last weight column's block is the whole array. -/
theorem iblk4_5_eq (c : Dev nD) (t : Fin cfg4.N) : (iblk4 V c 5 t : S128x1.Idx → EReal) = V c main_arg17 := by
  obtain ⟨-, -, -, -, -, -, -, -, e0, e1, -⟩ := idx_facts4 t
  unfold iblk4
  funext x
  rw [View.read_apply]
  show V c main_arg17 (((cfg4.win 5).blk t).view.emb x) = V c main_arg17 x
  refine congrArg _ (funext fun a => Fin.ext ?_)
  match a with
  | ⟨0, _⟩ => show win4_5.index t (0 : Fin 2) * 128 + 1 * (x 0).val = (x 0).val; omega
  | ⟨1, _⟩ => show win4_5.index t (1 : Fin 2) * 1 + 1 * (x 1).val = (x 1).val; omega

/-- The last bias entry's block is the whole array. -/
theorem iblk4_6_eq (c : Dev nD) (t : Fin cfg4.N) : (iblk4 V c 6 t : S1.Idx → EReal) = V c main_arg18 := by
  obtain ⟨-, -, -, -, -, -, -, -, -, -, e0, -⟩ := idx_facts4 t
  unfold iblk4
  funext x
  rw [View.read_apply]
  show V c main_arg18 (((cfg4.win 6).blk t).view.emb x) = V c main_arg18 x
  refine congrArg _ (funext fun a => Fin.ext ?_)
  match a with
  | ⟨0, _⟩ => show win4_6.index t (0 : Fin 1) * 1 + 1 * (x 0).val = (x 0).val; omega

/-- The body's payload is the head of its operands, as arrays. -/
theorem head_pay4_eq (x0 : Vec Ideal S5000x128 .f32) (x1 : Vec Ideal S128x128 .f32) (x2 : Vec Ideal S128 .f32)
    (x3 : Vec Ideal S128x128 .f32) (x4 : Vec Ideal S128 .f32) (x5 : Vec Ideal S128x1 .f32) (x6 : Vec Ideal S1 .f32) :
    k4_pay1 x0 x1 x2 x3 x4 x5 x6 = SageNet.mlp x0 x1 x2 x3 x4 x5 x6 := by
  funext y
  obtain ⟨r, q, rfl⟩ : ∃ (r : Fin 5000) (q : Fin 1), y = ix2 r q := ⟨y 0, y 1, eq_ix2 y⟩
  obtain rfl : q = 0 := Subsingleton.elim _ _
  rw [SageNet.mlp_ix2]
  exact HeadPay.head_pay_apply x0 x1 x2 x3 x4 x5 x6 r

/-- WHAT THE ONE POINT WRITES BACK is the block of the head of the arrays the region found: the stored payload is the
    head of the input blocks, each input block is its whole array, and the output block's embedding is the identity. -/
theorem flushed4_7_eq (c : Dev nD) (t : Fin cfg4.N) :
    (dat4 (F := Ideal) V c).flushed 7 t = ((cfg4.win 7).blk t).view.read (Elt Ideal)
      (SageNet.mlp (V c main_v126) (V c main_arg13) (V c main_arg14) (V c main_arg15) (V c main_arg16)
        (V c main_arg17) (V c main_arg18)) := by
  show (cfg4.win 7).cut (grid4.coords t) ((dat4 V c).after 7 t) = _
  rw [after4_7]
  unfold out4_7
  rw [View.canon_unit_zero zero_off4_2]
  simp only [View.ld_unit_zero (S := S5000x128) zero_off4_2, View.ld_unit_zero (S := S128x128) zero_off4_2, View.ld_unit_zero (S := S128x1) zero_off4_2,
    View.ld_unit_zero (S := S128) zero_off4_1, View.ld_unit_zero (S := S1) zero_off4_1]
  rw [iblk4_0_eq V c t, iblk4_1_eq V c t, iblk4_2_eq V c t, iblk4_3_eq V c t, iblk4_4_eq V c t, iblk4_5_eq V c t,
    iblk4_6_eq V c t, head_pay4_eq]
  obtain ⟨-, -, -, -, -, -, -, -, -, -, -, e0, e1⟩ := idx_facts4 t
  funext y
  show SageNet.mlp (V c main_v126) (V c main_arg13) (V c main_arg14) (V c main_arg15) (V c main_arg16) (V c main_arg17)
      (V c main_arg18) y
    = SageNet.mlp (V c main_v126) (V c main_arg13) (V c main_arg14) (V c main_arg15) (V c main_arg16) (V c main_arg17)
      (V c main_arg18) (((cfg4.win 7).blk t).view.emb y)
  refine congrArg _ (funext fun a => Fin.ext ?_)
  match a with
  | ⟨0, _⟩ => show (y 0).val = win4_7.index t (0 : Fin 2) * 5000 + 1 * (y 0).val; omega
  | ⟨1, _⟩ => show (y 1).val = win4_7.index t (1 : Fin 2) * 1 + 1 * (y 1).val; omega

/-- An index of the result array is in the point's block iff each coordinate is in the block's range on its axis. -/
theorem mem_blk4_7 (t : Fin cfg4.N) (i : S5000x1.Idx) :
    i ∈ ((cfg4.win 7).blk t).view.set ↔ ∀ a : Fin 2, win4_7.index t a * S5000x1.size a ≤ (i a).val ∧ (i a).val < win4_7.index t a * S5000x1.size a + S5000x1.size a := by
  show i ∈ ((View.whole main_v127).slice (win4_7.rect t)).set ↔ _
  rw [View.set_slice_whole, Rect.mem_set_unit]
  exact Iff.rfl

/-- The one point's block covers the result array. -/
theorem cover4 (i : S5000x1.Idx) : ∃ t : Fin cfg4.N, (cfg4.win 7).flush t = true ∧ i ∈ ((cfg4.win 7).blk t).view.set := by
  obtain ⟨-, -, -, -, -, -, -, -, -, -, -, e0, e1⟩ := idx_facts4 t4_0
  refine ⟨t4_0, flush4_7 t4_0, ?_⟩
  rw [mem_blk4_7]
  intro a
  have h0 : (i 0).val < 5000 := (i 0).isLt
  have h1 : (i 1).val < 1 := (i 1).isLt
  match a with
  | ⟨0, _⟩ => show win4_7.index t4_0 (0 : Fin 2) * 5000 ≤ (i 0).val ∧ (i 0).val < win4_7.index t4_0 (0 : Fin 2) * 5000 + 5000; omega
  | ⟨1, _⟩ => show win4_7.index t4_0 (1 : Fin 2) * 1 ≤ (i 1).val ∧ (i 1).val < win4_7.index t4_0 (1 : Fin 2) * 1 + 1; omega

/-- After region 4 its output array is the head of the arrays the region found. -/
theorem final4 (c : Dev nD) :
    ((dat4 (F := Ideal) V c).arrAt 7 cfg4.N : S5000x1.Idx → EReal) =
      SageNet.mlp (V c main_v126) (V c main_arg13) (V c main_arg14) (V c main_arg15) (V c main_arg16)
        (V c main_arg17) (V c main_arg18) :=
  (dat4 (F := Ideal) V c).arrAt_eq_of_cover 7
    (SageNet.mlp (V c main_v126) (V c main_arg13) (V c main_arg14) (V c main_arg15) (V c main_arg16)
      (V c main_arg17) (V c main_arg18))
    (fun t _ => flushed4_7_eq V c t) cover4

end Cert.KernelIdeal.RegionValue

end
-- ==== Proof.FoldStep4.lean ====
/-
  The pooling stretch and the head's region. If at the fourth layer's exit its result array holds the reference's
  fourth-layer stage and the graph-assignment argument is intact, the stretch pools that array over the graphs
  (scatter-add of the rows and of ones, the quotient by the clamped counts) exactly as the reference's stages do; the
  head's region then leaves the head of the pooled rows and of the six head arguments — which no segment ever
  writes — in its result array: the reference's result stage.
-/
import proofs.«138073_j73581379715727_1_alg».proof.Proof.FoldBase
import proofs.«138073_j73581379715727_1_alg».proof.Proof.Region4
import proofs.«138073_j73581379715727_1_alg».proof.Proof.RefLayers

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- An argument of the head as the head's region finds it: as launched (it is one of the region's input arrays,
    which the region leaves as it found them, and the arguments end as launched). -/
theorem headArg (w : Fin cfg4.W) (hw : (cfg4.win w).isOut = false) :
    V9 m ρ c (Pipeline.arrRef spec4 w) = W10 m ρ c (Proc.devRef .tc (Pipeline.arrRef spec4 w)) :=
  ((W10_arr m ρ c w).trans (((dat4 (V9 m ρ) c).arrAt_in w hw _).trans (A_eq4 (V9 m ρ) c w))).symm

/-- After the head's region the result buffer holds the reference's result stage. -/
theorem out10 (hK : Keep m c (W8 m ρ c)) (hH : W8 m ρ c (Proc.devRef .tc main_v114) = H4 m c) :
    W10 m ρ c (Proc.devRef .tc main_v127) = OUT m c := by
  have e0 : V9 m ρ c main_v126 = POOL m c := by
    show StableHlo.after hostOps4 (W8 m ρ c) (Proc.devRef .tc main_v126) = _
    after_results_simp
    rw [hH, hK.k2]
    rfl
  have e1 : V9 m ρ c main_arg13 = a13 m c := (headArg m ρ c 1 rfl).trans (W10_main_arg13 m ρ c)
  have e2 : V9 m ρ c main_arg14 = a14 m c := (headArg m ρ c 2 rfl).trans (W10_main_arg14 m ρ c)
  have e3 : V9 m ρ c main_arg15 = a15 m c := (headArg m ρ c 3 rfl).trans (W10_main_arg15 m ρ c)
  have e4 : V9 m ρ c main_arg16 = a16 m c := (headArg m ρ c 4 rfl).trans (W10_main_arg16 m ρ c)
  have e5 : V9 m ρ c main_arg17 = a17 m c := (headArg m ρ c 5 rfl).trans (W10_main_arg17 m ρ c)
  have e6 : V9 m ρ c main_arg18 = a18 m c := (headArg m ρ c 6 rfl).trans (W10_main_arg18 m ρ c)
  refine (W10_arr m ρ c 7).trans ?_
  rw [RegionValue.final4 (V9 m ρ) c, e0, e1, e2, e3, e4, e5, e6]
  exact (Cert.ReferenceIdeal.RefValue.out_eq (a0 m c) (a1 m c) (a2 m c) (a3 m c) (a4 m c) (a5 m c) (a6 m c) (a7 m c) (a8 m c) (a9 m c) (a10 m c) (a11 m c) (a12 m c) (a13 m c) (a14 m c) (a15 m c) (a16 m c) (a17 m c) (a18 m c)).symm

end Cert.KernelIdeal.Fold

end
-- ==== Proof.lean ====
/-
  The certificate. Both programs compute one network: four graph-convolution layers (a mean over each node's
  neighbours, two dense maps, a bias, a batch normalisation with stored statistics, a rectifier, and from the second
  layer on the node's own features added back), a mean pool over the graphs and a three-layer head. The kernel
  program tiles each layer over 25 blocks of 4000 node rows and runs the head on one block; the reference is the
  whole-array program. Read on the extended reals the two differ only in where the bias is added (after the second
  product in the kernel, before it in the reference: addition is commutative and associative), in changes of
  float format (the identity) and in the tiling (each output row depends on one row of each node array).

  The frames of the two kernel programs are the generated ones; the reference's frame is its run with the result
  dropped; the idealization rewrote nothing, so `preserves` is trivial. For `algebraic`: the kernel program's run
  ends with its result buffer at the last segment boundary's contents (Proof/KernelRun.lean), which the fold through
  the segments identifies, layer by layer, with the reference's stages at the same arguments (Proof/FoldStep0 … 4,
  over the regions read as values, Proof/Region0 / RegionR / Region4, and the reference's stages read as the layers,
  Proof/RefLayers; the network itself is Proof/Spec.lean); the reference's run ends at its result stage.
-/
import proofs.«138073_j73581379715727_1_alg».proof.Defs
import proofs.«138073_j73581379715727_1_alg».proof.Proof.Gen.Kernel
import proofs.«138073_j73581379715727_1_alg».proof.Proof.Gen.Kernel.Frame
import proofs.«138073_j73581379715727_1_alg».proof.Proof.Gen.KernelIdeal
import proofs.«138073_j73581379715727_1_alg».proof.Proof.Gen.KernelIdeal.Frame
import proofs.«138073_j73581379715727_1_alg».proof.Proof.Gen.ReferenceIdeal
import proofs.«138073_j73581379715727_1_alg».proof.Proof.Gen.Pre_finite_inputs
import proofs.«138073_j73581379715727_1_alg».proof.Proof.RefRun
import proofs.«138073_j73581379715727_1_alg».proof.Proof.RefRead
import proofs.«138073_j73581379715727_1_alg».proof.Proof.KernelRun
import proofs.«138073_j73581379715727_1_alg».proof.Proof.FoldStep0
import proofs.«138073_j73581379715727_1_alg».proof.Proof.FoldStep1
import proofs.«138073_j73581379715727_1_alg».proof.Proof.FoldStep2
import proofs.«138073_j73581379715727_1_alg».proof.Proof.FoldStep3
import proofs.«138073_j73581379715727_1_alg».proof.Proof.FoldStep4
import Idealize.ShloMosaic.Adequacy
import Idealize.ShloMosaic.Init

set_option maxRecDepth 16384

noncomputable section

namespace Cert.Proof

open Idealize.ShloMosaic Idealize.SL.Sem

/-- The kernel program's result buffer, at the last segment boundary, holds the reference's result stage of the
    launch arguments: the five steps of the fold composed. -/
theorem kernel_result (m : (ℓ : Loc Cert.KernelIdeal.nD Cert.KernelIdeal.τ Cert.KernelIdeal.sig) → Buf (Elt Ideal) ℓ)
    (ρ : Dev Cert.KernelIdeal.nD → PrngReg) (c : Dev Cert.KernelIdeal.nD) :
    Cert.KernelIdeal.Gen.W10 m ρ c (Proc.devRef .tc Cert.KernelIdeal.main_v127) = Cert.KernelIdeal.Fold.OUT m c := by
  have k2 := Cert.KernelIdeal.Fold.keep2 m ρ c
  have o2 := Cert.KernelIdeal.Fold.out2 m ρ c
  have k4 := Cert.KernelIdeal.Fold.keep4 m ρ c k2
  have o4 := Cert.KernelIdeal.Fold.out4 m ρ c k2 o2
  have k6 := Cert.KernelIdeal.Fold.keep6 m ρ c k4
  have o6 := Cert.KernelIdeal.Fold.out6 m ρ c k4 o4
  have k8 := Cert.KernelIdeal.Fold.keep8 m ρ c k6
  have o8 := Cert.KernelIdeal.Fold.out8 m ρ c k6 o6
  exact Cert.KernelIdeal.Fold.out10 m ρ c k8 o8

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- Both runs end with the result at the reference's result stage of the kernel program's launch arguments: the
    kernel's by the fold, the reference's by its run read at arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Fold.OUT m c, ?_, ?_⟩
  · exact (θ_run Cert.KernelIdeal.defs _ _).mono (fun r h c => ⟨(h c).1.trans (kernel_result m ρ c), (h c).2⟩)
      (Cert.KernelIdeal.RunValue.run_named (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v227_eq m' c,
      (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
